-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x256 : Shape := ⟨2, ![1, 256]⟩
abbrev S_ : Shape := ⟨0, ![]⟩
abbrev S2048x256 : Shape := ⟨2, ![2048, 256]⟩
abbrev S1024x256 : Shape := ⟨2, ![1024, 256]⟩

abbrev nBuf : Space → Nat
  | .hbm => 51
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S256x256, .f32⟩
  | .hbm, ⟨6, _⟩ => ⟨S8192x256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S_, .i32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_cst_0 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_cst_1 : Ref sig .tc := ⟨.hbm, 27, rfl⟩
abbrev main_call0_call0_v8 : Ref sig .tc := ⟨.hbm, 28, rfl⟩
abbrev main_call0_call0_cst_2 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_call0_v12 : Ref sig .tc := ⟨.hbm, 33, rfl⟩
abbrev main_call0_call0_cst_3 : Ref sig .tc := ⟨.hbm, 34, rfl⟩
abbrev main_call0_call0_v13 : Ref sig .tc := ⟨.hbm, 35, rfl⟩
abbrev main_call0_call0_cst_4 : Ref sig .tc := ⟨.hbm, 36, rfl⟩
abbrev main_call0_call0_call0_v0 : Ref sig .tc := ⟨.hbm, 37, rfl⟩
abbrev main_call0_call0_call0_v1 : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  h_S_ : 0 < S_.numel
  bcast_S_S1x256 : S_.BroadcastsInDim S1x256 (![] : Fin 0 → Fin S1x256.rank)
  bcast_S8192x1_S8192x256_0_1 : S8192x1.BroadcastsInDim S8192x256 (![0, 1] : Fin 2 → Fin S8192x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1024x1_S1024x256 : S1024x1.Broadcasts S1024x256
  dot_S8192x256_S256x256_S8192x256_1_0_0_1_n_n_wf : DotDims.WF S8192x256 S256x256 S8192x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S256x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S_, .i32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S8192x256, .f32⟩
  | .hbm, ⟨67, _⟩ => ⟨S8192x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S8192x256, .f32⟩
  | .hbm, ⟨72, _⟩ => ⟨S8192x256, .f32⟩
  | .hbm, ⟨73, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_cst_0 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_cst_1 : Ref sig .tc := ⟨.hbm, 52, rfl⟩
abbrev main_call1_call0_v8 : Ref sig .tc := ⟨.hbm, 53, rfl⟩
abbrev main_call1_call0_cst_2 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_call0_v12 : Ref sig .tc := ⟨.hbm, 58, rfl⟩
abbrev main_call1_call0_cst_3 : Ref sig .tc := ⟨.hbm, 59, rfl⟩
abbrev main_call1_call0_v13 : Ref sig .tc := ⟨.hbm, 60, rfl⟩
abbrev main_call1_call0_cst_4 : Ref sig .tc := ⟨.hbm, 61, rfl⟩
abbrev main_call1_call0_call0_v0 : Ref sig .tc := ⟨.hbm, 62, rfl⟩
abbrev main_call1_call0_call0_v1 : Ref sig .tc := ⟨.hbm, 63, rfl⟩
abbrev main_call1_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_6 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  bcast_S_S1x256 : S_.BroadcastsInDim S1x256 (![] : Fin 0 → Fin S1x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.RunCond.lean ====
/-
  The kernel program's run, given its two regions' records: every weakly fair execution of @main terminates,
  and in the final memory EVERY unscoped buffer of a core holds what the last boundary's valuation says —
  the launch contents, then each host stretch applied, then each region's result at the unknowns "outs".
  Reading that valuation at the result array gives the program's value; reading it at an argument gives
  the frame.
-/
import proofs.«165052_j56281251446800_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- From one record per region, entered from the thread state before it and left at the one after it, the
    whole program runs, and the final memory of each core is the last valuation at every unscoped buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => ∀ b ∈ Pipeline.ucRefs τ sig, s.mem (((c : Thread nD τ)).1, b) = V5 m outs c b)
    (hfin := fun c s' => ?_) (hQ := fun _ h => h)
  · -- at launch the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    imodintro
    iapply (pointsTo_read_all (Pipeline.ucRefs τ sig) (fun b => ((c : Thread nD τ).1, b)) (V5 m outs c) s')
    isplitl [Hh] <;> iassumption

end Cert.KernelIdeal.Hand

end
-- ==== Proof.R0Data.lean ====
/- The proof data of the first pipelined call (the degree kernel): what its windows' buffers and its carried
   accumulator hold after each grid point, as explicit terms over the input blocks; the region invariant; and the
   projections of the proof data. Everything is stated at a parameter `V`, the buffer contents when the region is
   entered, and at any float algebra `F`. -/
import proofs.«165052_j56281251446800_1_alg».proof.Proof.Gen.KernelIdeal.Launch
import proofs.«165052_j56281251446800_1_alg».proof.Proof.Gen.KernelIdeal.Skeleton
import proofs.«165052_j56281251446800_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator and the output block, point by point -/

/-- The accumulator after point `n`: at a point `n ≡ 0 (mod 4)` the reset value plus the block's row sums, else the
    previous point's plus the block's row sums. -/
def acc0 (c : Dev nD) : (n : ℕ) → n < cfg0.N → Vec F S1024x1 .f32
  | 0, h => Gen.k0_pay2 (Gen.k0_pay1 (F := F)) (iblk0 V c 0 ⟨0, h⟩)
  | n + 1, h => Gen.k0_pay2 (if (n + 1) % 4 = 0 then (Gen.k0_pay1 (F := F)) else acc0 c n (Nat.lt_of_succ_lt h)) (iblk0 V c 0 ⟨n + 1, h⟩)

/-- What the output window's buffer holds after a point that stores it: the inverse square root of the accumulated
    row sums plus one where that is positive, zero elsewhere. -/
def dinvBlk0 (c : Dev nD) (t : Fin cfg0.N) : Vec F S1024x1 .f32 := Gen.k0_pay3 (acc0 V c t.val t.isLt)

/-! ## The region invariant -/

/-- The scoped buffers other than the carried accumulator, each whole at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- The invariant before position `n`: before the first point every scoped buffer at anything; afterwards the
    accumulator at what the point before left in it, the other scoped buffers at anything. -/
def PhiS0 (c : Dev nD) : (n : ℕ) → n ≤ cfg0.N → sProp 𝕄
  | 0, _ => Pipeline.scopedRest spec0 c
  | n + 1, hn => iprop(owns (c : Thread nD τ) (Memref.whole cc0_scratch0 : Memref sig .tc .vmem S1024x1 .f32) fullShare (acc0 V c n hn) ∗ rest0 c)

theorem PhiS0_zero (c : Dev nD) (n : ℕ) (h : n ≤ cfg0.N) (hz : n = 0) :
    PhiS0 V c n h = (Pipeline.scopedRest spec0 c : sProp 𝕄) := by
  subst hz; rfl

/-- After point `n` (before point `n + 1`): the accumulator at that point's contents. -/
theorem PhiS0_succ (c : Dev nD) (n : ℕ) (hn : n < cfg0.N) :
    PhiS0 V c (n + 1) hn = iprop(owns (c : Thread nD τ) (Memref.whole cc0_scratch0 : Memref sig .tc .vmem S1024x1 .f32) fullShare (acc0 V c n hn) ∗ rest0 c) := rfl

/-- Before a point that is not the first: the accumulator at what the point before left. -/
theorem PhiS0_pos (c : Dev nD) (n : ℕ) (h : n ≤ cfg0.N) (hz : n ≠ 0) :
    PhiS0 V c n h = iprop(owns (c : Thread nD τ) (Memref.whole cc0_scratch0 : Memref sig .tc .vmem S1024x1 .f32) fullShare (acc0 V c (n - 1) (by omega)) ∗ rest0 c) := by
  cases n with
  | zero => exact absurd rfl hz
  | succ n => rfl

/-! ## The accumulator's case equations -/

/-- At a point `≡ 0 (mod 4)` the accumulator restarts from the reset value. -/
theorem acc0_reset (c : Dev nD) (t : Fin cfg0.N) (h0 : t.val % 4 = 0) :
    acc0 V c t.val t.isLt = Gen.k0_pay2 (Gen.k0_pay1 (F := F)) (iblk0 V c 0 t) := by
  obtain ⟨n, hn⟩ := t
  cases n with
  | zero => rfl
  | succ n => exact congrArg (fun a => Gen.k0_pay2 a (iblk0 V c 0 ⟨n + 1, hn⟩)) (if_pos h0)

/-- At any other point it continues from what the point before left. -/
theorem acc0_step (c : Dev nD) (t : Fin cfg0.N) (h0 : ¬t.val % 4 = 0) :
    acc0 V c t.val t.isLt = Gen.k0_pay2 (acc0 V c (t.val - 1) (Nat.lt_of_le_of_lt (Nat.sub_le _ _) t.isLt)) (iblk0 V c 0 t) := by
  obtain ⟨n, hn⟩ := t
  cases n with
  | zero => exact absurd (Nat.zero_mod _) h0
  | succ n => exact congrArg (fun a => Gen.k0_pay2 a (iblk0 V c 0 ⟨n + 1, hn⟩)) (if_neg h0)

/-! ## The pipeline's proof data -/

/-- The proof data of the pipeline on core `c`: the arrays as the region finds them (`V`); after the body at point
    `t` the input's buffer at its block and the output's at `dinvBlk0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dinvBlk0 V c t
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = dinvBlk0 V c t := by dsimp only [dat0]

/-- The invariant at a point's start, restated at `t.val`. -/
theorem Phi0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.R0Run.lean ====
/- The body of the first pipelined call (the degree kernel) run in each of its three control cases, on any whole
   staging memrefs and at any float algebra: which case a grid point is in, decided over the 32 points; where the output
   window is idle; and per case the body's triple with what it leaves in the accumulator and in the output block written
   as explicit terms over the values it read. -/
import proofs.«165052_j56281251446800_1_alg».proof.Proof.Gen.KernelIdeal.Launch
import proofs.«165052_j56281251446800_1_alg».proof.Proof.Gen.KernelIdeal.Skeleton
import proofs.«165052_j56281251446800_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-! ## The body's branch conditions -/

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the output store), from the grid coordinates. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where the second conditional is not taken the output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- Where it is taken the output window is live. -/
theorem liveAt0_1 : ∀ t : Fin cfg0.N, cond0_1 (grid0.coords t) → cfg0.idle 1 (grid0.coords t) = false := by decide +kernel

/-! ## Reading back a whole-buffer store -/

/-- The zero offset of a rank-2 rectangle, as a function. -/
theorem off2_zero : (![0, 0] : Fin 2 → ℕ) = fun _ => 0 := by
  funext a; fin_cases a <;> rfl

/-- The one rectangle the body loads and stores the accumulator and the output block through: the whole buffer. -/
abbrev rS : Rect S1024x1 := Rect.unit (s := S1024x1) ![0, 0] S1024x1.size inb_S1024x1_S1024x1_0_0
/-- The one rectangle it loads the input block through: the whole buffer. -/
abbrev rX : Rect S1024x2048 := Rect.unit (s := S1024x2048) ![0, 0] S1024x2048.size inb_S1024x2048_S1024x2048_0_0

/-- One store through the whole-buffer rectangle covers the buffer; so do two. -/
theorem cover_S1 (p : Vec F S1024x1 .f32) (y : S1024x1.Idx) :
    ∃ pc ∈ ([⟨rS, p⟩] : List (View.Piece (Elt F) S1024x1 .f32)), y ∈ pc.1.set :=
  View.cover_of_tiledL [⟨rS, p⟩] S1024x1.size (by sl_kernel_rfl) y
theorem cover_S2 (p q : Vec F S1024x1 .f32) (y : S1024x1.Idx) :
    ∃ pc ∈ ([⟨rS, p⟩, ⟨rS, q⟩] : List (View.Piece (Elt F) S1024x1 .f32)), y ∈ pc.1.set := by
  obtain ⟨pc, hpc, hy⟩ := cover_S1 p y
  exact ⟨pc, List.mem_cons.2 (Or.inl (List.mem_singleton.1 hpc)), hy⟩

/-- A load of the whole buffer reads its contents. -/
theorem readAt_whole_S (arg : Memref sig .tc .vmem S1024x1 .f32) (harg : arg.IsWhole) (x : Vec F S1024x1 .f32) :
    View.readAt (Elt F) arg.view rS.toLoadRect (harg.unread x) = x := by
  rw [View.readAt_eq_ld, harg.read_unread, View.ld_unit_zero (S := S1024x1) off2_zero]
theorem readAt_whole_X (arg : Memref sig .tc .vmem S1024x2048 .f32) (harg : arg.IsWhole) (x : Vec F S1024x2048 .f32) :
    View.readAt (Elt F) arg.view rX.toLoadRect (harg.unread x) = x := by
  rw [View.readAt_eq_ld, harg.read_unread, View.ld_unit_zero (S := S1024x2048) off2_zero]

/-- A load of the whole buffer after one store of the whole buffer reads the stored value. -/
theorem readCov_whole_S (v : View sig .tc .vmem S1024x1 .f32) (w : Vec F S1024x1 .f32) :
    v.readCov [(⟨rS, w⟩ : View.Piece (Elt F) S1024x1 .f32)] rS.toLoadRect = w :=
  View.readCov_unit_zero v off2_zero _ w

/-- After one store of the whole buffer it holds the stored value, whatever it held; after two, the later one's. -/
theorem read_store1 (v : View sig .tc .vmem S1024x1 .f32) (f : v.ty.Contents (Elt F)) (w : Vec F S1024x1 .f32) :
    v.read (Elt F) (v.writes (Elt F) f [⟨rS, w⟩]) = w := by
  rw [View.read_writes_eq_canon _ _ _ (cover_S1 _), View.canon_unit_zero off2_zero]
theorem read_store2 (v : View sig .tc .vmem S1024x1 .f32) (f : v.ty.Contents (Elt F)) (w q : Vec F S1024x1 .f32) :
    v.read (Elt F) (v.writes (Elt F) f [⟨rS, w⟩, ⟨rS, q⟩]) = w := by
  rw [View.read_writes_eq_canon _ _ _ (cover_S2 _ _), View.canon_cons_unit_zero off2_zero]

/-! ## The body's triple, case by case

Each is stated on any whole memrefs: the input block's at its contents `x0`, and it hands back to the continuation the
input block as it was, the accumulator at an explicit term over what was read, and the output block either untouched
(where it is idle) or at an explicit term. The printed function is its skeleton; the run steps it, each conditional
decided by the case's hypotheses; what is left is to read the stores back. -/

set_option maxHeartbeats 1000000 in
/-- First conditional taken, second not: the accumulator, whatever it held, is reset and gains the block's row sums; the
    output block is handed back untouched. -/
theorem run0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (xi1 : Vec F S1024x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 (k0_pay1 (F := F)) x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_store2, readCov_whole_S, readAt_whole_X]

set_option maxHeartbeats 1000000 in
/-- Neither conditional taken: the accumulator, at what the point before left, gains the block's row sums; the output
    block is handed back untouched. -/
theorem run0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (xi1 : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_store1, readAt_whole_S, readAt_whole_X]

set_option maxHeartbeats 1000000 in
/-- First conditional not taken, second taken: the accumulator gains the block's row sums, and the output block,
    whatever it held, is stored from the accumulator's new value. -/
theorem run0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [read_store1, readCov_whole_S, readAt_whole_S, readAt_whole_X]
  iexists _; isplitr
  swap; · iexact HS0
  ipureintro
  sl_unfold_words
  rw [read_store1, readAt_whole_S, readAt_whole_X]

end Cert.KernelIdeal.Hand

end
-- ==== Proof.R0Body.lean ====
/- The body obligation of the first pipelined call (the degree kernel) at the proof data of R0Data: at every grid
   point the input's staging buffer holds its block; the point's residue mod 4 says which control case it is in; the
   case's run applies, the invariant handing it the accumulator and taking it back at the point's contents; and the
   invariant before the first point and after the last is the launch's. -/
import proofs.«165052_j56281251446800_1_alg».proof.Proof.R0Data
import proofs.«165052_j56281251446800_1_alg».proof.Proof.R0Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input's staging buffer holds its block -/

/-- The input window's current staging buffer holds its block at every point, fetched there or not: the window is an
    input, uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The memrefs the body is called with -/

/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0 : Memref sig .tc .vmem S1024x1 .f32 := Memref.whole cc0_scratch0

/-- What the launch hands the region, with the accumulator as a memref owned at some contents. -/
theorem PhiIn0_eq (c : Dev nD) :
    (Pipeline.scopedRest spec0 c : sProp 𝕄) = iprop((∃ d, owns (c : Thread nD τ) scM0 fullShare d) ∗ rest0 (F := F) c) := by
  rw [scopedRest0_eq]; unfold rest0; simp only [scM0, owns_whole]; try rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the point's residue mod 4 selects the case; the
    invariant hands the body the accumulator — at anything before the first point, else at what the point before
    left — and takes it back at this point's contents, the other scoped buffers passing through; where the output is
    idle its buffer is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [acc0_reset V c t h0]
      by_cases hz : t.val = 0
      · rw [Phi0_castSucc V c t, PhiS0_zero V c _ _ hz, PhiIn0_eq]
        iintro ⟨⟨HS0, Hr⟩, Ho, ⟨%d0, H0⟩, ⟨%d1, H1⟩⟩
        iapply (run0_A c (grid0.coords t) (ms0_0 t) (hs0_0 t) (ms0_1 t) (hs0_1 t) scM0 (Memref.isWhole_whole _) ((hcond0_0 t).mpr h0) (fun h => h1 ((hcond0_1 t).mp h)) (iblk0 V c 0 t) ((dat0 V c).before 1 t d1) Set.univ _)
        isplitl [H0]; · iexact H0
        isplitl [H1]; · iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexists _; iexact H1
      · rw [Phi0_castSucc V c t, PhiS0_pos V c _ _ hz]
        iintro ⟨⟨HS0, Hr⟩, Ho, ⟨%d0, H0⟩, ⟨%d1, H1⟩⟩
        iapply (run0_A c (grid0.coords t) (ms0_0 t) (hs0_0 t) (ms0_1 t) (hs0_1 t) scM0 (Memref.isWhole_whole _) ((hcond0_0 t).mpr h0) (fun h => h1 ((hcond0_1 t).mp h)) (iblk0 V c 0 t) ((dat0 V c).before 1 t d1) Set.univ _)
        isplitl [H0]; · iexact H0
        isplitl [H1]; · iexact H1
        isplitl [HS0]; · iexists _; iexact HS0
        iintro ⟨H0, H1, HS0⟩
        isplitl [HS0 Hr]
        · isplitl [HS0]; · iexact HS0
          iexact Hr
        isplitl [Ho]; · iexact Ho
        isplitl [H0]; · iexact H0
        iexists _; iexact H1
  · have hz : t.val ≠ 0 := fun e => h0 (by rw [e])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      unfold dinvBlk0
      rw [acc0_step V c t h0]
      · rw [Phi0_castSucc V c t, PhiS0_pos V c _ _ hz]
        iintro ⟨⟨HS0, Hr⟩, Ho, ⟨%d0, H0⟩, ⟨%d1, H1⟩⟩
        iapply (run0_C c (grid0.coords t) (ms0_0 t) (hs0_0 t) (ms0_1 t) (hs0_1 t) scM0 (Memref.isWhole_whole _) (fun h => h0 ((hcond0_0 t).mp h)) ((hcond0_1 t).mpr h1) (iblk0 V c 0 t) (acc0 V c (t.val - 1) (Nat.lt_of_le_of_lt (Nat.sub_le _ _) t.isLt)) Set.univ _)
        isplitl [H0]; · iexact H0
        isplitl [H1]; · iexists _; iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexact H1
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [acc0_step V c t h0]
      · rw [Phi0_castSucc V c t, PhiS0_pos V c _ _ hz]
        iintro ⟨⟨HS0, Hr⟩, Ho, ⟨%d0, H0⟩, ⟨%d1, H1⟩⟩
        iapply (run0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) (acc0 V c (t.val - 1) (Nat.lt_of_le_of_lt (Nat.sub_le _ _) t.isLt)) ((dat0 V c).before 1 t d1) Set.univ _)
        isplitl [H0]; · iexact H0
        isplitl [H1]; · iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- What the launch hands the region is the invariant before the first point. -/
theorem hin0 (c : Dev nD) : (Pipeline.scopedRest spec0 c : sProp 𝕄) ⊢ (dat0 V c).Φ 0 := by
  rw [show (dat0 V c).Φ 0 = PhiS0 V c 0 (Nat.zero_le _) from rfl, PhiS0_zero V c 0 _ rfl]

/-- After the last point the invariant gives the launch's back: the accumulator's named contents are forgotten. -/
theorem hout0 (c : Dev nD) : (dat0 V c).Φ (Fin.last cfg0.N) ⊢ (Pipeline.scopedRest spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiIn0_eq]
  iintro ⟨HS0, Hr⟩
  isplitl [HS0]
  · iexists _; iexact HS0
  iexact Hr

end Cert.KernelIdeal.Hand

end
-- ==== Proof.R1Data.lean ====
import proofs.«165052_j56281251446800_1_alg».proof.Proof.Gen.KernelIdeal.Launch
import proofs.«165052_j56281251446800_1_alg».proof.Proof.Gen.KernelIdeal.Skeleton
import proofs.«165052_j56281251446800_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the aggregation kernel): the proof data, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: reset to zero at the first column block of a row of blocks, then the
    product of the two blocks (rounded to bf16) added at every point. -/
def acc1 (c : Dev nD) : (n : ℕ) → n < cfg1.N → Vec F S1024x256 .f32
  | 0, h => Gen.k1_pay2 (iblk1 V c 0 ⟨0, h⟩) (iblk1 V c 1 ⟨0, h⟩) Gen.k1_pay1
  | n + 1, h => Gen.k1_pay2 (iblk1 V c 0 ⟨n + 1, h⟩) (iblk1 V c 1 ⟨n + 1, h⟩)
      (if (n + 1) % 4 = 0 then Gen.k1_pay1 else acc1 c n (Nat.lt_of_succ_lt h))

/-- The output block at point `t`: the accumulator plus the row block, scaled by the inverse square root degrees. -/
def outBlk1 (c : Dev nD) (t : Fin cfg1.N) : Vec F S1024x256 .f32 :=
  Gen.k1_pay3 (acc1 V c t.val t.isLt) (iblk1 V c 2 t) (iblk1 V c 3 t)

/-- The scoped buffers that are no staging buffer of this call, the accumulator apart, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The invariant before position `n`: at the start every scoped buffer at anything; afterwards the accumulator at
    what the point before left. -/
def PhiS1 (c : Dev nD) : (n : ℕ) → n ≤ cfg1.N → sProp 𝕄
  | 0, _ => Pipeline.scopedRest spec1 c
  | n + 1, hn => iprop(owns (c : Thread nD τ) (Memref.whole cc1_scratch0 : Memref sig .tc .vmem S1024x256 .f32) fullShare (acc1 V c n hn) ∗ rest1 c)

/-- The proof data of the aggregation pipeline on core `c`. The second and third windows read one array: each holds
    half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlk1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outBlk1 V c t := by dsimp only [dat1]

theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]
theorem q1_4 (c : Dev nD) : (dat1 V c).q 4 = fullShare := by dsimp only [dat1]

theorem owed1 (c : Dev nD) (t : Fin (cfg1.N + 1)) : (dat1 V c).owed t = 0 := by dsimp only [dat1]

theorem Phi1_eq (c : Dev nD) (t : Fin (cfg1.N + 1)) : (dat1 V c).Φ t = PhiS1 V c t.val (Nat.le_of_lt_succ t.isLt) := by
  dsimp only [dat1]

theorem PhiS1_zero (c : Dev nD) (n : ℕ) (h : n ≤ cfg1.N) (hz : n = 0) : PhiS1 V c n h = Pipeline.scopedRest spec1 c := by
  subst hz; rfl

theorem PhiS1_succ (c : Dev nD) (n : ℕ) (hn : n < cfg1.N) :
    PhiS1 V c (n + 1) hn = iprop(owns (c : Thread nD τ) (Memref.whole cc1_scratch0 : Memref sig .tc .vmem S1024x256 .f32) fullShare (acc1 V c n hn) ∗ rest1 c) := rfl

theorem PhiS1_pos (c : Dev nD) (n : ℕ) (h : n ≤ cfg1.N) (hz : n ≠ 0) :
    PhiS1 V c n h = iprop(owns (c : Thread nD τ) (Memref.whole cc1_scratch0 : Memref sig .tc .vmem S1024x256 .f32) fullShare (acc1 V c (n - 1) (by omega)) ∗ rest1 c) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulator at a point that opens a row of blocks: from zero. -/
theorem acc1_reset (c : Dev nD) (t : Fin cfg1.N) (h0 : t.val % 4 = 0) :
    acc1 V c t.val t.isLt = Gen.k1_pay2 (iblk1 V c 0 t) (iblk1 V c 1 t) Gen.k1_pay1 := by
  obtain ⟨n, hn⟩ := t
  cases n with
  | zero => rfl
  | succ n => exact (congrArg (Gen.k1_pay2 _ _) (if_pos h0))

/-- The accumulator at any other point: over what the point before left. -/
theorem acc1_step (c : Dev nD) (t : Fin cfg1.N) (h0 : ¬t.val % 4 = 0) :
    acc1 V c t.val t.isLt = Gen.k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (congrArg (Gen.k1_pay2 _ _) (if_neg h0))

end Cert.KernelIdeal.Hand

end
-- ==== Proof.R1Run.lean ====
import proofs.«165052_j56281251446800_1_alg».proof.Proof.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body's run, case by case -/

/-- The first conditional's condition (the reset of the accumulator), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the output's store). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets, however spelt. -/
theorem zeros2 : (![0, 0] : Fin 2 → ℕ) = fun _ => 0 := by funext a; fin_cases a <;> rfl

/-- A covering store through the whole-shape rectangle, made LAST, leaves its payload: whatever the earlier stores
    and the prior contents. -/
theorem read_writes_cons_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- A load through the whole-shape rectangle reads the contents. -/
theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

set_option maxHeartbeats 1000000 in
/-- CASE A (the first column block of a row of blocks): on whole staging memrefs, the inputs' at their contents, the
    output's at contents handed back untouched, the accumulator at anything, the body runs to the continuation holding
    the inputs' as they were and the accumulator at the product added to zero. -/
theorem kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S2048x256 .f32) (x2 : Vec F S1024x256 .f32) (x3 : Vec F S1024x1 .f32) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (Gen.k1_pay2 x0 x1 Gen.k1_pay1)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS0
  ipureintro
  refine (read_writes_cons_unit_zero (S := S1024x256) _ _ zeros2 _ _ _).trans ?_
  sl_unfold_words
  rw [readAt_unit_zero (S := S1024x2048) _ _ zeros2, readAt_unit_zero (S := S2048x256) _ _ zeros2,
    View.readCov_unit_zero (S := S1024x256) _ zeros2]

set_option maxHeartbeats 1000000 in
/-- CASE B (the inner column blocks): the same, the accumulator entered at what the point before left and left at the
    product added to it. -/
theorem kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S2048x256 .f32) (x2 : Vec F S1024x256 .f32) (x3 : Vec F S1024x1 .f32) (xi4 : Vec F S1024x256 .f32) (xs0 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (Gen.k1_pay2 x0 x1 xs0)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  subst hf0; subst hf1; subst hf2; subst hf3; subst hf4; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS0
  ipureintro
  refine (read_writes_cons_unit_zero (S := S1024x256) _ _ zeros2 _ _ _).trans ?_
  sl_unfold_words
  rw [readAt_unit_zero (S := S1024x2048) _ _ zeros2, readAt_unit_zero (S := S2048x256) _ _ zeros2,
    readAt_unit_zero (S := S1024x256) _ _ zeros2]

set_option maxHeartbeats 1000000 in
/-- CASE C (the last column block of a row of blocks): the accumulator as in case B, and the output's buffer, entered
    at anything, left at the accumulator plus the row block, scaled by the inverse square root degrees. -/
theorem kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S2048x256 .f32) (x2 : Vec F S1024x256 .f32) (x3 : Vec F S1024x1 .f32) (xs0 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (Gen.k1_pay3 (Gen.k1_pay2 x0 x1 xs0) x2 x3) ∗ owns (c : Thread nD τ) arg7 fullShare (Gen.k1_pay2 x0 x1 xs0)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  subst hf0; subst hf1; subst hf2; subst hf3; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit_zero (S := S1024x256) _ _ zeros2 _ _ _).trans ?_
    sl_unfold_words
    rw [View.readCov_unit_zero (S := S1024x256) _ zeros2, readAt_unit_zero (S := S1024x2048) _ _ zeros2,
      readAt_unit_zero (S := S2048x256) _ _ zeros2, readAt_unit_zero (S := S1024x256) _ _ zeros2,
      readAt_unit_zero (S := S1024x256) _ _ zeros2, readAt_unit_zero (S := S1024x1) _ _ zeros2]
  iexists _; isplitr
  swap; · iexact HS0
  ipureintro
  sl_unfold_words
  refine (read_writes_cons_unit_zero (S := S1024x256) _ _ zeros2 _ _ _).trans ?_
  rw [readAt_unit_zero (S := S1024x2048) _ _ zeros2, readAt_unit_zero (S := S2048x256) _ _ zeros2,
    readAt_unit_zero (S := S1024x256) _ _ zeros2]

end Cert.KernelIdeal.Hand

end
-- ==== Proof.R1Body.lean ====
import proofs.«165052_j56281251446800_1_alg».proof.Proof.R1Data
import proofs.«165052_j56281251446800_1_alg».proof.Proof.R1Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body obligation at the proof data of R1Data

At every grid point each input's staging buffer holds its block, fetched there or not; the point's residue mod 4
says which control case it is in; the case's run applies, the invariant handing it the accumulator and taking it
back at the point's contents; and the invariant before the first point and after the last is the launch's. -/

/-! ## The inputs' staging buffers hold their blocks -/

/-- Each input window's current staging buffer holds its block at every point, fetched there or not (the row block
    and the degrees are fetched only where their block index moves): the window is an input, uncut and never idle,
    and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column block the output is idle and not written back; at it, live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0

/-- What the body leaves in each input's buffer: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-- What the launch hands the region holds the accumulator as a memref owned at some contents, beside the rest; -/
theorem PhiIn1 (c : Dev nD) :
    (Pipeline.scopedRest spec1 c : sProp 𝕄) ⊢ iprop((∃ d, owns (c : Thread nD τ) scM1 fullShare d) ∗ rest1 (F := F) c) := by
  rw [scopedRest1_eq]; unfold rest1; simp only [scM1, owns_whole]
  iintro ⟨Ha, Hb, Hc, Hd, He, Hs⟩
  isplitl [Hs]; · iexact Hs
  isplitl [Ha]; · iexact Ha
  isplitl [Hb]; · iexact Hb
  isplitl [Hc]; · iexact Hc
  isplitl [Hd]; · iexact Hd
  iexact He

/-- and conversely; -/
theorem PhiOut1 (c : Dev nD) :
    iprop((∃ d, owns (c : Thread nD τ) scM1 fullShare d) ∗ rest1 (F := F) c) ⊢ (Pipeline.scopedRest spec1 c : sProp 𝕄) := by
  rw [scopedRest1_eq]; unfold rest1; simp only [scM1, owns_whole]
  iintro ⟨Hs, Ha, Hb, Hc, Hd, He⟩
  isplitl [Ha]; · iexact Ha
  isplitl [Hb]; · iexact Hb
  isplitl [Hc]; · iexact Hc
  isplitl [Hd]; · iexact Hd
  isplitl [He]; · iexact He
  iexact Hs

/-- so the two are one proposition. -/
theorem PhiIn1_eq (c : Dev nD) :
    (Pipeline.scopedRest spec1 c : sProp 𝕄) = iprop((∃ d, owns (c : Thread nD τ) scM1 fullShare d) ∗ rest1 (F := F) c) :=
  BI.equiv_iff.mp ⟨PhiIn1 c, PhiOut1 c⟩

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's residue mod 4 selects the case; the
    invariant hands the body the accumulator — at anything before the first point, else at what the point before
    left — and takes it back at this point's contents, the other scoped buffers passing through; where the output is
    idle its buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [acc1_reset V c t h0]
    by_cases hz : t.val = 0
    · rw [PhiS1_castSucc V c t, PhiS1_zero V c _ _ hz, PhiIn1_eq]
      · iintro ⟨⟨HS0, Hr⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4
    · rw [PhiS1_castSucc V c t, PhiS1_pos V c _ _ hz]
      · iintro ⟨⟨HS0, Hr⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      unfold outBlk1
      rw [acc1_step V c t h0]
      · rw [PhiS1_castSucc V c t, PhiS1_pos V c _ _ hz]
        iintro ⟨⟨HS0, Hr⟩, Ho, ⟨%d0, H0⟩, ⟨%d1, H1⟩, ⟨%d2, H2⟩, ⟨%d3, H3⟩, ⟨%d4, H4⟩⟩
        iapply (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexact H4
    · rw [Dat.leavesExact_idle (dat1 V c) 4 t (idleAt1_4 t (fun h => h1 ((hcond1_1 t).mp h))) (noFlush1_4 t (fun h => h1 ((hcond1_1 t).mp h)))]
      rw [acc1_step V c t h0]
      · rw [PhiS1_castSucc V c t, PhiS1_pos V c _ _ hz]
        iintro ⟨⟨HS0, Hr⟩, Ho, ⟨%d0, H0⟩, ⟨%d1, H1⟩, ⟨%d2, H2⟩, ⟨%d3, H3⟩, ⟨%d4, H4⟩⟩
        iapply (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) ((dat1 V c).before 4 t d4) (acc1 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : (Pipeline.scopedRest spec1 c : sProp 𝕄) ⊢ (dat1 V c).Φ 0 := by
  rw [show (dat1 V c).Φ 0 = PhiS1 V c 0 (Nat.zero_le _) from rfl, PhiS1_zero V c 0 _ rfl]

/-- After the last point the invariant gives the launch's back: the accumulator's named contents are forgotten. -/
theorem hout1 (c : Dev nD) : (dat1 V c).Φ (Fin.last cfg1.N) ⊢ (Pipeline.scopedRest spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiIn1_eq]
  iintro ⟨HS0, Hr⟩
  isplitl [HS0]
  · iexists _; iexact HS0
  iexact Hr

end Cert.KernelIdeal.Hand

end
-- ==== Proof.R1Arrays.lean ====
import proofs.«165052_j56281251446800_1_alg».proof.Proof.R1Data
import Idealize.ShloMosaic.Lib.Pipeline.RegionsLoop

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: its arrays out of the core's unscoped buffers at entry, and back at exit

Two windows of this call read one array, so the arrays are four buffers behind five windows: the shared one is
held whole at entry, dealt to its two windows in halves, and joined again at exit. -/

/-- The buffers behind the call's arrays, listed. -/
theorem arrImage1 : Finset.univ.image (Pipeline.arrRef spec1) = [main_arg1, main_v18, main_v0, main_v19].toFinset := by decide

/-- Those buffers, each whole at the full share, one by one. -/
theorem arrBufs1_eq (c : Dev nD) (V' : (b : Ref sig .tc) → Buf (Elt F) ((c : Thread nD τ).loc b)) :
    (Pipeline.arrBufs spec1 c V' : sProp 𝕄)
      = iprop((((c : Thread nD τ).loc main_arg1) ↦{fullShare} V' main_arg1) ∗ (((c : Thread nD τ).loc main_v18) ↦{fullShare} V' main_v18)
          ∗ (((c : Thread nD τ).loc main_v0) ↦{fullShare} V' main_v0) ∗ (((c : Thread nD τ).loc main_v19) ↦{fullShare} V' main_v19)) := by
  unfold Pipeline.arrBufs
  exact Idealize.SL.BI.bigSep_eq_bigSepL_of_eq _ arrImage1 (by decide) _

/-- The core's unscoped buffers are those four and the rest. -/
theorem unscopedBufs1_split (c : Dev nD) (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs (1 : Fin 2) Gen.winFacts₀1.arr_unscoped c V'

/-- The proof data's arrays, window by window: the shared array in halves. -/
theorem arrays1_eq (c : Dev nD) (G : (w : Fin cfg1.W) → Buf (Elt F) ((cfg1.win w).arr.view.loc (c.tc : Thread nD τ))) :
    (dat1 V c).arrays G
      = iprop((((c : Thread nD τ).loc main_arg1) ↦{fullShare} G 0) ∗ (((c : Thread nD τ).loc main_v18) ↦{fullShare.left} G 1)
          ∗ (((c : Thread nD τ).loc main_v18) ↦{fullShare.right} G 2) ∗ (((c : Thread nD τ).loc main_v0) ↦{fullShare} G 3)
          ∗ (((c : Thread nD τ).loc main_v19) ↦{fullShare} G 4)) := by
  unfold Dat.arrays
  rw [bigSep_W1]
  rw [(arr_whole1 0).set_eq_univ, (arr_whole1 1).set_eq_univ, (arr_whole1 3).set_eq_univ, (arr_whole1 4).set_eq_univ]
  rw [show (dat1 V c).share 0 = fullShare from q1_0 V c, show (dat1 V c).share 1 = fullShare.left from q1_1 V c,
    show (dat1 V c).share 2 = fullShare.right from q1_2 V c, show (dat1 V c).share 3 = fullShare from q1_3 V c,
    show (dat1 V c).share 4 = fullShare from rfl]

/-- ENTRY: the core's unscoped buffers at the entry contents are the proof data's arrays at entry — the shared
    array's full share dealt to its two windows in halves — and the unscoped rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split, arrBufs1_eq, arrays1_eq]
  iintro ⟨⟨H0, H18, Hv0, H19⟩, Hrest⟩
  ihave H18' := (pointsTo_share (PosShare.mem_left_op_right fullShare)).1 $$ H18
  icases H18' with ⟨H18l, H18r⟩
  isplitr [Hrest]
  · isplitl [H0]; · iexact H0
    isplitl [H18l]; · iexact H18l
    isplitl [H18r]; · iexact H18r
    isplitl [Hv0]; · iexact Hv0
    iexact H19
  iexact Hrest

/-- EXIT: the proof data's arrays at their final contents and the unscoped rest are the core's unscoped buffers at
    any valuation that has the arrays at those contents and agrees with the entry one off them: the two halves of
    the shared array, both at the contents it was entered with, joined. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs1_split, arrBufs1_eq, arrays1_eq, hr]
  beta_reduce
  rw [hF 0, hF 1, hF 2, hF 3, hF 4]
  iintro ⟨⟨H0, H18l, H18r, Hv0, H19⟩, Hrest⟩
  isplitr [Hrest]
  · isplitl [H0]; · iexact H0
    isplitl [H18l H18r]
    · iapply (pointsTo_share (PosShare.mem_left_op_right fullShare)).2
      isplitl [H18l]; · iexact H18l
      iexact H18r
    isplitl [Hv0]; · iexact Hv0
    iexact H19
  iexact Hrest

end Cert.KernelIdeal.Hand

end
-- ==== Proof.Assemble.lean ====
/-
  The kernel program's two regions as records of the several-regions launch, over ONE family of proof data:
  region 0 entered from the launch contents, region 1 from what region 0's write-backs and the host
  operations between the regions leave. What each region leaves in its result array is named: the array after
  every write-back of that region's pipeline.
-/
import proofs.«165052_j56281251446800_1_alg».proof.Proof.RunCond
import proofs.«165052_j56281251446800_1_alg».proof.Proof.R0Body
import proofs.«165052_j56281251446800_1_alg».proof.Proof.R1Body
import proofs.«165052_j56281251446800_1_alg».proof.Proof.R1Arrays
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The contents at the regions' entries, and what the regions leave -/

/-- The TensorCore's buffers when region 0 is entered: the launch contents. -/
abbrev Vr0 (c : Dev nD) (b : Ref sig .tc) : Buf (Elt F) ((c : Thread nD τ).loc b) := V0 m c (Proc.devRef .tc b)

/-- What region 0 leaves in its result array (the inverse square roots of the degrees). -/
def dinvArr (c : Dev nD) : Buf (Elt F) ((c : Thread nD τ).loc main_v0) := (dat0 (Vr0 m) c).arrAt 1 cfg0.N

/-- The regions' results with only region 0's named. -/
def outsA : Outs (F := F) := fun _ r c => if h : r = main_v0 then h ▸ dinvArr m c else m ((c : Thread nD τ).loc r)

/-- The TensorCore's buffers when region 1 is entered. -/
abbrev Vr4 (c : Dev nD) (b : Ref sig .tc) : Buf (Elt F) ((c : Thread nD τ).loc b) := V4 m (outsA m) c (Proc.devRef .tc b)

/-- What region 1 leaves in its result array: the program's result. -/
def outArr (c : Dev nD) : Buf (Elt F) ((c : Thread nD τ).loc main_v19) := (dat1 (Vr4 m) c).arrAt 4 cfg1.N

/-- Both regions' results. -/
def outs : Outs (F := F) := fun J r c => if h : r = main_v19 then h ▸ outArr m c else outsA m J r c

theorem outs_v0 (J : ℕ) (c : Dev nD) : outs m J main_v0 c = dinvArr m c := by
  unfold outs outsA
  rw [dif_neg (by decide), dif_pos rfl]

theorem outs_v19 (J : ℕ) (c : Dev nD) : outs m J main_v19 c = outArr m c := by
  unfold outs
  rw [dif_pos rfl]

theorem outsA_v0 (J : ℕ) (c : Dev nD) : outsA m J main_v0 c = dinvArr m c := by
  unfold outsA
  rw [dif_pos rfl]

/-- Region 1 is entered from the same contents whichever of the two families names region 0's result. -/
theorem V1_outs (c : Dev nD) : V1 m (outs m) c = V1 m (outsA m) c := by
  show Function.update (V0 m c) main_v0 (outs m 1 main_v0 c) = Function.update (V0 m c) main_v0 (outsA m 1 main_v0 c)
  rw [outs_v0, outsA_v0]

theorem V4_outs (c : Dev nD) : V4 m (outs m) c = V4 m (outsA m) c := by
  show StableHlo.after hostOps1_2 (StableHlo.after hostOps1_1 (StableHlo.after hostOps1 (V1 m (outs m) c)))
    = StableHlo.after hostOps1_2 (StableHlo.after hostOps1_1 (StableHlo.after hostOps1 (V1 m (outsA m) c)))
  rw [V1_outs]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr4 m) c

abbrev 𝒱₀ : Variants := Variants.none
/-- No core owes another anything: no level is assigned. -/
abbrev Lz : GSem nD τ sig → Finset Unit := fun _ => ∅
abbrev lvz : GSem nD τ sig → Unit → ℕ := fun _ _ => 0

/-- What rides beside the buffers through every segment: the generator register at some state and the core's
    debts, none. -/
abbrev Rst (c : Dev nD) : sProp 𝕄 := iprop((∃ r, prngReg c r) ∗ ∃ W, owes (c : Thread nD τ) (0 : CellTallies nD τ sig Unit) W)

abbrev Est : Fin 3 → Dev nD → sProp 𝕄 := fun _ c => Rst c

/-! ## Region 0 as a record -/

/-- After region 0 its input array is as at entry and its result array holds the named result. -/
theorem hF0 (c : Dev nD) (w : Fin cfg0.W) :
    (dat0 (Vr0 m) c).arrAt w cfg0.N = V1 m (outs m) c (Proc.devRef .tc (Pipeline.arrRef spec0 w)) := by
  match w with
  | ⟨0, _⟩ =>
    refine ((dat0 (Vr0 m) c).arrAt_in 0 rfl _).trans ((A_eq0 (Vr0 m) c 0).trans ?_)
    exact (V1_of m (outs m) c main_arg1 (by decide)).symm
  | ⟨1, _⟩ =>
    show dinvArr m c = Function.update (V0 m c) main_v0 (outs m 1 main_v0 c) main_v0
    rw [Function.update_self, outs_v0]

/-- Off region 0's arrays nothing changes across it. -/
theorem hrest0 (c : Dev nD) (b : Ref sig .tc) (hb : b ∉ Finset.univ.image (Pipeline.arrRef spec0)) :
    V1 m (outs m) c (Proc.devRef .tc b) = Vr0 m c b := by
  refine V1_of m (outs m) c b ?_
  intro h
  rw [List.mem_singleton] at h
  exact hb (Finset.mem_image.mpr ⟨1, Finset.mem_univ _, h.symm⟩)

set_option backward.isDefEq.respectTransparency.types false in
/-- REGION 0 over the thread state "every unscoped buffer at the boundary's contents, the generator register at
    some state, nothing owed": entered from the launch contents, left with the result array at its named
    contents. Its arrays are taken out of the unscoped buffers at entry and put back at exit; the scoped buffers
    make the invariant before the first point and are given back after the last. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(emp)
  Y c := iprop(emp)
  Z c := iprop(Pipeline.unscopedRest (Ix := Unit) (Name := ℕ) (U := UR sig nD τ) (Lvl := ℕ) spec0 c (Vr0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show (Pipeline.scopedRest spec0 c : sProp 𝕄) ⊢ (pdats m 0 c).Φ 0 from hin0 (Vr0 m) c)
    iexact Hr
  hout c := by
    rw [Pipeline.ownSems0_none]
    iintro H
    isplitr; · iempintro
    isplitr; · iempintro
    iapply (show (pdats m 0 c).Φ (Fin.last _) ⊢ (Pipeline.scopedRest spec0 c : sProp 𝕄) from hout0 (Vr0 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c (Proc.devRef .tc b)) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Region 1 as a record -/

/-- After region 1 its input arrays are as at entry and its result array holds the named result. -/
theorem hF1 (c : Dev nD) (w : Fin cfg1.W) :
    (dat1 (Vr4 m) c).arrAt w cfg1.N = V5 m (outs m) c (Proc.devRef .tc (Pipeline.arrRef spec1 w)) := by
  match w with
  | ⟨0, _⟩ =>
    refine ((dat1 (Vr4 m) c).arrAt_in 0 rfl _).trans ((A_eq1 (Vr4 m) c 0).trans ?_)
    exact ((V5_of m (outs m) c main_arg1 (by decide)).trans (congrFun (V4_outs m c) _)).symm
  | ⟨1, _⟩ =>
    refine ((dat1 (Vr4 m) c).arrAt_in 1 rfl _).trans ((A_eq1 (Vr4 m) c 1).trans ?_)
    exact ((V5_of m (outs m) c main_v18 (by decide)).trans (congrFun (V4_outs m c) _)).symm
  | ⟨2, _⟩ =>
    refine ((dat1 (Vr4 m) c).arrAt_in 2 rfl _).trans ((A_eq1 (Vr4 m) c 2).trans ?_)
    exact ((V5_of m (outs m) c main_v18 (by decide)).trans (congrFun (V4_outs m c) _)).symm
  | ⟨3, _⟩ =>
    refine ((dat1 (Vr4 m) c).arrAt_in 3 rfl _).trans ((A_eq1 (Vr4 m) c 3).trans ?_)
    exact ((V5_of m (outs m) c main_v0 (by decide)).trans (congrFun (V4_outs m c) _)).symm
  | ⟨4, _⟩ =>
    show outArr m c = Function.update (V4 m (outs m) c) main_v19 (outs m 5 main_v19 c) main_v19
    rw [Function.update_self, outs_v19]

/-- Off region 1's result array nothing changes across it. -/
theorem hrest1 (c : Dev nD) (b : Ref sig .tc) (hb : b ∉ Finset.univ.image (Pipeline.arrRef spec1)) :
    V5 m (outs m) c (Proc.devRef .tc b) = Vr4 m c b := by
  refine (V5_of m (outs m) c b ?_).trans (congrFun (V4_outs m c) _)
  intro h
  rw [List.mem_singleton] at h
  exact hb (Finset.mem_image.mpr ⟨4, Finset.mem_univ _, h.symm⟩)

set_option backward.isDefEq.respectTransparency.types false in
/-- REGION 1 over the same thread state: entered from what region 0 and the host operations between the
    regions leave, left with the program's result array at its named contents. Two of its windows read one array:
    its arrays come out of the unscoped buffers with that array's ownership divided between the two windows
    (the entry), and go back with the two parts joined (the exit). -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr4 m) c).loose
  hwaits := Pipeline.hwaits_of_owed_zero _ _ _ _ Lz lvz 1 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(emp)
  Y c := iprop(emp)
  Z c := iprop(Pipeline.unscopedRest (Ix := Unit) (Name := ℕ) (U := UR sig nD τ) (Lvl := ℕ) spec1 c (Vr4 m c) ∗ ∃ r, prngReg c r)
  hentry c := by
    rw [Pipeline.ownSems0_none, V4_outs m c]
    have hsplit := entry1 (Vr4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show (Pipeline.scopedRest spec1 c : sProp 𝕄) ⊢ (pdats m 1 c).Φ 0 from hin1 (Vr4 m) c)
    iexact Hr
  hout c := by
    rw [Pipeline.ownSems0_none]
    iintro H
    isplitr; · iempintro
    isplitr; · iempintro
    iapply (show (pdats m 1 c).Φ (Fin.last _) ⊢ (Pipeline.scopedRest spec1 c : sProp 𝕄) from hout1 (Vr4 m) c)
    iexact H
  hexit c := by
    have hjoin := exit1 (Vr4 m) c (fun b => V5 m (outs m) c (Proc.devRef .tc b)) (hF1 m c) (hrest1 m c)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

/-! ## The run -/

section Launch

/-- The launch element is the library's. -/
theorem hu0_main : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch each core's generator register and its (empty) debts make the rest of the first thread state. -/
theorem hE0_main (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (Est (F := F) 0) : sProp 𝕄) := by
  refine Pipeline.initEach Lz lvz fun c => ?_
  iintro ⟨⟨-, HO, -, Hp, -⟩, -⟩
  imodintro
  isplitl [Hp]; · iexists _; iexact Hp
  iexists ∅; iexact HO

/-- The last thread state's rest owes nothing. -/
theorem hE2_main (c : Dev nD) : Est (F := F) 2 c ⊢ (iprop(∃ W, owes (c : Thread nD τ) (0 : CellTallies nD τ sig Unit) W) : sProp 𝕄) := by
  iintro ⟨-, HO⟩; iexact HO

end Launch

section Run

variable (ρ : Dev nD → PrngReg)

/-- Region 0 is entered from the launch's thread state, -/
theorem hpre0_main (c : Dev nD) :
    iprop(StableHlo.held (c : Thread nD τ) (Pipeline.ucRefs τ sig) (V0 m c) ∗ Est (F := F) 0 c) ⊢ (reg0 m).pre c := .rfl
/-- and left at the state the first host stretch starts from. -/
theorem hpost0_main (c : Dev nD) :
    (reg0 m).post c ⊢ iprop(StableHlo.held (c : Thread nD τ) (Pipeline.ucRefs τ sig) (V1 m (outs m) c) ∗ Est (F := F) 1 c) := .rfl
/-- Region 1 is entered from the state the last host stretch leaves, -/
theorem hpre1_main (c : Dev nD) :
    iprop(StableHlo.held (c : Thread nD τ) (Pipeline.ucRefs τ sig) (V4 m (outs m) c) ∗ Est (F := F) 1 c) ⊢ (reg1 m).pre c := .rfl
/-- and left at the last thread state. -/
theorem hpost1_main (c : Dev nD) :
    (reg1 m).post c ⊢ iprop(StableHlo.held (c : Thread nD τ) (Pipeline.ucRefs τ sig) (V5 m (outs m) c) ∗ Est (F := F) 2 c) := .rfl

set_option backward.isDefEq.respectTransparency.types false in
/-- Every weakly fair execution of the kernel program terminates, and the final memory of each core holds, at
    every unscoped buffer, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m (outs m) (Ix := Unit) (U := UR sig nD τ) (Lvl := ℕ) emb₁ () 𝒱₀ Lz lvz (fun _ _ => rfl) ρ (pdats m)
    (O₀ := 0) (G := fun _ => (BI.emp : sProp 𝕄))
    (u₀ := initOf (Pipeline.cells cfgs cellOf_inj) (Pipeline.launchToks cfgs cellOf_inj))
    (hu₀ := hu0_main) (E := Est) (hE0 := hE0_main ρ) (hE2 := hE2_main)
    (R0 := reg0 m) (hpre0 := hpre0_main m) (hpost0 := hpost0_main m)
    (R1 := reg1 m) (hpre1 := hpre1_main m) (hpost1 := hpost1_main m)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The kernel program's run with its result named: the result array ends at what region 1's write-backs leave, and
    every argument array ends as launched. -/
theorem run_value : θ_run defs (onTc (τ := τ) (main (F := F))) ⟨m, fun _ => 0, ρ⟩ (fun r => ∀ c : Dev nD,
      r.2.mem ((c.tc : Thread nD τ).loc main_v19) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c (Proc.devRef .tc main_v19) (mem_uc main_v19 (by decide))).trans
        ((show V5 m (outs m) c (Proc.devRef .tc main_v19) = outs m 5 main_v19 c from Function.update_self _ _ _).trans (outs_v19 m 5 c)),
      (h c (Proc.devRef .tc main_arg0) (mem_uc main_arg0 (by decide))).trans (V5_main_arg0 m (outs m) c),
      (h c (Proc.devRef .tc main_arg1) (mem_uc main_arg1 (by decide))).trans (V5_main_arg1 m (outs m) c),
      (h c (Proc.devRef .tc main_arg2) (mem_uc main_arg2 (by decide))).trans (V5_main_arg2 m (outs m) c),
      (h c (Proc.devRef .tc main_arg3) (mem_uc main_arg3 (by decide))).trans (V5_main_arg3 m (outs m) c)⟩)
    (run_all m ρ)

end Run

end Cert.KernelIdeal.Hand

end
-- ==== Proof.WRunCond.lean ====
/-
  The word-level program's run, given its two regions' records: every weakly fair execution of @main terminates,
  and in the final memory EVERY unscoped buffer of a core holds what the last boundary's valuation says —
  the launch contents, then each host stretch applied, then each region's result at the unknowns "outs".
  Reading that valuation at the result array gives the word-level program's value; reading it at an argument
  gives its frame.
-/
import proofs.«165052_j56281251446800_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- From one record per region, entered from the thread state before it and left at the one after it, the
    whole program runs, and the final memory of each core is the last valuation at every unscoped buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => ∀ b ∈ Pipeline.ucRefs τ sig, s.mem (((c : Thread nD τ)).1, b) = V5 m outs c b)
    (hfin := fun c s' => ?_) (hQ := fun _ h => h)
  · -- at launch the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    imodintro
    iapply (pointsTo_read_all (Pipeline.ucRefs τ sig) (fun b => ((c : Thread nD τ).1, b)) (V5 m outs c) s')
    isplitl [Hh] <;> iassumption

end Cert.Kernel.Hand

end
-- ==== Proof.WR0Data.lean ====
/- The word-level program's first pipelined call (the degree kernel): its proof data. What the windows' buffers and
   the carried accumulator hold after each grid point, as explicit terms over the input blocks; the region invariant;
   and the projections of the proof data. Everything is stated at a parameter `V`, the buffer contents when the region
   is entered, and at any float algebra `F`: the word-level program's text is the idealized program's, so the same
   terms describe both. -/
import proofs.«165052_j56281251446800_1_alg».proof.Proof.Gen.Kernel.Launch
import proofs.«165052_j56281251446800_1_alg».proof.Proof.Gen.Kernel.Skeleton
import proofs.«165052_j56281251446800_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator and the output block, point by point -/

/-- The accumulator after point `n`: at a point `n ≡ 0 (mod 4)` the reset value plus the block's row sums, else the
    previous point's plus the block's row sums. -/
def acc0 (c : Dev nD) : (n : ℕ) → n < cfg0.N → Vec F S1024x1 .f32
  | 0, h => Gen.k0_pay2 (Gen.k0_pay1 (F := F)) (iblk0 V c 0 ⟨0, h⟩)
  | n + 1, h => Gen.k0_pay2 (if (n + 1) % 4 = 0 then (Gen.k0_pay1 (F := F)) else acc0 c n (Nat.lt_of_succ_lt h)) (iblk0 V c 0 ⟨n + 1, h⟩)

/-- What the output window's buffer holds after a point that stores it: the inverse square root of the accumulated
    row sums plus one where that is positive, zero elsewhere. -/
def dinvBlk0 (c : Dev nD) (t : Fin cfg0.N) : Vec F S1024x1 .f32 := Gen.k0_pay3 (acc0 V c t.val t.isLt)

/-! ## The region invariant -/

/-- The scoped buffers other than the carried accumulator, each whole at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- The invariant before position `n`: before the first point every scoped buffer at anything; afterwards the
    accumulator at what the point before left in it, the other scoped buffers at anything. -/
def PhiS0 (c : Dev nD) : (n : ℕ) → n ≤ cfg0.N → sProp 𝕄
  | 0, _ => Pipeline.scopedRest spec0 c
  | n + 1, hn => iprop(owns (c : Thread nD τ) (Memref.whole cc0_scratch0 : Memref sig .tc .vmem S1024x1 .f32) fullShare (acc0 V c n hn) ∗ rest0 c)

theorem PhiS0_zero (c : Dev nD) (n : ℕ) (h : n ≤ cfg0.N) (hz : n = 0) :
    PhiS0 V c n h = (Pipeline.scopedRest spec0 c : sProp 𝕄) := by
  subst hz; rfl

/-- After point `n` (before point `n + 1`): the accumulator at that point's contents. -/
theorem PhiS0_succ (c : Dev nD) (n : ℕ) (hn : n < cfg0.N) :
    PhiS0 V c (n + 1) hn = iprop(owns (c : Thread nD τ) (Memref.whole cc0_scratch0 : Memref sig .tc .vmem S1024x1 .f32) fullShare (acc0 V c n hn) ∗ rest0 c) := rfl

/-- Before a point that is not the first: the accumulator at what the point before left. -/
theorem PhiS0_pos (c : Dev nD) (n : ℕ) (h : n ≤ cfg0.N) (hz : n ≠ 0) :
    PhiS0 V c n h = iprop(owns (c : Thread nD τ) (Memref.whole cc0_scratch0 : Memref sig .tc .vmem S1024x1 .f32) fullShare (acc0 V c (n - 1) (by omega)) ∗ rest0 c) := by
  cases n with
  | zero => exact absurd rfl hz
  | succ n => rfl

/-! ## The accumulator's case equations -/

/-- At a point `≡ 0 (mod 4)` the accumulator restarts from the reset value. -/
theorem acc0_reset (c : Dev nD) (t : Fin cfg0.N) (h0 : t.val % 4 = 0) :
    acc0 V c t.val t.isLt = Gen.k0_pay2 (Gen.k0_pay1 (F := F)) (iblk0 V c 0 t) := by
  obtain ⟨n, hn⟩ := t
  cases n with
  | zero => rfl
  | succ n => exact congrArg (fun a => Gen.k0_pay2 a (iblk0 V c 0 ⟨n + 1, hn⟩)) (if_pos h0)

/-- At any other point it continues from what the point before left. -/
theorem acc0_step (c : Dev nD) (t : Fin cfg0.N) (h0 : ¬t.val % 4 = 0) :
    acc0 V c t.val t.isLt = Gen.k0_pay2 (acc0 V c (t.val - 1) (Nat.lt_of_le_of_lt (Nat.sub_le _ _) t.isLt)) (iblk0 V c 0 t) := by
  obtain ⟨n, hn⟩ := t
  cases n with
  | zero => exact absurd (Nat.zero_mod _) h0
  | succ n => exact congrArg (fun a => Gen.k0_pay2 a (iblk0 V c 0 ⟨n + 1, hn⟩)) (if_neg h0)

/-! ## The pipeline's proof data -/

/-- The proof data of the pipeline on core `c`: the arrays as the region finds them (`V`); after the body at point
    `t` the input's buffer at its block and the output's at `dinvBlk0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dinvBlk0 V c t
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = dinvBlk0 V c t := by dsimp only [dat0]

/-- The invariant at a point's start, restated at `t.val`. -/
theorem Phi0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.WR0Run.lean ====
/- The body of the word-level program's first pipelined call (the degree kernel) run in each of its three control
   cases, on any whole staging memrefs and at any float algebra: which case a grid point is in, decided over the 32
   points; where the output window is idle; and per case the body's triple with what it leaves in the accumulator and in
   the output block written as explicit terms over the values it read. -/
import proofs.«165052_j56281251446800_1_alg».proof.Proof.Gen.Kernel.Launch
import proofs.«165052_j56281251446800_1_alg».proof.Proof.Gen.Kernel.Skeleton
import proofs.«165052_j56281251446800_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

/-! ## The body's branch conditions -/

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the output store), from the grid coordinates. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where the second conditional is not taken the output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- Where it is taken the output window is live. -/
theorem liveAt0_1 : ∀ t : Fin cfg0.N, cond0_1 (grid0.coords t) → cfg0.idle 1 (grid0.coords t) = false := by decide +kernel

/-! ## Reading back a whole-buffer store -/

/-- The zero offset of a rank-2 rectangle, as a function. -/
theorem off2_zero : (![0, 0] : Fin 2 → ℕ) = fun _ => 0 := by
  funext a; fin_cases a <;> rfl

/-- The one rectangle the body loads and stores the accumulator and the output block through: the whole buffer. -/
abbrev rS : Rect S1024x1 := Rect.unit (s := S1024x1) ![0, 0] S1024x1.size inb_S1024x1_S1024x1_0_0
/-- The one rectangle it loads the input block through: the whole buffer. -/
abbrev rX : Rect S1024x2048 := Rect.unit (s := S1024x2048) ![0, 0] S1024x2048.size inb_S1024x2048_S1024x2048_0_0

/-- One store through the whole-buffer rectangle covers the buffer; so do two. -/
theorem cover_S1 (p : Vec F S1024x1 .f32) (y : S1024x1.Idx) :
    ∃ pc ∈ ([⟨rS, p⟩] : List (View.Piece (Elt F) S1024x1 .f32)), y ∈ pc.1.set :=
  View.cover_of_tiledL [⟨rS, p⟩] S1024x1.size (by sl_kernel_rfl) y
theorem cover_S2 (p q : Vec F S1024x1 .f32) (y : S1024x1.Idx) :
    ∃ pc ∈ ([⟨rS, p⟩, ⟨rS, q⟩] : List (View.Piece (Elt F) S1024x1 .f32)), y ∈ pc.1.set := by
  obtain ⟨pc, hpc, hy⟩ := cover_S1 p y
  exact ⟨pc, List.mem_cons.2 (Or.inl (List.mem_singleton.1 hpc)), hy⟩

/-- A load of the whole buffer reads its contents. -/
theorem readAt_whole_S (arg : Memref sig .tc .vmem S1024x1 .f32) (harg : arg.IsWhole) (x : Vec F S1024x1 .f32) :
    View.readAt (Elt F) arg.view rS.toLoadRect (harg.unread x) = x := by
  rw [View.readAt_eq_ld, harg.read_unread, View.ld_unit_zero (S := S1024x1) off2_zero]
theorem readAt_whole_X (arg : Memref sig .tc .vmem S1024x2048 .f32) (harg : arg.IsWhole) (x : Vec F S1024x2048 .f32) :
    View.readAt (Elt F) arg.view rX.toLoadRect (harg.unread x) = x := by
  rw [View.readAt_eq_ld, harg.read_unread, View.ld_unit_zero (S := S1024x2048) off2_zero]

/-- A load of the whole buffer after one store of the whole buffer reads the stored value. -/
theorem readCov_whole_S (v : View sig .tc .vmem S1024x1 .f32) (w : Vec F S1024x1 .f32) :
    v.readCov [(⟨rS, w⟩ : View.Piece (Elt F) S1024x1 .f32)] rS.toLoadRect = w :=
  View.readCov_unit_zero v off2_zero _ w

/-- After one store of the whole buffer it holds the stored value, whatever it held; after two, the later one's. -/
theorem read_store1 (v : View sig .tc .vmem S1024x1 .f32) (f : v.ty.Contents (Elt F)) (w : Vec F S1024x1 .f32) :
    v.read (Elt F) (v.writes (Elt F) f [⟨rS, w⟩]) = w := by
  rw [View.read_writes_eq_canon _ _ _ (cover_S1 _), View.canon_unit_zero off2_zero]
theorem read_store2 (v : View sig .tc .vmem S1024x1 .f32) (f : v.ty.Contents (Elt F)) (w q : Vec F S1024x1 .f32) :
    v.read (Elt F) (v.writes (Elt F) f [⟨rS, w⟩, ⟨rS, q⟩]) = w := by
  rw [View.read_writes_eq_canon _ _ _ (cover_S2 _ _), View.canon_cons_unit_zero off2_zero]

/-! ## The body's triple, case by case

Each is stated on any whole memrefs: the input block's at its contents `x0`, and it hands back to the continuation the
input block as it was, the accumulator at an explicit term over what was read, and the output block either untouched
(where it is idle) or at an explicit term. The printed function is its skeleton; the run steps it, each conditional
decided by the case's hypotheses; what is left is to read the stores back. -/

set_option maxHeartbeats 1000000 in
/-- First conditional taken, second not: the accumulator, whatever it held, is reset and gains the block's row sums; the
    output block is handed back untouched. -/
theorem run0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (xi1 : Vec F S1024x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 (k0_pay1 (F := F)) x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_store2, readCov_whole_S, readAt_whole_X]

set_option maxHeartbeats 1000000 in
/-- Neither conditional taken: the accumulator, at what the point before left, gains the block's row sums; the output
    block is handed back untouched. -/
theorem run0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (xi1 : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_store1, readAt_whole_S, readAt_whole_X]

set_option maxHeartbeats 1000000 in
/-- First conditional not taken, second taken: the accumulator gains the block's row sums, and the output block,
    whatever it held, is stored from the accumulator's new value. -/
theorem run0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [read_store1, readCov_whole_S, readAt_whole_S, readAt_whole_X]
  iexists _; isplitr
  swap; · iexact HS0
  ipureintro
  sl_unfold_words
  rw [read_store1, readAt_whole_S, readAt_whole_X]

end Cert.Kernel.Hand

end
-- ==== Proof.WR0Body.lean ====
/- The body obligation of the word-level program's first pipelined call (the degree kernel) at its proof data: at
   every grid point the input's staging buffer holds its block; the point's residue mod 4 says which control case it is
   in; the case's run applies, the invariant handing it the accumulator and taking it back at the point's contents; and
   the invariant before the first point and after the last is the launch's. -/
import proofs.«165052_j56281251446800_1_alg».proof.Proof.WR0Data
import proofs.«165052_j56281251446800_1_alg».proof.Proof.WR0Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input's staging buffer holds its block -/

/-- The input window's current staging buffer holds its block at every point, fetched there or not: the window is an
    input, uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The memrefs the body is called with -/

/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0 : Memref sig .tc .vmem S1024x1 .f32 := Memref.whole cc0_scratch0

/-- What the launch hands the region, with the accumulator as a memref owned at some contents. -/
theorem PhiIn0_eq (c : Dev nD) :
    (Pipeline.scopedRest spec0 c : sProp 𝕄) = iprop((∃ d, owns (c : Thread nD τ) scM0 fullShare d) ∗ rest0 (F := F) c) := by
  rw [scopedRest0_eq]; unfold rest0; simp only [scM0, owns_whole]; try rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the point's residue mod 4 selects the case; the
    invariant hands the body the accumulator — at anything before the first point, else at what the point before
    left — and takes it back at this point's contents, the other scoped buffers passing through; where the output is
    idle its buffer is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [acc0_reset V c t h0]
      by_cases hz : t.val = 0
      · rw [Phi0_castSucc V c t, PhiS0_zero V c _ _ hz, PhiIn0_eq]
        iintro ⟨⟨HS0, Hr⟩, Ho, ⟨%d0, H0⟩, ⟨%d1, H1⟩⟩
        iapply (run0_A c (grid0.coords t) (ms0_0 t) (hs0_0 t) (ms0_1 t) (hs0_1 t) scM0 (Memref.isWhole_whole _) ((hcond0_0 t).mpr h0) (fun h => h1 ((hcond0_1 t).mp h)) (iblk0 V c 0 t) ((dat0 V c).before 1 t d1) Set.univ _)
        isplitl [H0]; · iexact H0
        isplitl [H1]; · iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexists _; iexact H1
      · rw [Phi0_castSucc V c t, PhiS0_pos V c _ _ hz]
        iintro ⟨⟨HS0, Hr⟩, Ho, ⟨%d0, H0⟩, ⟨%d1, H1⟩⟩
        iapply (run0_A c (grid0.coords t) (ms0_0 t) (hs0_0 t) (ms0_1 t) (hs0_1 t) scM0 (Memref.isWhole_whole _) ((hcond0_0 t).mpr h0) (fun h => h1 ((hcond0_1 t).mp h)) (iblk0 V c 0 t) ((dat0 V c).before 1 t d1) Set.univ _)
        isplitl [H0]; · iexact H0
        isplitl [H1]; · iexact H1
        isplitl [HS0]; · iexists _; iexact HS0
        iintro ⟨H0, H1, HS0⟩
        isplitl [HS0 Hr]
        · isplitl [HS0]; · iexact HS0
          iexact Hr
        isplitl [Ho]; · iexact Ho
        isplitl [H0]; · iexact H0
        iexists _; iexact H1
  · have hz : t.val ≠ 0 := fun e => h0 (by rw [e])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      unfold dinvBlk0
      rw [acc0_step V c t h0]
      · rw [Phi0_castSucc V c t, PhiS0_pos V c _ _ hz]
        iintro ⟨⟨HS0, Hr⟩, Ho, ⟨%d0, H0⟩, ⟨%d1, H1⟩⟩
        iapply (run0_C c (grid0.coords t) (ms0_0 t) (hs0_0 t) (ms0_1 t) (hs0_1 t) scM0 (Memref.isWhole_whole _) (fun h => h0 ((hcond0_0 t).mp h)) ((hcond0_1 t).mpr h1) (iblk0 V c 0 t) (acc0 V c (t.val - 1) (Nat.lt_of_le_of_lt (Nat.sub_le _ _) t.isLt)) Set.univ _)
        isplitl [H0]; · iexact H0
        isplitl [H1]; · iexists _; iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexact H1
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [acc0_step V c t h0]
      · rw [Phi0_castSucc V c t, PhiS0_pos V c _ _ hz]
        iintro ⟨⟨HS0, Hr⟩, Ho, ⟨%d0, H0⟩, ⟨%d1, H1⟩⟩
        iapply (run0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) (acc0 V c (t.val - 1) (Nat.lt_of_le_of_lt (Nat.sub_le _ _) t.isLt)) ((dat0 V c).before 1 t d1) Set.univ _)
        isplitl [H0]; · iexact H0
        isplitl [H1]; · iexact H1
        isplitl [HS0]; · iexact HS0
        iintro ⟨H0, H1, HS0⟩
        isplitl [HS0 Hr]
        · isplitl [HS0]; · iexact HS0
          iexact Hr
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- What the launch hands the region is the invariant before the first point. -/
theorem hin0 (c : Dev nD) : (Pipeline.scopedRest spec0 c : sProp 𝕄) ⊢ (dat0 V c).Φ 0 := by
  rw [show (dat0 V c).Φ 0 = PhiS0 V c 0 (Nat.zero_le _) from rfl, PhiS0_zero V c 0 _ rfl]

/-- After the last point the invariant gives the launch's back: the accumulator's named contents are forgotten. -/
theorem hout0 (c : Dev nD) : (dat0 V c).Φ (Fin.last cfg0.N) ⊢ (Pipeline.scopedRest spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiIn0_eq]
  iintro ⟨HS0, Hr⟩
  isplitl [HS0]
  · iexists _; iexact HS0
  iexact Hr

end Cert.Kernel.Hand

end
-- ==== Proof.WR1Data.lean ====
import proofs.«165052_j56281251446800_1_alg».proof.Proof.Gen.Kernel.Launch
import proofs.«165052_j56281251446800_1_alg».proof.Proof.Gen.Kernel.Skeleton
import proofs.«165052_j56281251446800_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The word-level program's second pipelined call (the aggregation kernel): the proof data, at the entry contents `V`

The word-level program's text is the idealized program's, so the same terms describe what its windows' buffers and
its carried accumulator hold after each grid point; everything is stated at any float algebra `F`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: reset to zero at the first column block of a row of blocks, then the
    product of the two blocks (rounded to bf16) added at every point. -/
def acc1 (c : Dev nD) : (n : ℕ) → n < cfg1.N → Vec F S1024x256 .f32
  | 0, h => Gen.k1_pay2 (iblk1 V c 0 ⟨0, h⟩) (iblk1 V c 1 ⟨0, h⟩) Gen.k1_pay1
  | n + 1, h => Gen.k1_pay2 (iblk1 V c 0 ⟨n + 1, h⟩) (iblk1 V c 1 ⟨n + 1, h⟩)
      (if (n + 1) % 4 = 0 then Gen.k1_pay1 else acc1 c n (Nat.lt_of_succ_lt h))

/-- The output block at point `t`: the accumulator plus the row block, scaled by the inverse square root degrees. -/
def outBlk1 (c : Dev nD) (t : Fin cfg1.N) : Vec F S1024x256 .f32 :=
  Gen.k1_pay3 (acc1 V c t.val t.isLt) (iblk1 V c 2 t) (iblk1 V c 3 t)

/-- The scoped buffers that are no staging buffer of this call, the accumulator apart, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The invariant before position `n`: at the start every scoped buffer at anything; afterwards the accumulator at
    what the point before left. -/
def PhiS1 (c : Dev nD) : (n : ℕ) → n ≤ cfg1.N → sProp 𝕄
  | 0, _ => Pipeline.scopedRest spec1 c
  | n + 1, hn => iprop(owns (c : Thread nD τ) (Memref.whole cc1_scratch0 : Memref sig .tc .vmem S1024x256 .f32) fullShare (acc1 V c n hn) ∗ rest1 c)

/-- The proof data of the aggregation pipeline on core `c`. The second and third windows read one array: each holds
    half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlk1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outBlk1 V c t := by dsimp only [dat1]

theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]
theorem q1_4 (c : Dev nD) : (dat1 V c).q 4 = fullShare := by dsimp only [dat1]

theorem owed1 (c : Dev nD) (t : Fin (cfg1.N + 1)) : (dat1 V c).owed t = 0 := by dsimp only [dat1]

theorem Phi1_eq (c : Dev nD) (t : Fin (cfg1.N + 1)) : (dat1 V c).Φ t = PhiS1 V c t.val (Nat.le_of_lt_succ t.isLt) := by
  dsimp only [dat1]

theorem PhiS1_zero (c : Dev nD) (n : ℕ) (h : n ≤ cfg1.N) (hz : n = 0) : PhiS1 V c n h = Pipeline.scopedRest spec1 c := by
  subst hz; rfl

theorem PhiS1_succ (c : Dev nD) (n : ℕ) (hn : n < cfg1.N) :
    PhiS1 V c (n + 1) hn = iprop(owns (c : Thread nD τ) (Memref.whole cc1_scratch0 : Memref sig .tc .vmem S1024x256 .f32) fullShare (acc1 V c n hn) ∗ rest1 c) := rfl

theorem PhiS1_pos (c : Dev nD) (n : ℕ) (h : n ≤ cfg1.N) (hz : n ≠ 0) :
    PhiS1 V c n h = iprop(owns (c : Thread nD τ) (Memref.whole cc1_scratch0 : Memref sig .tc .vmem S1024x256 .f32) fullShare (acc1 V c (n - 1) (by omega)) ∗ rest1 c) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulator at a point that opens a row of blocks: from zero. -/
theorem acc1_reset (c : Dev nD) (t : Fin cfg1.N) (h0 : t.val % 4 = 0) :
    acc1 V c t.val t.isLt = Gen.k1_pay2 (iblk1 V c 0 t) (iblk1 V c 1 t) Gen.k1_pay1 := by
  obtain ⟨n, hn⟩ := t
  cases n with
  | zero => rfl
  | succ n => exact (congrArg (Gen.k1_pay2 _ _) (if_pos h0))

/-- The accumulator at any other point: over what the point before left. -/
theorem acc1_step (c : Dev nD) (t : Fin cfg1.N) (h0 : ¬t.val % 4 = 0) :
    acc1 V c t.val t.isLt = Gen.k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (congrArg (Gen.k1_pay2 _ _) (if_neg h0))

end Cert.Kernel.Hand

end
-- ==== Proof.WR1Run.lean ====
import proofs.«165052_j56281251446800_1_alg».proof.Proof.WR1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The word-level program's second pipelined call: the body's run, case by case -/

/-- The first conditional's condition (the reset of the accumulator), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the output's store). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets, however spelt. -/
theorem zeros2 : (![0, 0] : Fin 2 → ℕ) = fun _ => 0 := by funext a; fin_cases a <;> rfl

/-- A covering store through the whole-shape rectangle, made LAST, leaves its payload: whatever the earlier stores
    and the prior contents. -/
theorem read_writes_cons_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- A load through the whole-shape rectangle reads the contents. -/
theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

set_option maxHeartbeats 1000000 in
/-- CASE A (the first column block of a row of blocks): on whole staging memrefs, the inputs' at their contents, the
    output's at contents handed back untouched, the accumulator at anything, the body runs to the continuation holding
    the inputs' as they were and the accumulator at the product added to zero. -/
theorem kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S2048x256 .f32) (x2 : Vec F S1024x256 .f32) (x3 : Vec F S1024x1 .f32) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (Gen.k1_pay2 x0 x1 Gen.k1_pay1)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS0
  ipureintro
  refine (read_writes_cons_unit_zero (S := S1024x256) _ _ zeros2 _ _ _).trans ?_
  sl_unfold_words
  rw [readAt_unit_zero (S := S1024x2048) _ _ zeros2, readAt_unit_zero (S := S2048x256) _ _ zeros2,
    View.readCov_unit_zero (S := S1024x256) _ zeros2]

set_option maxHeartbeats 1000000 in
/-- CASE B (the inner column blocks): the same, the accumulator entered at what the point before left and left at the
    product added to it. -/
theorem kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S2048x256 .f32) (x2 : Vec F S1024x256 .f32) (x3 : Vec F S1024x1 .f32) (xi4 : Vec F S1024x256 .f32) (xs0 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (Gen.k1_pay2 x0 x1 xs0)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  subst hf0; subst hf1; subst hf2; subst hf3; subst hf4; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS0
  ipureintro
  refine (read_writes_cons_unit_zero (S := S1024x256) _ _ zeros2 _ _ _).trans ?_
  sl_unfold_words
  rw [readAt_unit_zero (S := S1024x2048) _ _ zeros2, readAt_unit_zero (S := S2048x256) _ _ zeros2,
    readAt_unit_zero (S := S1024x256) _ _ zeros2]

set_option maxHeartbeats 1000000 in
/-- CASE C (the last column block of a row of blocks): the accumulator as in case B, and the output's buffer, entered
    at anything, left at the accumulator plus the row block, scaled by the inverse square root degrees. -/
theorem kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S2048x256 .f32) (x2 : Vec F S1024x256 .f32) (x3 : Vec F S1024x1 .f32) (xs0 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (Gen.k1_pay3 (Gen.k1_pay2 x0 x1 xs0) x2 x3) ∗ owns (c : Thread nD τ) arg7 fullShare (Gen.k1_pay2 x0 x1 xs0)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  subst hf0; subst hf1; subst hf2; subst hf3; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit_zero (S := S1024x256) _ _ zeros2 _ _ _).trans ?_
    sl_unfold_words
    rw [View.readCov_unit_zero (S := S1024x256) _ zeros2, readAt_unit_zero (S := S1024x2048) _ _ zeros2,
      readAt_unit_zero (S := S2048x256) _ _ zeros2, readAt_unit_zero (S := S1024x256) _ _ zeros2,
      readAt_unit_zero (S := S1024x256) _ _ zeros2, readAt_unit_zero (S := S1024x1) _ _ zeros2]
  iexists _; isplitr
  swap; · iexact HS0
  ipureintro
  sl_unfold_words
  refine (read_writes_cons_unit_zero (S := S1024x256) _ _ zeros2 _ _ _).trans ?_
  rw [readAt_unit_zero (S := S1024x2048) _ _ zeros2, readAt_unit_zero (S := S2048x256) _ _ zeros2,
    readAt_unit_zero (S := S1024x256) _ _ zeros2]

end Cert.Kernel.Hand

end
-- ==== Proof.WR1Body.lean ====
import proofs.«165052_j56281251446800_1_alg».proof.Proof.WR1Data
import proofs.«165052_j56281251446800_1_alg».proof.Proof.WR1Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The word-level program's second pipelined call: the body obligation at the proof data of WR1Data

At every grid point each input's staging buffer holds its block, fetched there or not; the point's residue mod 4
says which control case it is in; the case's run applies, the invariant handing it the accumulator and taking it
back at the point's contents; and the invariant before the first point and after the last is the launch's. -/

/-! ## The inputs' staging buffers hold their blocks -/

/-- Each input window's current staging buffer holds its block at every point, fetched there or not (the row block
    and the degrees are fetched only where their block index moves): the window is an input, uncut and never idle,
    and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column block the output is idle and not written back; at it, live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0

/-- What the body leaves in each input's buffer: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-- What the launch hands the region holds the accumulator as a memref owned at some contents, beside the rest; -/
theorem PhiIn1 (c : Dev nD) :
    (Pipeline.scopedRest spec1 c : sProp 𝕄) ⊢ iprop((∃ d, owns (c : Thread nD τ) scM1 fullShare d) ∗ rest1 (F := F) c) := by
  rw [scopedRest1_eq]; unfold rest1; simp only [scM1, owns_whole]
  iintro ⟨Ha, Hb, Hc, Hd, He, Hs⟩
  isplitl [Hs]; · iexact Hs
  isplitl [Ha]; · iexact Ha
  isplitl [Hb]; · iexact Hb
  isplitl [Hc]; · iexact Hc
  isplitl [Hd]; · iexact Hd
  iexact He

/-- and conversely; -/
theorem PhiOut1 (c : Dev nD) :
    iprop((∃ d, owns (c : Thread nD τ) scM1 fullShare d) ∗ rest1 (F := F) c) ⊢ (Pipeline.scopedRest spec1 c : sProp 𝕄) := by
  rw [scopedRest1_eq]; unfold rest1; simp only [scM1, owns_whole]
  iintro ⟨Hs, Ha, Hb, Hc, Hd, He⟩
  isplitl [Ha]; · iexact Ha
  isplitl [Hb]; · iexact Hb
  isplitl [Hc]; · iexact Hc
  isplitl [Hd]; · iexact Hd
  isplitl [He]; · iexact He
  iexact Hs

/-- so the two are one proposition. -/
theorem PhiIn1_eq (c : Dev nD) :
    (Pipeline.scopedRest spec1 c : sProp 𝕄) = iprop((∃ d, owns (c : Thread nD τ) scM1 fullShare d) ∗ rest1 (F := F) c) :=
  BI.equiv_iff.mp ⟨PhiIn1 c, PhiOut1 c⟩

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's residue mod 4 selects the case; the
    invariant hands the body the accumulator — at anything before the first point, else at what the point before
    left — and takes it back at this point's contents, the other scoped buffers passing through; where the output is
    idle its buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [acc1_reset V c t h0]
    by_cases hz : t.val = 0
    · rw [PhiS1_castSucc V c t, PhiS1_zero V c _ _ hz, PhiIn1_eq]
      · iintro ⟨⟨HS0, Hr⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4
    · rw [PhiS1_castSucc V c t, PhiS1_pos V c _ _ hz]
      · iintro ⟨⟨HS0, Hr⟩, Ho, ⟨%d0, H0⟩, ⟨%d1, H1⟩, ⟨%d2, H2⟩, ⟨%d3, H3⟩, ⟨%d4, H4⟩⟩
        iapply (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      unfold outBlk1
      rw [acc1_step V c t h0]
      · rw [PhiS1_castSucc V c t, PhiS1_pos V c _ _ hz]
        iintro ⟨⟨HS0, Hr⟩, Ho, ⟨%d0, H0⟩, ⟨%d1, H1⟩, ⟨%d2, H2⟩, ⟨%d3, H3⟩, ⟨%d4, H4⟩⟩
        iapply (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexact H4
    · rw [Dat.leavesExact_idle (dat1 V c) 4 t (idleAt1_4 t (fun h => h1 ((hcond1_1 t).mp h))) (noFlush1_4 t (fun h => h1 ((hcond1_1 t).mp h)))]
      rw [acc1_step V c t h0]
      · rw [PhiS1_castSucc V c t, PhiS1_pos V c _ _ hz]
        iintro ⟨⟨HS0, Hr⟩, Ho, ⟨%d0, H0⟩, ⟨%d1, H1⟩, ⟨%d2, H2⟩, ⟨%d3, H3⟩, ⟨%d4, H4⟩⟩
        iapply (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) ((dat1 V c).before 4 t d4) (acc1 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [HS0 Hr]
        · isplitl [HS0]; · iexact HS0
          iexact Hr
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : (Pipeline.scopedRest spec1 c : sProp 𝕄) ⊢ (dat1 V c).Φ 0 := by
  rw [show (dat1 V c).Φ 0 = PhiS1 V c 0 (Nat.zero_le _) from rfl, PhiS1_zero V c 0 _ rfl]

/-- After the last point the invariant gives the launch's back: the accumulator's named contents are forgotten. -/
theorem hout1 (c : Dev nD) : (dat1 V c).Φ (Fin.last cfg1.N) ⊢ (Pipeline.scopedRest spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiIn1_eq]
  iintro ⟨HS0, Hr⟩
  isplitl [HS0]
  · iexists _; iexact HS0
  iexact Hr

end Cert.Kernel.Hand

end
-- ==== Proof.WR1Arrays.lean ====
import proofs.«165052_j56281251446800_1_alg».proof.Proof.WR1Data
import Idealize.ShloMosaic.Lib.Pipeline.RegionsLoop

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The word-level program's second pipelined call: its arrays out of the core's unscoped buffers at entry, and back at exit

Two windows of this call read one array, so the arrays are four buffers behind five windows: the shared one is
held whole at entry, dealt to its two windows in halves, and joined again at exit. -/

/-- The buffers behind the call's arrays, listed. -/
theorem arrImage1 : Finset.univ.image (Pipeline.arrRef spec1) = [main_arg1, main_v18, main_v0, main_v19].toFinset := by decide

/-- Those buffers, each whole at the full share, one by one. -/
theorem arrBufs1_eq (c : Dev nD) (V' : (b : Ref sig .tc) → Buf (Elt F) ((c : Thread nD τ).loc b)) :
    (Pipeline.arrBufs spec1 c V' : sProp 𝕄)
      = iprop((((c : Thread nD τ).loc main_arg1) ↦{fullShare} V' main_arg1) ∗ (((c : Thread nD τ).loc main_v18) ↦{fullShare} V' main_v18)
          ∗ (((c : Thread nD τ).loc main_v0) ↦{fullShare} V' main_v0) ∗ (((c : Thread nD τ).loc main_v19) ↦{fullShare} V' main_v19)) := by
  unfold Pipeline.arrBufs
  exact Idealize.SL.BI.bigSep_eq_bigSepL_of_eq _ arrImage1 (by decide) _

/-- The core's unscoped buffers are those four and the rest. -/
theorem unscopedBufs1_split (c : Dev nD) (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs (1 : Fin 2) Gen.winFacts₀1.arr_unscoped c V'

/-- The proof data's arrays, window by window: the shared array in halves. -/
theorem arrays1_eq (c : Dev nD) (G : (w : Fin cfg1.W) → Buf (Elt F) ((cfg1.win w).arr.view.loc (c.tc : Thread nD τ))) :
    (dat1 V c).arrays G
      = iprop((((c : Thread nD τ).loc main_arg1) ↦{fullShare} G 0) ∗ (((c : Thread nD τ).loc main_v18) ↦{fullShare.left} G 1)
          ∗ (((c : Thread nD τ).loc main_v18) ↦{fullShare.right} G 2) ∗ (((c : Thread nD τ).loc main_v0) ↦{fullShare} G 3)
          ∗ (((c : Thread nD τ).loc main_v19) ↦{fullShare} G 4)) := by
  unfold Dat.arrays
  rw [bigSep_W1]
  rw [(arr_whole1 0).set_eq_univ, (arr_whole1 1).set_eq_univ, (arr_whole1 3).set_eq_univ, (arr_whole1 4).set_eq_univ]
  rw [show (dat1 V c).share 0 = fullShare from q1_0 V c, show (dat1 V c).share 1 = fullShare.left from q1_1 V c,
    show (dat1 V c).share 2 = fullShare.right from q1_2 V c, show (dat1 V c).share 3 = fullShare from q1_3 V c,
    show (dat1 V c).share 4 = fullShare from rfl]

/-- ENTRY: the core's unscoped buffers at the entry contents are the proof data's arrays at entry — the shared
    array's full share dealt to its two windows in halves — and the unscoped rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split, arrBufs1_eq, arrays1_eq]
  iintro ⟨⟨H0, H18, Hv0, H19⟩, Hrest⟩
  ihave H18' := (pointsTo_share (PosShare.mem_left_op_right fullShare)).1 $$ H18
  icases H18' with ⟨H18l, H18r⟩
  isplitr [Hrest]
  · isplitl [H0]; · iexact H0
    isplitl [H18l]; · iexact H18l
    isplitl [H18r]; · iexact H18r
    isplitl [Hv0]; · iexact Hv0
    iexact H19
  iexact Hrest

/-- EXIT: the proof data's arrays at their final contents and the unscoped rest are the core's unscoped buffers at
    any valuation that has the arrays at those contents and agrees with the entry one off them: the two halves of
    the shared array, both at the contents it was entered with, joined. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs1_split, arrBufs1_eq, arrays1_eq, hr]
  beta_reduce
  rw [hF 0, hF 1, hF 2, hF 3, hF 4]
  iintro ⟨⟨H0, H18l, H18r, Hv0, H19⟩, Hrest⟩
  isplitr [Hrest]
  · isplitl [H0]; · iexact H0
    isplitl [H18l H18r]
    · iapply (pointsTo_share (PosShare.mem_left_op_right fullShare)).2
      isplitl [H18l]; · iexact H18l
      iexact H18r
    isplitl [Hv0]; · iexact Hv0
    iexact H19
  iexact Hrest

end Cert.Kernel.Hand

end
-- ==== Proof.WAssemble.lean ====
/-
  The word-level program's two regions as records of the several-regions launch, over ONE family of proof data:
  region 0 entered from the launch contents, region 1 from what region 0's write-backs and the host
  operations between the regions leave. What each region leaves in its result array is named: the array after
  every write-back of that region's pipeline.
-/
import proofs.«165052_j56281251446800_1_alg».proof.Proof.WRunCond
import proofs.«165052_j56281251446800_1_alg».proof.Proof.WR0Body
import proofs.«165052_j56281251446800_1_alg».proof.Proof.WR1Body
import proofs.«165052_j56281251446800_1_alg».proof.Proof.WR1Arrays
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The contents at the regions' entries, and what the regions leave -/

/-- The TensorCore's buffers when region 0 is entered: the launch contents. -/
abbrev Vr0 (c : Dev nD) (b : Ref sig .tc) : Buf (Elt F) ((c : Thread nD τ).loc b) := V0 m c (Proc.devRef .tc b)

/-- What region 0 leaves in its result array (the inverse square roots of the degrees). -/
def dinvArr (c : Dev nD) : Buf (Elt F) ((c : Thread nD τ).loc main_v0) := (dat0 (Vr0 m) c).arrAt 1 cfg0.N

/-- The regions' results with only region 0's named. -/
def outsA : Outs (F := F) := fun _ r c => if h : r = main_v0 then h ▸ dinvArr m c else m ((c : Thread nD τ).loc r)

/-- The TensorCore's buffers when region 1 is entered. -/
abbrev Vr4 (c : Dev nD) (b : Ref sig .tc) : Buf (Elt F) ((c : Thread nD τ).loc b) := V4 m (outsA m) c (Proc.devRef .tc b)

/-- What region 1 leaves in its result array: the program's result. -/
def outArr (c : Dev nD) : Buf (Elt F) ((c : Thread nD τ).loc main_v19) := (dat1 (Vr4 m) c).arrAt 4 cfg1.N

/-- Both regions' results. -/
def outs : Outs (F := F) := fun J r c => if h : r = main_v19 then h ▸ outArr m c else outsA m J r c

theorem outs_v0 (J : ℕ) (c : Dev nD) : outs m J main_v0 c = dinvArr m c := by
  unfold outs outsA
  rw [dif_neg (by decide), dif_pos rfl]

theorem outs_v19 (J : ℕ) (c : Dev nD) : outs m J main_v19 c = outArr m c := by
  unfold outs
  rw [dif_pos rfl]

theorem outsA_v0 (J : ℕ) (c : Dev nD) : outsA m J main_v0 c = dinvArr m c := by
  unfold outsA
  rw [dif_pos rfl]

/-- Region 1 is entered from the same contents whichever of the two families names region 0's result. -/
theorem V1_outs (c : Dev nD) : V1 m (outs m) c = V1 m (outsA m) c := by
  show Function.update (V0 m c) main_v0 (outs m 1 main_v0 c) = Function.update (V0 m c) main_v0 (outsA m 1 main_v0 c)
  rw [outs_v0, outsA_v0]

theorem V4_outs (c : Dev nD) : V4 m (outs m) c = V4 m (outsA m) c := by
  show StableHlo.after hostOps1_2 (StableHlo.after hostOps1_1 (StableHlo.after hostOps1 (V1 m (outs m) c)))
    = StableHlo.after hostOps1_2 (StableHlo.after hostOps1_1 (StableHlo.after hostOps1 (V1 m (outsA m) c)))
  rw [V1_outs]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr4 m) c

abbrev 𝒱₀ : Variants := Variants.none
/-- No core owes another anything: no level is assigned. -/
abbrev Lz : GSem nD τ sig → Finset Unit := fun _ => ∅
abbrev lvz : GSem nD τ sig → Unit → ℕ := fun _ _ => 0

/-- What rides beside the buffers through every segment: the generator register at some state and the core's
    debts, none. -/
abbrev Rst (c : Dev nD) : sProp 𝕄 := iprop((∃ r, prngReg c r) ∗ ∃ W, owes (c : Thread nD τ) (0 : CellTallies nD τ sig Unit) W)

abbrev Est : Fin 3 → Dev nD → sProp 𝕄 := fun _ c => Rst c

/-! ## Region 0 as a record -/

/-- After region 0 its input array is as at entry and its result array holds the named result. -/
theorem hF0 (c : Dev nD) (w : Fin cfg0.W) :
    (dat0 (Vr0 m) c).arrAt w cfg0.N = V1 m (outs m) c (Proc.devRef .tc (Pipeline.arrRef spec0 w)) := by
  match w with
  | ⟨0, _⟩ =>
    refine ((dat0 (Vr0 m) c).arrAt_in 0 rfl _).trans ((A_eq0 (Vr0 m) c 0).trans ?_)
    exact (V1_of m (outs m) c main_arg1 (by decide)).symm
  | ⟨1, _⟩ =>
    show dinvArr m c = Function.update (V0 m c) main_v0 (outs m 1 main_v0 c) main_v0
    rw [Function.update_self, outs_v0]

/-- Off region 0's arrays nothing changes across it. -/
theorem hrest0 (c : Dev nD) (b : Ref sig .tc) (hb : b ∉ Finset.univ.image (Pipeline.arrRef spec0)) :
    V1 m (outs m) c (Proc.devRef .tc b) = Vr0 m c b := by
  refine V1_of m (outs m) c b ?_
  intro h
  rw [List.mem_singleton] at h
  exact hb (Finset.mem_image.mpr ⟨1, Finset.mem_univ _, h.symm⟩)

set_option backward.isDefEq.respectTransparency.types false in
/-- REGION 0 over the thread state "every unscoped buffer at the boundary's contents, the generator register at
    some state, nothing owed": entered from the launch contents, left with the result array at its named
    contents. Its arrays are taken out of the unscoped buffers at entry and put back at exit; the scoped buffers
    make the invariant before the first point and are given back after the last. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(emp)
  Y c := iprop(emp)
  Z c := iprop(Pipeline.unscopedRest (Ix := Unit) (Name := ℕ) (U := UR sig nD τ) (Lvl := ℕ) spec0 c (Vr0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show (Pipeline.scopedRest spec0 c : sProp 𝕄) ⊢ (pdats m 0 c).Φ 0 from hin0 (Vr0 m) c)
    iexact Hr
  hout c := by
    rw [Pipeline.ownSems0_none]
    iintro H
    isplitr; · iempintro
    isplitr; · iempintro
    iapply (show (pdats m 0 c).Φ (Fin.last _) ⊢ (Pipeline.scopedRest spec0 c : sProp 𝕄) from hout0 (Vr0 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c (Proc.devRef .tc b)) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Region 1 as a record -/

/-- After region 1 its input arrays are as at entry and its result array holds the named result. -/
theorem hF1 (c : Dev nD) (w : Fin cfg1.W) :
    (dat1 (Vr4 m) c).arrAt w cfg1.N = V5 m (outs m) c (Proc.devRef .tc (Pipeline.arrRef spec1 w)) := by
  match w with
  | ⟨0, _⟩ =>
    refine ((dat1 (Vr4 m) c).arrAt_in 0 rfl _).trans ((A_eq1 (Vr4 m) c 0).trans ?_)
    exact ((V5_of m (outs m) c main_arg1 (by decide)).trans (congrFun (V4_outs m c) _)).symm
  | ⟨1, _⟩ =>
    refine ((dat1 (Vr4 m) c).arrAt_in 1 rfl _).trans ((A_eq1 (Vr4 m) c 1).trans ?_)
    exact ((V5_of m (outs m) c main_v18 (by decide)).trans (congrFun (V4_outs m c) _)).symm
  | ⟨2, _⟩ =>
    refine ((dat1 (Vr4 m) c).arrAt_in 2 rfl _).trans ((A_eq1 (Vr4 m) c 2).trans ?_)
    exact ((V5_of m (outs m) c main_v18 (by decide)).trans (congrFun (V4_outs m c) _)).symm
  | ⟨3, _⟩ =>
    refine ((dat1 (Vr4 m) c).arrAt_in 3 rfl _).trans ((A_eq1 (Vr4 m) c 3).trans ?_)
    exact ((V5_of m (outs m) c main_v0 (by decide)).trans (congrFun (V4_outs m c) _)).symm
  | ⟨4, _⟩ =>
    show outArr m c = Function.update (V4 m (outs m) c) main_v19 (outs m 5 main_v19 c) main_v19
    rw [Function.update_self, outs_v19]

/-- Off region 1's result array nothing changes across it. -/
theorem hrest1 (c : Dev nD) (b : Ref sig .tc) (hb : b ∉ Finset.univ.image (Pipeline.arrRef spec1)) :
    V5 m (outs m) c (Proc.devRef .tc b) = Vr4 m c b := by
  refine (V5_of m (outs m) c b ?_).trans (congrFun (V4_outs m c) _)
  intro h
  rw [List.mem_singleton] at h
  exact hb (Finset.mem_image.mpr ⟨4, Finset.mem_univ _, h.symm⟩)

set_option backward.isDefEq.respectTransparency.types false in
/-- REGION 1 over the same thread state: entered from what region 0 and the host operations between the
    regions leave, left with the program's result array at its named contents. Two of its windows read one array:
    its arrays come out of the unscoped buffers with that array's ownership divided between the two windows
    (the entry), and go back with the two parts joined (the exit). -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr4 m) c).loose
  hwaits := Pipeline.hwaits_of_owed_zero _ _ _ _ Lz lvz 1 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(emp)
  Y c := iprop(emp)
  Z c := iprop(Pipeline.unscopedRest (Ix := Unit) (Name := ℕ) (U := UR sig nD τ) (Lvl := ℕ) spec1 c (Vr4 m c) ∗ ∃ r, prngReg c r)
  hentry c := by
    rw [Pipeline.ownSems0_none, V4_outs m c]
    have hsplit := entry1 (Vr4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show (Pipeline.scopedRest spec1 c : sProp 𝕄) ⊢ (pdats m 1 c).Φ 0 from hin1 (Vr4 m) c)
    iexact Hr
  hout c := by
    rw [Pipeline.ownSems0_none]
    iintro H
    isplitr; · iempintro
    isplitr; · iempintro
    iapply (show (pdats m 1 c).Φ (Fin.last _) ⊢ (Pipeline.scopedRest spec1 c : sProp 𝕄) from hout1 (Vr4 m) c)
    iexact H
  hexit c := by
    have hjoin := exit1 (Vr4 m) c (fun b => V5 m (outs m) c (Proc.devRef .tc b)) (hF1 m c) (hrest1 m c)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

/-! ## The run -/

section Launch

/-- The launch element is the library's. -/
theorem hu0_main : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch each core's generator register and its (empty) debts make the rest of the first thread state. -/
theorem hE0_main (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (Est (F := F) 0) : sProp 𝕄) := by
  refine Pipeline.initEach Lz lvz fun c => ?_
  iintro ⟨⟨-, HO, -, Hp, -⟩, -⟩
  imodintro
  isplitl [Hp]; · iexists _; iexact Hp
  iexists ∅; iexact HO

/-- The last thread state's rest owes nothing. -/
theorem hE2_main (c : Dev nD) : Est (F := F) 2 c ⊢ (iprop(∃ W, owes (c : Thread nD τ) (0 : CellTallies nD τ sig Unit) W) : sProp 𝕄) := by
  iintro ⟨-, HO⟩; iexact HO

end Launch

section Run

variable (ρ : Dev nD → PrngReg)

/-- Region 0 is entered from the launch's thread state, -/
theorem hpre0_main (c : Dev nD) :
    iprop(StableHlo.held (c : Thread nD τ) (Pipeline.ucRefs τ sig) (V0 m c) ∗ Est (F := F) 0 c) ⊢ (reg0 m).pre c := .rfl
/-- and left at the state the first host stretch starts from. -/
theorem hpost0_main (c : Dev nD) :
    (reg0 m).post c ⊢ iprop(StableHlo.held (c : Thread nD τ) (Pipeline.ucRefs τ sig) (V1 m (outs m) c) ∗ Est (F := F) 1 c) := .rfl
/-- Region 1 is entered from the state the last host stretch leaves, -/
theorem hpre1_main (c : Dev nD) :
    iprop(StableHlo.held (c : Thread nD τ) (Pipeline.ucRefs τ sig) (V4 m (outs m) c) ∗ Est (F := F) 1 c) ⊢ (reg1 m).pre c := .rfl
/-- and left at the last thread state. -/
theorem hpost1_main (c : Dev nD) :
    (reg1 m).post c ⊢ iprop(StableHlo.held (c : Thread nD τ) (Pipeline.ucRefs τ sig) (V5 m (outs m) c) ∗ Est (F := F) 2 c) := .rfl

set_option backward.isDefEq.respectTransparency.types false in
/-- Every weakly fair execution of the kernel program terminates, and the final memory of each core holds, at
    every unscoped buffer, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m (outs m) (Ix := Unit) (U := UR sig nD τ) (Lvl := ℕ) emb₁ () 𝒱₀ Lz lvz (fun _ _ => rfl) ρ (pdats m)
    (O₀ := 0) (G := fun _ => (BI.emp : sProp 𝕄))
    (u₀ := initOf (Pipeline.cells cfgs cellOf_inj) (Pipeline.launchToks cfgs cellOf_inj))
    (hu₀ := hu0_main) (E := Est) (hE0 := hE0_main ρ) (hE2 := hE2_main)
    (R0 := reg0 m) (hpre0 := hpre0_main m) (hpost0 := hpost0_main m)
    (R1 := reg1 m) (hpre1 := hpre1_main m) (hpost1 := hpost1_main m)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The kernel program's run with its result named: the result array ends at what region 1's write-backs leave, and
    every argument array ends as launched. -/
theorem run_value : θ_run defs (onTc (τ := τ) (main (F := F))) ⟨m, fun _ => 0, ρ⟩ (fun r => ∀ c : Dev nD,
      r.2.mem ((c.tc : Thread nD τ).loc main_v19) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c (Proc.devRef .tc main_v19) (mem_uc main_v19 (by decide))).trans
        ((show V5 m (outs m) c (Proc.devRef .tc main_v19) = outs m 5 main_v19 c from Function.update_self _ _ _).trans (outs_v19 m 5 c)),
      (h c (Proc.devRef .tc main_arg0) (mem_uc main_arg0 (by decide))).trans (V5_main_arg0 m (outs m) c),
      (h c (Proc.devRef .tc main_arg1) (mem_uc main_arg1 (by decide))).trans (V5_main_arg1 m (outs m) c),
      (h c (Proc.devRef .tc main_arg2) (mem_uc main_arg2 (by decide))).trans (V5_main_arg2 m (outs m) c),
      (h c (Proc.devRef .tc main_arg3) (mem_uc main_arg3 (by decide))).trans (V5_main_arg3 m (outs m) c)⟩)
    (run_all m ρ)

end Run

end Cert.Kernel.Hand

end
-- ==== Proof.PairNorm.lean ====
/-
  The normalised features of the layer. With x = node_feats · Wᵀ + b (an [8192, 256] array), the program forms
  the column means  mean_c = (∑_r x_rc) / 8192,  the unbiased column variances
  var_c = (∑_r (x_rc − mean_c)²) / (8192 − 1),  and the normalised features
  x̂_rc = (x_rc − mean_c) / (√var_c + 10⁻⁶).
  This file spells that chain of host operations as one term, stage by stage, and proves that over the
  extended reals every entry of x̂ is a REAL as soon as every entry of the three inputs is: sums, differences
  and products of reals are reals; a quotient by a real that is not zero is a real; a variance is a sum of
  squares over a positive real, hence a real that is not negative, so its square root is one too, and adding
  the positive real 10⁻⁶ gives a divisor that is positive, in particular not zero.
-/
import proofs.«165052_j56281251446800_1_alg».proof.KernelIdeal
import Idealize.ShloMosaic.Lib.ValueIdx
import Idealize.ShloMosaic.Lib.IdealHost
import Idealize.ShloMosaic.PureOps.Ideal.Laws

noncomputable section

namespace Cert.KernelIdeal.PN

open Idealize.ShloMosaic Idealize.ShloMosaic.ValueIdx
open scoped BigOperators

/-! ## Reals among the extended reals -/

/-- The extended real x is a real number. -/
def IsR (x : EReal) : Prop := ∃ r : ℝ, x = (r : EReal)
/-- The extended real x is a real number that is not negative. -/
def IsNN (x : EReal) : Prop := ∃ r : ℝ, 0 ≤ r ∧ x = (r : EReal)
/-- The extended real x is a positive real number. -/
def IsPos (x : EReal) : Prop := ∃ r : ℝ, 0 < r ∧ x = (r : EReal)

theorem IsNN.isR {x : EReal} (h : IsNN x) : IsR x := let ⟨r, _, e⟩ := h; ⟨r, e⟩
theorem IsPos.isR {x : EReal} (h : IsPos x) : IsR x := let ⟨r, _, e⟩ := h; ⟨r, e⟩

/-- The sum of two reals is a real. -/
theorem IsR.add {x y : EReal} (hx : IsR x) (hy : IsR y) : IsR (x + y) := by
  obtain ⟨a, rfl⟩ := hx; obtain ⟨b, rfl⟩ := hy; exact ⟨a + b, (EReal.coe_add a b).symm⟩
/-- The difference of two reals is a real. -/
theorem IsR.sub {x y : EReal} (hx : IsR x) (hy : IsR y) : IsR (x - y) := by
  obtain ⟨a, rfl⟩ := hx; obtain ⟨b, rfl⟩ := hy; exact ⟨a - b, (EReal.coe_sub a b).symm⟩
/-- The product of two reals is a real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- The square of a real is a real that is not negative. -/
theorem IsR.mul_self {x : EReal} (hx : IsR x) : IsNN (x * x) := by
  obtain ⟨a, rfl⟩ := hx; exact ⟨a * a, mul_self_nonneg a, (EReal.coe_mul a a).symm⟩
/-- A finite sum of reals is a real. -/
theorem IsR.sum {ι : Type} (s : Finset ι) (f : ι → EReal) (hf : ∀ i ∈ s, IsR (f i)) : IsR (∑ i ∈ s, f i) :=
  Finset.sum_induction f IsR (fun _ _ => IsR.add) ⟨0, EReal.coe_zero.symm⟩ hf
/-- The sum of two reals that are not negative is one. -/
theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩
/-- A finite sum of reals that are not negative is one. -/
theorem IsNN.sum {ι : Type} (s : Finset ι) (f : ι → EReal) (hf : ∀ i ∈ s, IsNN (f i)) : IsNN (∑ i ∈ s, f i) :=
  Finset.sum_induction f IsNN (fun _ _ => IsNN.add) ⟨0, le_rfl, EReal.coe_zero.symm⟩ hf
/-- A real that is not negative plus a positive real is a positive real. -/
theorem IsNN.add_pos {x y : EReal} (hx : IsNN x) (hy : IsPos y) : IsPos (x + y) := by
  obtain ⟨a, ha, rfl⟩ := hx; obtain ⟨b, hb, rfl⟩ := hy
  exact ⟨a + b, add_pos_of_nonneg_of_pos ha hb, (EReal.coe_add a b).symm⟩
/-- A real divided by a real that is not zero is a real. -/
theorem IsR.div {x : EReal} {y : ℝ} (hx : IsR x) (hy : y ≠ 0) : IsR (Ideal.div x (y : EReal)) := by
  obtain ⟨a, rfl⟩ := hx
  exact ⟨a * (1 / y), by rw [Ideal.div_coe hy, EReal.coe_mul]⟩
/-- A real that is not negative divided by a positive real is a real that is not negative. -/
theorem IsNN.div {x : EReal} {y : ℝ} (hx : IsNN x) (hy : 0 < y) : IsNN (Ideal.div x (y : EReal)) := by
  obtain ⟨a, ha, rfl⟩ := hx
  exact ⟨a * (1 / y), mul_nonneg ha (by positivity), by rw [Ideal.div_coe hy.ne', EReal.coe_mul]⟩
/-- The square root of a real that is not negative is a real that is not negative. -/
theorem IsNN.sqrt {x : EReal} (hx : IsNN x) : IsNN (Ideal.sqrt x) := by
  obtain ⟨a, ha, rfl⟩ := hx
  exact ⟨Real.sqrt a, Real.sqrt_nonneg a, by rw [Ideal.sqrt_coe, if_neg (not_lt.2 ha)]⟩

/-! ## The constants of the chain -/

/-- The 32-bit pattern 0x46000000 is the real 8192 (the number of rows). -/
theorem c8192 : Ideal.ofBits .f32 0x46000000#32 = ((8192 : ℝ) : EReal) := by
  simp [Ideal.ofBits, Ideal.ieee, -EReal.coe_mul]; norm_num

/-- The 32-bit pattern 0x358637BD (the float nearest 10⁻⁶) is a positive real. -/
theorem eps_pos : IsPos (Ideal.ofBits .f32 0x358637BD#32) := by
  refine ⟨(8796093 : ℝ) * (2 : ℝ) ^ (-43 : ℤ), by positivity, ?_⟩
  simp [Ideal.ofBits, Ideal.ieee, -EReal.coe_mul]

/-- The integer word 1, converted to a float, is the real 1. -/
theorem one_i32 : FloatOps.sitofp (F := Ideal) .f32 (1#32 : BitVec 32) = ((1 : ℝ) : EReal) := by
  show ((((1#32 : BitVec 32).toInt : ℤ) : ℝ) : EReal) = _
  norm_num

/-! ## The chain, stage by stage, at any float instance -/

section Chain
variable {F : FTy → Type} [FloatOps F] [Facts]
open Facts₀ Facts

/-- The linear layer x = node_feats · Wᵀ + b: the product with the transposed weights, plus the bias as one
    row copied down the 8192 rows. -/
def lin (a0 : FVec F S8192x256 .f32) (a2 : FVec F S256x256 .f32) (a3 : FVec F S256 .f32) : FVec F S8192x256 .f32 :=
  addf
    (Host.dotGeneral dot_S8192x256_S256x256_S8192x256_1_0_0_1_n_n none a0
      (transpose S256x256 [1, 0] a2 transposes_S256x256_S256x256_1_0))
    (broadcastInDim S8192x256 ![0, 1] bcast_S1x256_S8192x256_0_1
      (broadcastInDim S1x256 ![1] bcast_S256_S1x256_1 a3))

/-- The column means, as one row: the column sums divided by the number of rows, 8192. -/
def mean (x : FVec F S8192x256 .f32) : FVec F S1x256 .f32 :=
  Host.divf
    (broadcastInDim S1x256 ![1] bcast_S256_S1x256_1
      (Host.reduceAdd x (constant S_ .f32 0x00000000#32) reducesTo_S8192x256_S256_d0 h_S_))
    (broadcastInDim S1x256 ![] bcast_S_S1x256 (constant S_ .f32 0x46000000#32))

/-- The deviations from the column means: x less the row of means copied down the rows. -/
def dev (x : FVec F S8192x256 .f32) : FVec F S8192x256 .f32 :=
  subf x (broadcastInDim S8192x256 ![0, 1] bcast_S1x256_S8192x256_0_1 (mean x))

/-- The number of rows less one, 8192 − 1 (the one an integer word converted to a float): the divisor of the
    unbiased variance. -/
def nm1 : FVec F S_ .f32 :=
  subf (constant S_ .f32 0x46000000#32) (sitofp .f32 (constantI S_ 32 1#32))

/-- The unbiased column variances, as one row: the column sums of the squared deviations divided by 8192 − 1,
    where 8192 − 1 is positive (and a fixed junk pattern where it is not: a branch that is never taken). -/
def var (x : FVec F S8192x256 .f32) : FVec F S1x256 .f32 :=
  select (broadcastInDim S1x256 ![] bcast_S_S1x256 (cmpf .ogt (nm1 (F := F)) (constant S_ .f32 0x00000000#32)))
    (Host.divf
      (broadcastInDim S1x256 ![1] bcast_S256_S1x256_1
        (Host.reduceAdd (mulf (dev x) (dev x)) (constant S_ .f32 0x00000000#32) reducesTo_S8192x256_S256_d0 h_S_))
      (broadcastInDim S1x256 ![] bcast_S_S1x256 nm1))
    (broadcastInDim S1x256 ![] bcast_S_S1x256 (id (constant S_ .f32 0x7FC00000#32)))

/-- The normalised features of an array x: its deviations divided by (column standard deviation + 10⁻⁶), the
    row of divisors copied down the rows. -/
def pnOf (x : FVec F S8192x256 .f32) : FVec F S8192x256 .f32 :=
  Host.divf (dev x)
    (broadcastInDim S8192x256 ![0, 1] bcast_S1x256_S8192x256_0_1
      (addf (Host.sqrt (var x))
        (broadcastInDim S1x256 ![] bcast_S_S1x256 (constant S_ .f32 0x358637BD#32))))

/-- The normalised features of the layer's linear part. -/
def pn (a0 : FVec F S8192x256 .f32) (a2 : FVec F S256x256 .f32) (a3 : FVec F S256 .f32) : FVec F S8192x256 .f32 :=
  pnOf (lin a0 a2 a3)

end Chain

/-! ## Every stage holds reals, at the extended reals -/

section Reals
variable [Facts]
open Facts₀ Facts

/-- A broadcast reads its operand at some index: what holds of every entry of the operand holds of every entry
    of the broadcast. -/
theorem bcast_all {s t : Shape} {dims : Fin s.rank → Fin t.rank} (h : s.BroadcastsInDim t dims) (x : s.Idx → EReal)
    (P : EReal → Prop) (hx : ∀ i, P (x i)) : ∀ j, P (broadcastInDim t dims h x j) := fun j => by
  unfold broadcastInDim; exact hx _

/-- A host sum of reals, from an initial value that is a real, is a real at every result index. -/
theorem reduceAdd_isR {s t u : Shape} {axes : List (Fin s.rank)} (x : FVec Ideal s .f32) (init : u.Idx → Ideal .f32)
    (h : s.ReducesTo axes t) (hu : 0 < u.numel) (hx : ∀ i, IsR (x i)) (hi : ∀ i, IsR (init i)) :
    ∀ j, IsR (Host.reduceAdd x init h hu j) := fun j => by
  rw [hostReduceAdd_apply]
  unfold Ideal.hostReduceAdd
  exact (hi _).add (IsR.sum _ _ fun i _ => hx i)

/-- A host sum of reals that are not negative, from an initial value that is one, is one at every result index. -/
theorem reduceAdd_isNN {s t u : Shape} {axes : List (Fin s.rank)} (x : FVec Ideal s .f32) (init : u.Idx → Ideal .f32)
    (h : s.ReducesTo axes t) (hu : 0 < u.numel) (hx : ∀ i, IsNN (x i)) (hi : ∀ i, IsNN (init i)) :
    ∀ j, IsNN (Host.reduceAdd x init h hu j) := fun j => by
  rw [hostReduceAdd_apply]
  unfold Ideal.hostReduceAdd
  exact (hi _).add (IsNN.sum _ _ fun i _ => hx i)

/-- The zero constant is the real zero, which is not negative. -/
theorem zero_isNN {s : Shape} (i : s.Idx) : IsNN (constant (F := Ideal) s .f32 0x00000000#32 i) :=
  ⟨0, le_rfl, by rw [constant_apply, Ideal.ofBits_zero_f32]; rfl⟩

/-- The linear layer of real inputs holds reals: each entry is a finite sum of products of reals, plus a real. -/
theorem lin_isR (a0 : FVec Ideal S8192x256 .f32) (a2 : FVec Ideal S256x256 .f32) (a3 : FVec Ideal S256 .f32)
    (h0 : ∀ i, IsR (a0 i)) (h2 : ∀ i, IsR (a2 i)) (h3 : ∀ i, IsR (a3 i)) : ∀ i, IsR (lin (F := Ideal) a0 a2 a3 i) := fun i => by
  unfold lin
  rw [addf_apply]
  refine IsR.add ?_ (bcast_all _ _ IsR (bcast_all _ _ IsR h3) i)
  simp only [Host.dotGeneral]
  rw [Ideal.dotGeneral_apply]
  exact IsR.sum _ _ fun k _ => (h0 _).mul (by unfold transpose; exact h2 _)

/-- The column means of an array of reals are reals. -/
theorem mean_isR (x : FVec Ideal S8192x256 .f32) (hx : ∀ i, IsR (x i)) : ∀ j, IsR (mean (F := Ideal) x j) := fun j => by
  unfold mean
  rw [hostDivf_apply, broadcastInDim_scalar_apply, constant_apply, c8192]
  exact (bcast_all _ _ IsR (reduceAdd_isR _ _ _ _ hx fun i => (zero_isNN i).isR) j).div (by norm_num)

/-- The deviations of an array of reals from its column means are reals. -/
theorem dev_isR (x : FVec Ideal S8192x256 .f32) (hx : ∀ i, IsR (x i)) : ∀ i, IsR (dev (F := Ideal) x i) := fun i => by
  unfold dev
  rw [subf_apply]
  exact (hx i).sub (bcast_all _ _ IsR (mean_isR x hx) i)

/-- The divisor of the variance is the real 8191. -/
theorem nm1_apply (i : S_.Idx) : nm1 (F := Ideal) i = ((8191 : ℝ) : EReal) := by
  unfold nm1
  rw [subf_apply, constant_apply, sitofp_apply, c8192]
  show ((8192 : ℝ) : EReal) - FloatOps.sitofp (F := Ideal) .f32 (1#32 : BitVec 32) = _
  rw [one_i32, ← EReal.coe_sub]
  norm_num

/-- The condition "8192 − 1 is positive" holds. -/
theorem cond_one (i : S_.Idx) : cmpf .ogt (nm1 (F := Ideal)) (constant (F := Ideal) S_ .f32 0x00000000#32) i = 1#1 := by
  rw [cmpf_apply, nm1_apply, constant_apply, Ideal.ofBits_zero_f32]
  have h : (0 : EReal) < ((8191 : ℝ) : EReal) := EReal.coe_pos.2 (by norm_num)
  show Ideal.cmp .ogt ((8191 : ℝ) : EReal) 0 = 1#1
  simp [Ideal.cmp, h]

/-- The column variances of an array of reals are reals that are not negative. -/
theorem var_isNN (x : FVec Ideal S8192x256 .f32) (hx : ∀ i, IsR (x i)) : ∀ j, IsNN (var (F := Ideal) x j) := fun j => by
  unfold var
  rw [select_apply, broadcastInDim_scalar_apply, cond_one, select_one, hostDivf_apply, broadcastInDim_scalar_apply,
    nm1_apply]
  refine IsNN.div (bcast_all _ _ IsNN (reduceAdd_isNN _ _ _ _ (fun i => ?_) zero_isNN) j) (by norm_num)
  rw [mulf_apply]
  exact (dev_isR x hx i).mul_self

/-- The normalised features of an array of reals are reals: the divisor, a square root of a variance plus
    10⁻⁶, is a positive real. -/
theorem pnOf_isR (x : FVec Ideal S8192x256 .f32) (hx : ∀ i, IsR (x i)) : ∀ i, IsR (pnOf (F := Ideal) x i) := fun i => by
  unfold pnOf
  rw [hostDivf_apply]
  have hden : ∀ j, IsPos (addf (Host.sqrt (var (F := Ideal) x))
      (broadcastInDim S1x256 ![] bcast_S_S1x256 (constant (F := Ideal) S_ .f32 0x358637BD#32)) j) := fun j => by
    rw [addf_apply, broadcastInDim_scalar_apply, constant_apply]
    refine IsNN.add_pos ?_ eps_pos
    show IsNN (FloatOps.hostUnary (F := Ideal) .sqrt (var (F := Ideal) x j))
    rw [Ideal.hostUnary_sqrt_def]
    exact (var_isNN x hx j).sqrt
  obtain ⟨d, hd, hde⟩ := bcast_all _ _ IsPos hden i
  rw [hde]
  exact (dev_isR x hx i).div hd.ne'

/-- THE RESULT: when every entry of the node features, of the weights and of the bias is a real, every entry
    of the normalised features is a real. -/
theorem pn_real (a0 : FVec Ideal S8192x256 .f32) (a2 : FVec Ideal S256x256 .f32) (a3 : FVec Ideal S256 .f32)
    (h0 : ∀ i, ∃ r : ℝ, a0 i = (r : EReal)) (h2 : ∀ i, ∃ r : ℝ, a2 i = (r : EReal))
    (h3 : ∀ i, ∃ r : ℝ, a3 i = (r : EReal)) : ∀ i, ∃ r : ℝ, pn (F := Ideal) a0 a2 a3 i = (r : EReal) :=
  pnOf_isR _ (lin_isR a0 a2 a3 h0 h2 h3)

/-- The same of the normalised features of any array of reals (the linear part taken as given). -/
theorem pnOf_real (x : FVec Ideal S8192x256 .f32) (hx : ∀ i, ∃ r : ℝ, x i = (r : EReal)) :
    ∀ i, ∃ r : ℝ, pnOf (F := Ideal) x i = (r : EReal) :=
  pnOf_isR x hx

end Reals

end Cert.KernelIdeal.PN
-- ==== Proof.Spec.lean ====
/-
  The normalised graph convolution as plain formulas on the extended reals, over the literal shapes:
  for an adjacency array A : [8192, 8192] and features x : [8192, 256],
    deg i  = (∑ j, A i j) + 1                      (the row sums of A + I)
    dinv i = deg i ^ (-1/2) where deg i > 0, else 0
    out i k = dinv i · ((∑ j, A i j · (dinv j · x j k)) + dinv i · x i k)
  which is row i, column k of (D (A + I) D) x when every entry is a real. No program is mentioned here.
-/
import Idealize.ShloMosaic.PureOps.Ideal
import Idealize.ShloMosaic.Lib.ValueIdx

noncomputable section

namespace Cert.Spec

open Idealize.ShloMosaic Idealize.ShloMosaic.ValueIdx
open scoped BigOperators

/-- The degree of node i: the sum of row i of the adjacency array, plus one for the self loop. -/
def deg (A : (⟨2, ![8192, 8192]⟩ : Shape).Idx → EReal) (i : Fin 8192) : EReal :=
  (∑ j : Fin 8192, A (ix2 i j)) + 1

/-- The inverse square root of the degree where the degree is positive, zero elsewhere. -/
def dinv (A : (⟨2, ![8192, 8192]⟩ : Shape).Idx → EReal) (i : Fin 8192) : EReal :=
  if 0 < deg A i then Ideal.rsqrt (deg A i) else 0

/-- One aggregation step with a given row scale dv and given scaled features y:
    entry (i, k) is dv i · ((∑ j, A i j · y j k) + y i k). -/
def agg (A : (⟨2, ![8192, 8192]⟩ : Shape).Idx → EReal) (dv : Fin 8192 → EReal)
    (y : (⟨2, ![8192, 256]⟩ : Shape).Idx → EReal) (i : Fin 8192) (k : Fin 256) : EReal :=
  dv i * ((∑ j : Fin 8192, A (ix2 i j) * y (ix2 j k)) + y (ix2 i k))

/-- The features scaled row by row. -/
def scaled (dv : Fin 8192 → EReal) (x : (⟨2, ![8192, 256]⟩ : Shape).Idx → EReal) :
    (⟨2, ![8192, 256]⟩ : Shape).Idx → EReal :=
  fun idx => dv (idx 0) * x idx

/-- The layer: aggregate the features scaled by dinv, and scale the result by dinv again. -/
def layer (A : (⟨2, ![8192, 8192]⟩ : Shape).Idx → EReal) (x : (⟨2, ![8192, 256]⟩ : Shape).Idx → EReal)
    (i : Fin 8192) (k : Fin 256) : EReal :=
  agg A (dinv A) (scaled (dinv A) x) i k

end Cert.Spec

end
-- ==== Proof.LibSums.lean ====
/-
  Two facts about finite sums in a commutative monoid (used here on the extended reals, where addition is commutative
  and associative even at the infinities): a sum over `a · b` consecutive positions is the sum over `a` groups of `b`,
  and the instances for the two groupings this certificate meets — 1024 contraction positions as 8 filter offsets of 128
  channels, and 100000 rows as 20 tiles of 5000.
-/
import Idealize.ShloMosaic.Lib.ValueIdx

namespace Cert.LibSums

open scoped BigOperators

/-- Position `c` of group `k`, among `a` groups of `b`, is below `a · b`. -/
theorem block_lt {a b : Nat} (k : Fin a) (c : Fin b) : b * k.val + c.val < a * b := by
  have hk := k.isLt
  have hc := c.isLt
  have h1 : b * k.val + c.val < b * (k.val + 1) := by rw [Nat.mul_succ]; omega
  have h2 : b * (k.val + 1) ≤ b * a := Nat.mul_le_mul_left b hk
  rw [Nat.mul_comm a b]
  omega

/-- A sum over `Fin (a * b)` regrouped as `a` blocks of `b` consecutive positions. -/
theorem sum_blocks {M : Type*} [AddCommMonoid M] (a b : Nat) (f : Fin (a * b) → M) :
    ∑ j, f j = ∑ k : Fin a, ∑ c : Fin b, f ⟨b * k.val + c.val, block_lt k c⟩ := by
  rw [← Equiv.sum_comp finProdFinEquiv f, Fintype.sum_prod_type]
  refine Finset.sum_congr rfl fun k _ => Finset.sum_congr rfl fun c _ => congrArg f (Fin.ext ?_)
  simp [finProdFinEquiv, Nat.add_comm]

/-- 1024 positions as 8 groups of 128. -/
theorem sum_1024 {M : Type*} [AddCommMonoid M] (f : Fin 1024 → M) :
    ∑ j, f j = ∑ k : Fin 8, ∑ c : Fin 128, f ⟨128 * k.val + c.val, by omega⟩ :=
  sum_blocks 8 128 f

/-- 100000 rows as 20 tiles of 5000. -/
theorem sum_100000 {M : Type*} [AddCommMonoid M] (f : Fin 100000 → M) :
    ∑ p, f p = ∑ t : Fin 20, ∑ r : Fin 5000, f ⟨5000 * t.val + r.val, by omega⟩ :=
  sum_blocks 20 5000 f

end Cert.LibSums
-- ==== Proof.LibEReal.lean ====
/-
  General facts about Mathlib's extended reals, and about two of the ideal float
  operations on them, that the certificate of a normalised graph convolution needs.
  Nothing here mentions a program.
-/
import Mathlib
import Idealize.ShloMosaic.PureOps.Ideal

open scoped BigOperators
open Idealize.ShloMosaic

namespace Cert.LibEReal

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real `x > 0` the reciprocal square root is the real `(√x)⁻¹`. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- For a real `x > 0`, raising to the power `-1/2` is the reciprocal square root. -/
theorem pow_neg_half_eq_rsqrt {x : ℝ} (hx : 0 < x) :
    Ideal.pow (x : EReal) ((-1 / 2 : ℝ) : EReal) = Ideal.rsqrt (x : EReal) := by
  rw [rsqrt_coe_of_pos hx]
  show ((Real.rpow x (-1 / 2) : ℝ) : EReal) = _
  congr 1
  show x ^ (-1 / 2 : ℝ) = (Real.sqrt x)⁻¹
  rw [show (-1 / 2 : ℝ) = -(1 / 2) by ring, Real.rpow_neg hx.le, Real.sqrt_eq_rpow]

/-- For a real `x > 0` the reciprocal square root is a real `> 0`. -/
theorem rsqrt_pos_real {x : ℝ} (hx : 0 < x) :
    ∃ r : ℝ, 0 < r ∧ Ideal.rsqrt (x : EReal) = (r : EReal) :=
  ⟨(Real.sqrt x)⁻¹, inv_pos.mpr (Real.sqrt_pos.mpr hx), rsqrt_coe_of_pos hx⟩

/-- For a real `x > 0` the power `x ^ (-1/2)` is a real `> 0`. -/
theorem pow_neg_half_pos_real {x : ℝ} (hx : 0 < x) :
    ∃ r : ℝ, 0 < r ∧ Ideal.pow (x : EReal) ((-1 / 2 : ℝ) : EReal) = (r : EReal) := by
  rw [pow_neg_half_eq_rsqrt hx]; exact rsqrt_pos_real hx

/-- The indicator of the diagonal, as an extended real, is the coercion of the real one. -/
theorem coe_ite_one_zero (p : Prop) [Decidable p] :
    (if p then (1 : EReal) else 0) = (((if p then (1 : ℝ) else 0) : ℝ) : EReal) := by
  split <;> simp

/-- The graph-convolution law on reals, read in the extended reals: scaling row `i` of
    `A·(d ⊙ x) + d ⊙ x` by `d i` is the row `i` of `(D (A + I) D) x`. Every entry is a real, so the
    extended-real sums and products are the coercions of the real ones, where the ring laws hold. -/
theorem gcn_law {n : ℕ} (d : Fin n → ℝ) (A : Fin n → Fin n → ℝ) (x : Fin n → ℝ) (i : Fin n) :
    (d i : EReal) * ((∑ k, (A i k : EReal) * ((d k : EReal) * (x k : EReal)))
        + (d i : EReal) * (x i : EReal))
      = ∑ j, (((d i : EReal) * ((A i j : EReal) + (if i = j then (1 : EReal) else 0)))
          * (d j : EReal)) * (x j : EReal) := by
  simp only [coe_ite_one_zero, ← EReal.coe_mul, ← EReal.coe_add, ← coe_finset_sum]
  congr 1
  have h : ∀ j, d i * (A i j + (if i = j then (1 : ℝ) else 0)) * d j * x j
      = d i * (A i j * (d j * x j)) + (if i = j then d i * (d j * x j) else 0) := by
    intro j; split <;> ring
  simp only [h, Finset.sum_add_distrib, Finset.sum_ite_eq, Finset.mem_univ, if_true,
    ← Finset.mul_sum]
  ring

/-- The row sums of `A + I` are the row sums of `A` plus one. -/
theorem sum_add_diag {n : ℕ} (A : Fin n → Fin n → ℝ) (i : Fin n) :
    (∑ j, ((A i j : EReal) + (if i = j then (1 : EReal) else 0)))
      = (∑ j, (A i j : EReal)) + 1 := by
  simp only [coe_ite_one_zero, ← EReal.coe_add, ← coe_finset_sum, ← EReal.coe_one,
    Finset.sum_add_distrib, Finset.sum_ite_eq, Finset.mem_univ, if_true]

end Cert.LibEReal
-- ==== Proof.R0Value.lean ====
/- The first pipelined call, read: after it the array it writes holds, row by row, the inverse square root of the
   degree (the row sum of the adjacency array plus one) where that is positive and zero elsewhere. The steps: each
   payload of the body at an index; an input block's entry as an entry of the adjacency array; the carried
   accumulator after a point as a partial row sum, by induction along the four points of a row block; the write-back
   at a row block's last point and the cover of the rows; the four partial sums regrouped as the whole row sum. -/
import proofs.«165052_j56281251446800_1_alg».proof.Proof.R0Data
import proofs.«165052_j56281251446800_1_alg».proof.Proof.Spec
import proofs.«165052_j56281251446800_1_alg».proof.Proof.LibSums
import proofs.«165052_j56281251446800_1_alg».proof.Proof.LibEReal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

namespace R0

/-! ## The payloads at an index -/

/-- A vector cast to a column reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The reset value is the zero column. -/
theorem pay1_apply (r : Fin 1024) (u : Fin 1) : Gen.k0_pay1 (F := Ideal) (ix2 r u) = 0 := by
  unfold Gen.k0_pay1
  rw [shapeCast_self]
  exact Ideal.ofBits_zero_f32

/-- The accumulating step adds, to each row of the carried column, the sum of that row of the block over its lanes. -/
theorem pay2_apply (a : FVec Ideal S1024x1 .f32) (x : FVec Ideal S1024x2048 .f32) (r : Fin 1024) (u : Fin 1) :
    Gen.k0_pay2 (F := Ideal) a x (ix2 r u) = a (ix2 r u) + ∑ l : Fin 2048, x (ix2 r l) := by
  unfold Gen.k0_pay2
  rw [shapeCast_self]
  refine (addf_apply _ _ _).trans ?_
  congr 1
  refine (shapeCast_a_a1_apply _ _ r u).trans ?_
  refine (Ideal.multiReduction_add_single x 0x00000000#32 reduces_S1024x2048_S1024 (.inl rfl) rfl (ix1 r)).trans ?_
  exact Finset.sum_congr rfl fun k _ => congrArg x (funext fun d => Fin.ext (by
    match d with
    | ⟨0, _⟩ => rfl
    | ⟨1, _⟩ => rfl))

/-- A comparison "greater than" of extended reals is the bit of the strict order. -/
theorem cmp_ogt (x y : EReal) : Ideal.cmp .ogt x y = BitVec.ofBool (decide (y < x)) := rfl

/-- The closing step: the inverse square root of the accumulated sum plus one where that is positive, else zero. -/
theorem pay3_apply (a : FVec Ideal S1024x1 .f32) (r : Fin 1024) (u : Fin 1) :
    Gen.k0_pay3 (F := Ideal) a (ix2 r u) = if 0 < a (ix2 r u) + 1 then Ideal.rsqrt (a (ix2 r u) + 1) else 0 := by
  unfold Gen.k0_pay3
  refine (select_apply _ _ _ _).trans ?_
  rw [cmpf_apply, Ideal.cmpf_def, cmp_ogt, addf_apply, broadcast_apply, broadcast_apply]
  show Scalar.select (BitVec.ofBool (decide (Ideal.ofBits .f32 0x00000000#32 < a (ix2 r u) + Ideal.ofBits .f32 0x3F800000#32)))
      (Ideal.rsqrt (a (ix2 r u) + Ideal.ofBits .f32 0x3F800000#32)) (Ideal.ofBits .f32 0x00000000#32) = _
  rw [Ideal.ofBits_zero_f32, Ideal.ofBits_one_f32]
  by_cases h : 0 < a (ix2 r u) + 1
  · rw [if_pos h, decide_eq_true h]; exact select_one _ _
  · rw [if_neg h, decide_eq_false h]; exact select_zero _ _

/-! ## The blocks' places in their arrays -/

variable (V : (c : Dev nD) → (b : Ref sig .tc) → Buf (Elt Ideal) ((c : Thread nD τ).loc b))

/-- The printed index maps over the grid: the input block at point `t` is block `(t / 4, t % 4)` of the adjacency
    array, the output block is block `(t / 4, 0)` of the column. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- Entry `(r, l)` of the input block at point `t` is entry `(1024 (t / 4) + r, 2048 (t % 4) + l)` of the array. -/
theorem iblk0_apply (c : Dev nD) (t : Fin cfg0.N) (r : Fin 1024) (l : Fin 2048) (k : S8192x8192.Idx)
    (hk0 : (k 0).val = 1024 * (t.val / 4) + r.val) (hk1 : (k 1).val = 2048 * (t.val % 4) + l.val) :
    (iblk0 V c 0 t : FVec Ideal S1024x2048 .f32) (ix2 r l) = (V c main_arg1 : S8192x8192.Idx → Ideal .f32) k := by
  obtain ⟨e0, e1, -, -⟩ := idx_facts t
  unfold iblk0
  rw [View.read_apply]
  show V c main_arg1 _ = V c main_arg1 _
  congr 1
  funext a
  apply Fin.ext
  match a with
  | ⟨0, _⟩ => show win0_0.index t 0 * 1024 + 1 * r.val = (k 0).val; rw [e0, hk0]; omega
  | ⟨1, _⟩ => show win0_0.index t 1 * 2048 + 1 * l.val = (k 1).val; rw [e1, hk1]; omega

/-- The array's entry at natural coordinates, zero outside the array. -/
def ent (A : S8192x8192.Idx → EReal) (i j : ℕ) : EReal :=
  if h : i < 8192 ∧ j < 8192 then A (ix2 ⟨i, h.1⟩ ⟨j, h.2⟩) else 0

/-- The sum of row `i` over the 2048 columns of column block `q`. -/
def part (A : S8192x8192.Idx → EReal) (i q : ℕ) : EReal := ∑ l : Fin 2048, ent A i (2048 * q + l.val)

/-- The input block at point `t`, as a 1024 × 2048 vector of extended reals. -/
abbrev inBlk (c : Dev nD) (t : Fin cfg0.N) : FVec Ideal S1024x2048 .f32 := iblk0 V c 0 t

/-- A row of the input block at point `t`, summed over its lanes, is that partial row sum. -/
theorem iblk0_rowsum (c : Dev nD) (t : Fin cfg0.N) (r : Fin 1024) :
    ∑ l : Fin 2048, inBlk V c t (ix2 r l) = part (V c main_arg1) (1024 * (t.val / 4) + r.val) (t.val % 4) := by
  have hN : cfg0.N = 32 := N_0
  have ht : t.val < 32 := hN ▸ t.isLt
  unfold part
  refine Finset.sum_congr rfl fun l _ => ?_
  unfold ent
  rw [dif_pos ⟨by omega, by omega⟩]
  exact iblk0_apply V c t r l _ rfl rfl

/-! ## The accumulator after a point -/

/-- The accumulator at a point that is not the first: restarted at a multiple of four, -/
theorem acc0_succ_reset (c : Dev nD) (n : ℕ) (h : n + 1 < cfg0.N) (h0 : (n + 1) % 4 = 0) :
    acc0 V c (n + 1) h = Gen.k0_pay2 (F := Ideal) (Gen.k0_pay1 (F := Ideal)) (inBlk V c ⟨n + 1, h⟩) :=
  acc0_reset V c ⟨n + 1, h⟩ h0

/-- and continued from the point before elsewhere. -/
theorem acc0_succ_step (c : Dev nD) (n : ℕ) (h : n + 1 < cfg0.N) (h0 : ¬(n + 1) % 4 = 0) :
    acc0 V c (n + 1) h = Gen.k0_pay2 (F := Ideal) (acc0 V c n (Nat.lt_of_succ_lt h)) (inBlk V c ⟨n + 1, h⟩) :=
  acc0_step V c ⟨n + 1, h⟩ h0

/-- After point `n`, row `r` of the accumulator is the sum of row `1024 (n / 4) + r` of the adjacency array over the
    column blocks `0 … n % 4`: by induction on the point (addition of extended reals needs no finiteness here: only
    `0 + x = x` and the sum over a range extended by one term). -/
theorem acc0_apply (c : Dev nD) (r : Fin 1024) (u : Fin 1) : ∀ (n : ℕ) (h : n < cfg0.N),
    (acc0 V c n h : FVec Ideal S1024x1 .f32) (ix2 r u)
      = ∑ s ∈ Finset.range (n % 4 + 1), part (V c main_arg1) (1024 * (n / 4) + r.val) s
  | 0, h => by
    refine (congrFun (acc0_reset V c ⟨0, h⟩ rfl) (ix2 r u)).trans ?_
    refine (pay2_apply _ (inBlk V c ⟨0, h⟩) r u).trans ?_
    rw [pay1_apply, zero_add, iblk0_rowsum V c ⟨0, h⟩ r]
    exact (Finset.sum_range_one _).symm
  | n + 1, h => by
    by_cases h0 : (n + 1) % 4 = 0
    · refine (congrFun (acc0_succ_reset V c n h h0) (ix2 r u)).trans ?_
      refine (pay2_apply _ (inBlk V c ⟨n + 1, h⟩) r u).trans ?_
      rw [pay1_apply, zero_add, iblk0_rowsum V c ⟨n + 1, h⟩ r]
      show part _ (1024 * ((n + 1) / 4) + r.val) ((n + 1) % 4) = _
      rw [h0]
      exact (Finset.sum_range_one _).symm
    · refine (congrFun (acc0_succ_step V c n h h0) (ix2 r u)).trans ?_
      refine (pay2_apply _ (inBlk V c ⟨n + 1, h⟩) r u).trans ?_
      rw [acc0_apply c r u n (Nat.lt_of_succ_lt h), iblk0_rowsum V c ⟨n + 1, h⟩ r]
      show _ + part _ (1024 * ((n + 1) / 4) + r.val) ((n + 1) % 4) = _
      have e1 : (n + 1) / 4 = n / 4 := by omega
      have e2 : (n + 1) % 4 = n % 4 + 1 := by omega
      rw [e1, e2, Finset.sum_range_succ _ (n % 4 + 1)]

/-! ## The whole row sum, regrouped -/

/-- A row of the adjacency array summed over its 8192 columns is the sum of its four partial sums. -/
theorem rowsum_eq (A : S8192x8192.Idx → EReal) (i : Fin 8192) :
    ∑ j : Fin 8192, A (ix2 i j) = ∑ s ∈ Finset.range 4, part A i.val s := by
  rw [Finset.sum_range, Cert.LibSums.sum_blocks 4 2048 (fun j : Fin 8192 => A (ix2 i j))]
  refine Finset.sum_congr rfl fun k _ => ?_
  unfold part
  refine Finset.sum_congr rfl fun l _ => ?_
  unfold ent
  have hk := k.isLt
  have hl := l.isLt
  have h : i.val < 8192 ∧ 2048 * k.val + l.val < 8192 := ⟨i.isLt, by omega⟩
  rw [dif_pos h] <;> rfl

/-! ## What a write-back writes, and the array after the call -/

/-- The adjacency array as the call finds it, as an array of extended reals. -/
abbrev adj (c : Dev nD) : S8192x8192.Idx → EReal := V c main_arg1

/-- Row `r` of the output block at a row block's last point is the inverse square root of the degree of row
    `1024 (t / 4) + r` of the adjacency array where that degree is positive, and zero elsewhere. -/
theorem dinvBlk0_apply (c : Dev nD) (t : Fin cfg0.N) (ht : t.val % 4 = 3) (y : S1024x1.Idx) (k : Fin 8192)
    (hk : k.val = 1024 * (t.val / 4) + (y 0).val) :
    (dinvBlk0 V c t : FVec Ideal S1024x1 .f32) y = Cert.Spec.dinv (V c main_arg1) k := by
  obtain ⟨r, u, rfl⟩ : ∃ (r : Fin 1024) (u : Fin 1), y = ix2 r u := ⟨y 0, y 1, eq_ix2 y⟩
  have hk' : k.val = 1024 * (t.val / 4) + r.val := hk
  have hacc : (acc0 V c t.val t.isLt : FVec Ideal S1024x1 .f32) (ix2 r u)
      = ∑ j : Fin 8192, adj V c (ix2 k j) := by
    refine (acc0_apply V c r u t.val t.isLt).trans ?_
    rw [ht, rowsum_eq (adj V c) k, hk'] <;> rfl
  unfold dinvBlk0
  refine (pay3_apply _ r u).trans ?_
  rw [hacc]
  rfl

/-- The column the first call writes, as one function of the adjacency array. -/
abbrev dinvArr (c : Dev nD) : S8192x1.Idx → EReal :=
  fun i => Cert.Spec.dinv (V c main_arg1) ⟨(i 0).val, idx2_lt0 i⟩

/-- What a flushing point writes back is its block of that column. -/
theorem flushed_eq (c : Dev nD) (t : Fin cfg0.N) (hf : (cfg0.win 1).flush t = true) :
    (dat0 V c).flushed 1 t = ((cfg0.win 1).blk t).view.read (Elt Ideal) (dinvArr V c) := by
  have ht : t.val % 4 = 3 := (flush0_1 t).mp hf
  obtain ⟨-, -, e2, -⟩ := idx_facts t
  show (cfg0.win 1).cut (grid0.coords t) ((dat0 V c).after 1 t) = _
  rw [after0_1]
  funext y
  rw [View.read_apply]
  show (dinvBlk0 V c t : FVec Ideal S1024x1 .f32) y
    = Cert.Spec.dinv (V c main_arg1) ⟨((((cfg0.win 1).blk t).view.emb y) 0).val, _⟩
  refine dinvBlk0_apply V c t ht y _ ?_
  show win0_1.index t 0 * 1024 + 1 * (y 0).val = 1024 * (t.val / 4) + (y 0).val
  rw [e2]; omega

/-- An index of the column is in point `t`'s block iff each coordinate is in the block's range on its axis. -/
theorem mem_blk (t : Fin cfg0.N) (i : S8192x1.Idx) :
    i ∈ ((cfg0.win 1).blk t).view.set ↔ ∀ a : Fin 2, win0_1.index t a * S1024x1.size a ≤ (i a).val
      ∧ (i a).val < win0_1.index t a * S1024x1.size a + S1024x1.size a := by
  show i ∈ ((View.whole main_v0).slice (win0_1.rect t)).set ↔ _
  rw [View.set_slice_whole, Rect.mem_set_unit]
  exact Iff.rfl

/-- Row `i` of the column is covered by the last point of its row block, point `4 (i / 1024) + 3`. -/
theorem cover (i : S8192x1.Idx) :
    ∃ t : Fin cfg0.N, (cfg0.win 1).flush t = true ∧ i ∈ ((cfg0.win 1).blk t).view.set := by
  have hN : cfg0.N = 32 := N_0
  have h0 : (i 0).val < 8192 := idx2_lt0 i
  have h1 : (i 1).val < 1 := idx2_lt1 i
  have hlt : 4 * ((i 0).val / 1024) + 3 < cfg0.N := by rw [hN]; omega
  obtain ⟨-, -, e2, e3⟩ := idx_facts ⟨4 * ((i 0).val / 1024) + 3, hlt⟩
  have e2' : win0_1.index ⟨4 * ((i 0).val / 1024) + 3, hlt⟩ 0 = (4 * ((i 0).val / 1024) + 3) / 4 := e2
  refine ⟨⟨4 * ((i 0).val / 1024) + 3, hlt⟩, (flush0_1 _).mpr (by show (4 * ((i 0).val / 1024) + 3) % 4 = 3; omega), ?_⟩
  rw [mem_blk]
  intro a
  match a with
  | ⟨0, _⟩ =>
    show win0_1.index ⟨4 * ((i 0).val / 1024) + 3, hlt⟩ 0 * 1024 ≤ (i 0).val
      ∧ (i 0).val < win0_1.index ⟨4 * ((i 0).val / 1024) + 3, hlt⟩ 0 * 1024 + 1024
    rw [e2']; omega
  | ⟨1, _⟩ =>
    show win0_1.index ⟨4 * ((i 0).val / 1024) + 3, hlt⟩ 1 * 1 ≤ (i 1).val
      ∧ (i 1).val < win0_1.index ⟨4 * ((i 0).val / 1024) + 3, hlt⟩ 1 * 1 + 1
    rw [e3]; omega

/-- After the call the column holds, row by row, the inverse square root of the degree. -/
theorem final (c : Dev nD) : (dat0 V c).arrAt 1 cfg0.N = dinvArr V c :=
  (dat0 V c).arrAt_eq_of_cover 1 (dinvArr V c) (flushed_eq V c) cover

end R0

/-- THE FIRST CALL'S VALUE: entry `(i, 0)` of the array it writes is the inverse square root of the degree of node
    `i` where the degree is positive, and zero elsewhere. -/
theorem dinv_final (V : (c : Dev nD) → (b : Ref sig .tc) → Buf (Elt Ideal) ((c : Thread nD τ).loc b)) (c : Dev nD)
    (i : Fin 8192) :
    (dat0 (F := Ideal) V c).arrAt 1 cfg0.N (ix2 i (0 : Fin 1)) = Cert.Spec.dinv (V c main_arg1) i :=
  congrFun (R0.final V c) (ix2 i (0 : Fin 1))

end Cert.KernelIdeal.Val

end
-- ==== Proof.R1Value.lean ====
/-
  The aggregation step's output array, read index by index on the extended reals: after the second grid of 8 x 4 points,
  entry (i, k) of the [8192, 256] result is  d i * ((sum over j < 8192 of A i j * y j k) + y i k)  for the adjacency array A,
  the column d of row scales and the scaled features y as the grid finds them. The accumulator of a row block collects,
  point by point, the partial products over 2048 contracted positions; the fourth point of the row block scales the sum and
  its block is written back; the four partial sums regroup into the one sum over 8192 positions.
-/
import proofs.«165052_j56281251446800_1_alg».proof.Proof.R1Data
import proofs.«165052_j56281251446800_1_alg».proof.Proof.Spec
import proofs.«165052_j56281251446800_1_alg».proof.Proof.LibSums
import proofs.«165052_j56281251446800_1_alg».proof.Proof.LibEReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand
open scoped BigOperators

/-! ## The three payloads at an index -/

/-- The reset payload is the zero block. -/
theorem pay1_apply (r : Fin 1024) (k : Fin 256) : (Gen.k1_pay1 (F := Ideal)) (ix2 r k) = 0 := by
  unfold Gen.k1_pay1
  simp only [shapeCast_self]
  exact Ideal.ofBits_zero_f32

/-- The product of two blocks into a zero accumulator, at an index: the sum over the 2048 contracted positions. -/
theorem matmul_zero_apply (x0 : FVec Ideal S1024x2048 .bf16) (x1 : FVec Ideal S2048x256 .bf16) (r : Fin 1024) (k : Fin 256) :
    matmul dot_S1024x2048_S2048x256_S1024x256_1_0_0_1_n_n none x0 x1 (constant (F := Ideal) S1024x256 .f32 0x00000000#32) (ix2 r k)
      = ∑ l : Fin 2048, x0 (ix2 r l) * x1 (ix2 l k) := by
  refine (Ideal.matmul_constant_zero_apply dot_S1024x2048_S2048x256_S1024x256_1_0_0_1_n_n none x0 x1 (ix2 r k)).trans ?_
  rw [← Equiv.sum_comp (contrEquiv1 dot_S1024x2048_S2048x256_S1024x256_1_0_0_1_n_n 2048 rfl rfl).symm]
  refine Finset.sum_congr rfl fun l _ => ?_
  have c2 := contrEquiv1_symm_val dot_S1024x2048_S2048x256_S1024x256_1_0_0_1_n_n 2048 rfl rfl l
  have l2 : dot_S1024x2048_S2048x256_S1024x256_1_0_0_1_n_n.lhsIdx (ix2 r k)
      ((contrEquiv1 dot_S1024x2048_S2048x256_S1024x256_1_0_0_1_n_n 2048 rfl rfl).symm l) = ix2 r l := by
    funext ax; apply Fin.ext
    match ax with
    | ⟨0, _⟩ => simp [DotDims.lhsIdx, dot_S1024x2048_S2048x256_S1024x256_1_0_0_1_n_n]; rfl
    | ⟨1, _⟩ => simp [DotDims.lhsIdx, dot_S1024x2048_S2048x256_S1024x256_1_0_0_1_n_n]; exact c2
  have r2 : dot_S1024x2048_S2048x256_S1024x256_1_0_0_1_n_n.rhsIdx (ix2 r k)
      ((contrEquiv1 dot_S1024x2048_S2048x256_S1024x256_1_0_0_1_n_n 2048 rfl rfl).symm l) = ix2 l k := by
    funext ax; apply Fin.ext
    match ax with
    | ⟨0, _⟩ => simp [DotDims.rhsIdx, dot_S1024x2048_S2048x256_S1024x256_1_0_0_1_n_n]; exact c2
    | ⟨1, _⟩ => simp [DotDims.rhsIdx, dot_S1024x2048_S2048x256_S1024x256_1_0_0_1_n_n]; rfl
  rw [l2, r2]

/-- The accumulation payload adds, to the carried entry, the product of row r of the first block with column k of the
    second over the 2048 contracted positions: the narrowing casts are the identity on the extended reals. -/
theorem pay2_apply (x0 : Vec Ideal S1024x2048 .f32) (x1 : Vec Ideal S2048x256 .f32) (a : Vec Ideal S1024x256 .f32)
    (r : Fin 1024) (k : Fin 256) :
    Gen.k1_pay2 x0 x1 a (ix2 r k) = a (ix2 r k) + ∑ l : Fin 2048, x0 (ix2 r l) * x1 (ix2 l k) := by
  unfold Gen.k1_pay2
  simp only [shapeCast_self]
  exact congrArg (a (ix2 r k) + ·)
    (matmul_zero_apply (truncf .bf16 x0 bitsLt_bf16_f32) (truncf .bf16 x1 bitsLt_bf16_f32) r k)

/-- The closing payload scales, by the row's entry of the column block, the carried entry plus the feature block's. -/
theorem pay3_apply (a x2 : Vec Ideal S1024x256 .f32) (x3 : Vec Ideal S1024x1 .f32) (r : Fin 1024) (k : Fin 256) :
    Gen.k1_pay3 a x2 x3 (ix2 r k) = x3 (ix2 r (0 : Fin 1)) * (a (ix2 r k) + x2 (ix2 r k)) := by
  unfold Gen.k1_pay3
  simp only [shapeCast_self]
  refine congrArg (· * (a (ix2 r k) + x2 (ix2 r k)))
    (broadcastTo_apply x3 broadcasts_S1024x1_S1024x256 (ix2 r k) (ix2 r (0 : Fin 1)) fun ax => ?_)
  match ax with
  | ⟨0, _⟩ => rfl
  | ⟨1, _⟩ => rfl

/-! ## The blocks, read off their arrays -/

/-- The printed index maps over the grid: the block indices of the five windows at point t. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

variable (V : (c : Dev nD) → (b : Ref sig .tc) → Buf (Elt Ideal) ((c : Thread nD τ).loc b))

/-- The adjacency block at point t holds rows 1024 (t / 4) + r and columns 2048 (t % 4) + l of the adjacency array. -/
theorem iblk0_apply (c : Dev nD) (t : Fin cfg1.N) (r : Fin 1024) (l : Fin 2048) (i : Fin 8192) (j : Fin 8192)
    (hi : i.val = 1024 * (t.val / 4) + r.val) (hj : j.val = 2048 * (t.val % 4) + l.val) :
    (iblk1 V c 0 t : Vec Ideal S1024x2048 .f32) (ix2 r l) = (V c main_arg1 : S8192x8192.Idx → EReal) (ix2 i j) := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 1024 + 1 * r.val = i.val; rw [e0, hi]; omega
  | ⟨1, _⟩ => show win1_0.index t 1 * 2048 + 1 * l.val = j.val; rw [e1, hj]; omega

/-- The contracted feature block at point t holds rows 2048 (t % 4) + l of the scaled features. -/
theorem iblk1_apply (c : Dev nD) (t : Fin cfg1.N) (l : Fin 2048) (k : Fin 256) (j : Fin 8192)
    (hj : j.val = 2048 * (t.val % 4) + l.val) :
    (iblk1 V c 1 t : Vec Ideal S2048x256 .f32) (ix2 l k) = (V c main_v18 : S8192x256.Idx → EReal) (ix2 j k) := by
  obtain ⟨-, -, e0, e1, -⟩ := idx_facts t
  unfold iblk1
  rw [View.read_apply]
  show V c main_v18 _ = V c main_v18 _
  congr 1
  funext a
  apply Fin.ext
  match a with
  | ⟨0, _⟩ => show win1_1.index t 0 * 2048 + 1 * l.val = j.val; rw [e0, hj]; omega
  | ⟨1, _⟩ => show win1_1.index t 1 * 256 + 1 * k.val = k.val; rw [e1]; omega

/-- The row block of the scaled features at point t holds rows 1024 (t / 4) + r. -/
theorem iblk2_apply (c : Dev nD) (t : Fin cfg1.N) (r : Fin 1024) (k : Fin 256) (i : Fin 8192)
    (hi : i.val = 1024 * (t.val / 4) + r.val) :
    (iblk1 V c 2 t : Vec Ideal S1024x256 .f32) (ix2 r k) = (V c main_v18 : S8192x256.Idx → EReal) (ix2 i k) := by
  obtain ⟨-, -, -, -, e0, e1, -⟩ := idx_facts t
  unfold iblk1
  rw [View.read_apply]
  show V c main_v18 _ = V c main_v18 _
  congr 1
  funext a
  apply Fin.ext
  match a with
  | ⟨0, _⟩ => show win1_2.index t 0 * 1024 + 1 * r.val = i.val; rw [e0, hi]; omega
  | ⟨1, _⟩ => show win1_2.index t 1 * 256 + 1 * k.val = k.val; rw [e1]; omega

/-- The block of row scales at point t holds rows 1024 (t / 4) + r of the scale column. -/
theorem iblk3_apply (c : Dev nD) (t : Fin cfg1.N) (r : Fin 1024) (i : Fin 8192)
    (hi : i.val = 1024 * (t.val / 4) + r.val) :
    (iblk1 V c 3 t : Vec Ideal S1024x1 .f32) (ix2 r (0 : Fin 1)) = (V c main_v0 : S8192x1.Idx → EReal) (ix2 i (0 : Fin 1)) := by
  obtain ⟨-, -, -, -, -, -, e0, e1, -⟩ := idx_facts t
  unfold iblk1
  rw [View.read_apply]
  show V c main_v0 _ = V c main_v0 _
  congr 1
  funext a
  apply Fin.ext
  match a with
  | ⟨0, _⟩ => show win1_3.index t 0 * 1024 + 1 * r.val = i.val; rw [e0, hi]; omega
  | ⟨1, _⟩ => show win1_3.index t 1 * 1 + 1 * 0 = 0; rw [e1]

/-! ## The accumulator along a row block's four points -/

/-- The products of row i of A with column k of y over the q-th group of 2048 contracted positions (zero past the
    fourth group). -/
def blkSum (A : S8192x8192.Idx → EReal) (y : S8192x256.Idx → EReal) (i : Fin 8192) (k : Fin 256) (q : ℕ) : EReal :=
  if h : q < 4 then ∑ l : Fin 2048, A (ix2 i (⟨2048 * q + l.val, by omega⟩ : Fin 8192)) * y (ix2 (⟨2048 * q + l.val, by omega⟩ : Fin 8192) k)
  else 0

/-- The product of the two blocks of point t, at (r, k), is the group t % 4 of row 1024 (t / 4) + r. -/
theorem block_prod (c : Dev nD) (t : Fin cfg1.N) (r : Fin 1024) (k : Fin 256) (i : Fin 8192)
    (hi : i.val = 1024 * (t.val / 4) + r.val) (x0 : Vec Ideal S1024x2048 .f32) (x1 : Vec Ideal S2048x256 .f32)
    (h0 : x0 = iblk1 V c 0 t) (h1 : x1 = iblk1 V c 1 t) :
    ∑ l : Fin 2048, x0 (ix2 r l) * x1 (ix2 l k) = blkSum (V c main_arg1) (V c main_v18) i k (t.val % 4) := by
  subst h0 h1
  unfold blkSum
  rw [dif_pos (Nat.mod_lt _ (by decide))]
  refine Finset.sum_congr rfl fun l _ => ?_
  rw [iblk0_apply V c t r l i ⟨2048 * (t.val % 4) + l.val, by omega⟩ hi rfl,
    iblk1_apply V c t l k ⟨2048 * (t.val % 4) + l.val, by omega⟩ rfl]

/-- After point n = 4 b + q the accumulator holds, at (r, k), the first q + 1 groups of row 1024 b + r. -/
theorem acc_apply (c : Dev nD) : ∀ (n : ℕ) (h : n < cfg1.N) (r : Fin 1024) (k : Fin 256) (i : Fin 8192),
    i.val = 1024 * (n / 4) + r.val →
    acc1 V c n h (ix2 r k) = ∑ q ∈ Finset.range (n % 4 + 1), blkSum (V c main_arg1) (V c main_v18) i k q := by
  intro n
  induction n with
  | zero =>
    intro h r k i hi
    refine (congrFun (acc1_reset V c ⟨0, h⟩ rfl) (ix2 r k)).trans ?_
    refine (pay2_apply _ _ _ r k).trans ?_
    rw [pay1_apply, zero_add, block_prod V c ⟨0, h⟩ r k i hi _ _ rfl rfl]
    simp
  | succ n ih =>
    intro h r k i hi
    by_cases h0 : (n + 1) % 4 = 0
    · refine (congrFun (acc1_reset V c ⟨n + 1, h⟩ h0) (ix2 r k)).trans ?_
      refine (pay2_apply _ _ _ r k).trans ?_
      rw [pay1_apply, zero_add, block_prod V c ⟨n + 1, h⟩ r k i hi _ _ rfl rfl]
      show blkSum _ _ i k ((n + 1) % 4) = _
      rw [h0]
      simp
    · refine (congrFun (acc1_step V c ⟨n + 1, h⟩ h0) (ix2 r k)).trans ?_
      refine (pay2_apply _ _ _ r k).trans ?_
      have hq : (n + 1) % 4 = n % 4 + 1 := by omega
      have hd : (n + 1) / 4 = n / 4 := by omega
      rw [block_prod V c ⟨n + 1, h⟩ r k i hi _ _ rfl rfl]
      show acc1 V c n _ (ix2 r k) + blkSum _ _ i k ((n + 1) % 4) = _
      rw [hq, Finset.sum_range_succ, ih (Nat.lt_of_succ_lt h) r k i (by rw [hi, hd])]

/-! ## The write-back and the whole array -/

/-- The four groups of 2048 contracted positions make up the sum over all 8192. -/
theorem sum_groups (A : S8192x8192.Idx → EReal) (y : S8192x256.Idx → EReal) (i : Fin 8192) (k : Fin 256) :
    ∑ q ∈ Finset.range 4, blkSum A y i k q = ∑ j : Fin 8192, A (ix2 i j) * y (ix2 j k) := by
  refine Eq.trans ?_ (Cert.LibSums.sum_blocks 4 2048 (fun j : Fin 8192 => A (ix2 i j) * y (ix2 j k))).symm
  rw [Finset.sum_range]
  refine Finset.sum_congr rfl fun q _ => ?_
  unfold blkSum
  rw [dif_pos q.isLt]

/-- What the result array ends holding: the aggregation step of the arrays the grid finds. -/
def G (c : Dev nD) : S8192x256.Idx → EReal := fun idx =>
  Cert.Spec.agg (V c main_arg1) (fun i' => V c main_v0 (ix2 i' (0 : Fin 1))) (V c main_v18) (idx 0) (idx 1)

/-- The output block at the last point of a row block, at (r, k): the aggregation step at row 1024 (t / 4) + r. -/
theorem outBlk_apply (c : Dev nD) (t : Fin cfg1.N) (h3 : t.val % 4 = 3) (r : Fin 1024) (k : Fin 256) (i : Fin 8192)
    (hi : i.val = 1024 * (t.val / 4) + r.val) :
    outBlk1 V c t (ix2 r k)
      = Cert.Spec.agg (V c main_arg1) (fun i' => V c main_v0 (ix2 i' (0 : Fin 1))) (V c main_v18) i k := by
  unfold outBlk1
  refine (pay3_apply _ _ _ r k).trans ?_
  rw [iblk3_apply V c t r i hi, iblk2_apply V c t r k i hi, acc_apply V c t.val t.isLt r k i hi, h3]
  unfold Cert.Spec.agg
  rw [sum_groups]

/-- What a writing point writes back is its block of G. -/
theorem flushed_eq (c : Dev nD) (t : Fin cfg1.N) (hf : (cfg1.win 4).flush t = true) :
    (dat1 V c).flushed 4 t = ((cfg1.win 4).blk t).view.read (Elt Ideal) (G V c) := by
  have h3 : t.val % 4 = 3 := (flush1_4 t).mp hf
  have ht : t.val < 32 := Nat.lt_of_lt_of_eq t.isLt (show cfg1.N = 32 from N_1)
  obtain ⟨-, -, -, -, -, -, -, -, e0, e1⟩ := idx_facts t
  show (cfg1.win 4).cut (grid1.coords t) ((dat1 V c).after 4 t) = _
  rw [after1_4]
  refine funext fun (j : S1024x256.Idx) => ?_
  obtain ⟨r, k, rfl⟩ : ∃ (r : Fin 1024) (k : Fin 256), j = ix2 r k := ⟨j 0, j 1, eq_ix2 j⟩
  rw [View.read_apply]
  show outBlk1 V c t (ix2 r k) = G V c (((cfg1.win 4).blk t).view.emb (ix2 r k))
  have he : (((cfg1.win 4).blk t).view.emb (ix2 r k) : S8192x256.Idx)
      = ix2 (⟨1024 * (t.val / 4) + r.val, by omega⟩ : Fin 8192) k := by
    funext a; apply Fin.ext
    match a with
    | ⟨0, _⟩ => show win1_4.index t 0 * 1024 + 1 * r.val = 1024 * (t.val / 4) + r.val; rw [e0]; omega
    | ⟨1, _⟩ => show win1_4.index t 1 * 256 + 1 * k.val = k.val; rw [e1]; omega
  rw [he]
  exact outBlk_apply V c t h3 r k _ rfl

/-- Every index of the result array is in the block of the last point of its row block. -/
theorem cover (idx : S8192x256.Idx) :
    ∃ t : Fin cfg1.N, (cfg1.win 4).flush t = true ∧ idx ∈ ((cfg1.win 4).blk t).view.set := by
  have h0 : (idx 0).val < 8192 := idx2_lt0 idx
  have h1 : (idx 1).val < 256 := idx2_lt1 idx
  obtain ⟨t, ht⟩ : ∃ t : Fin cfg1.N, t.val = 4 * ((idx 0).val / 1024) + 3 :=
    ⟨⟨4 * ((idx 0).val / 1024) + 3, by rw [show cfg1.N = 32 from N_1]; omega⟩, rfl⟩
  obtain ⟨-, -, -, -, -, -, -, -, e0, e1⟩ := idx_facts t
  refine ⟨t, (flush1_4 t).mpr (by rw [ht]; omega), ?_⟩
  show idx ∈ ((View.whole main_v19).slice (win1_4.rect t)).set
  rw [View.set_slice_whole, Rect.mem_set_unit]
  intro a
  match a with
  | ⟨0, _⟩ =>
    show win1_4.index t 0 * 1024 ≤ (idx 0).val ∧ (idx 0).val < win1_4.index t 0 * 1024 + 1024
    rw [e0, ht]; omega
  | ⟨1, _⟩ =>
    show win1_4.index t 1 * 256 ≤ (idx 1).val ∧ (idx 1).val < win1_4.index t 1 * 256 + 256
    rw [e1]; omega

/-- The result array after the grid. -/
theorem final (c : Dev nD) : (dat1 V c).arrAt 4 cfg1.N = G V c :=
  (dat1 V c).arrAt_eq_of_cover 4 (G V c) (fun t hf => flushed_eq V c t hf) cover

/-- Entry (i, k) of the result array after the grid: the aggregation step of the adjacency array, the column of row scales
    and the scaled features as the grid finds them. -/
theorem out_final (c : Dev nD) (i : Fin 8192) (k : Fin 256) :
    (dat1 (F := Ideal) V c).arrAt 4 cfg1.N (ix2 i k)
      = Cert.Spec.agg (V c main_arg1) (fun i' => V c main_v0 (ix2 i' (0 : Fin 1))) (V c main_v18) i k :=
  congrFun (final V c) (ix2 i k)

end Cert.KernelIdeal.Val

end
-- ==== Proof.KernelValue.lean ====
/-
  The kernel program's value over the extended reals, from the values of its two regions.
  Between the regions the program runs three stretches of host operations: they form, from the node
  features, the weights and the bias, the normalised features x̂ (the chain of the module PairNorm) and scale
  row i of x̂ by the entry d_i that region 0 left. Region 1 then forms, from the adjacency array A, from d and from
  those scaled rows y, the aggregation  d_i · ((∑_j A_ij · y_jk) + y_ik).  Read with d the inverse square roots
  of the degrees, that is the layer  D (A + I) D x̂  entry by entry.
  First the contents of the three arrays region 1 reads when it is entered; then the value of the result
  array, first with the two regions' values taken as hypotheses, then with them proved.
-/
import proofs.«165052_j56281251446800_1_alg».proof.Proof.Assemble
import proofs.«165052_j56281251446800_1_alg».proof.Proof.PairNorm
import proofs.«165052_j56281251446800_1_alg».proof.Proof.Spec
import proofs.«165052_j56281251446800_1_alg».proof.Proof.R0Value
import proofs.«165052_j56281251446800_1_alg».proof.Proof.R1Value
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

/-! ## The three stretches of host operations between the regions, each read over ANY contents at its entry -/

section Stretches
variable {F : FTy → Type} [FloatOps F]

/-- The first stretch leaves the linear layer x = node_feats · Wᵀ + b of the three arguments it reads. -/
theorem stretch1_v5 (W : Valuation τ sig (Elt F)) :
    StableHlo.after hostOps1 W (Proc.devRef .tc main_v5)
      = PN.lin (F := F) (W (Proc.devRef .tc main_arg0)) (W (Proc.devRef .tc main_arg2)) (W (Proc.devRef .tc main_arg3)) := by
  after_results; rfl

/-- The first stretch leaves the column means of x. -/
theorem stretch1_v9 (W : Valuation τ sig (Elt F)) :
    StableHlo.after hostOps1 W (Proc.devRef .tc main_v9)
      = PN.mean (PN.lin (F := F) (W (Proc.devRef .tc main_arg0)) (W (Proc.devRef .tc main_arg2)) (W (Proc.devRef .tc main_arg3))) := by
  after_results; rfl

/-- The first stretch leaves the integer word 1 (the delta degrees of freedom of the standard deviation). -/
theorem stretch1_c (W : Valuation τ sig (Elt F)) :
    StableHlo.after hostOps1 W (Proc.devRef .tc main_c) = constantI S_ 32 1#32 := by
  after_results

/-- The divisor of the variance with the integer word given: 8192 less that word as a float. -/
def nm1Of (w : IVec S_ 32) : FVec F S_ .f32 :=
  subf (constant S_ .f32 0x46000000#32) (sitofp .f32 w)

/-- The column variances of x with the integer word given. -/
def varOf (x : FVec F S8192x256 .f32) (w : IVec S_ 32) : FVec F S1x256 .f32 :=
  select (broadcastInDim S1x256 ![] bcast_S_S1x256 (cmpf .ogt (nm1Of (F := F) w) (constant S_ .f32 0x00000000#32)))
    (Host.divf
      (broadcastInDim S1x256 ![1] bcast_S256_S1x256_1
        (Host.reduceAdd (mulf (PN.dev x) (PN.dev x)) (constant S_ .f32 0x00000000#32) reducesTo_S8192x256_S256_d0 h_S_))
      (broadcastInDim S1x256 ![] bcast_S_S1x256 (nm1Of w)))
    (broadcastInDim S1x256 ![] bcast_S_S1x256 (id (constant S_ .f32 0x7FC00000#32)))

/-- At the word 1 these are the unbiased column variances. -/
theorem varOf_one (x : FVec F S8192x256 .f32) : varOf x (constantI S_ 32 1#32) = PN.var x := rfl

/-- The second stretch (the outlined standard deviation) leaves the square roots of the column variances of
    the array it finds as x, with the integer word it finds. -/
theorem stretch2_v10 (W : Valuation τ sig (Elt F)) :
    StableHlo.after hostOps1_1 W (Proc.devRef .tc main_v10)
      = Host.sqrt (varOf (F := F) (W (Proc.devRef .tc main_v5)) (W (Proc.devRef .tc main_c))) := by
  after_results; rfl

/-- The third stretch leaves, from x, its column means, its column standard deviations and region 0's
    result d: the deviations of x over (standard deviation + 10⁻⁶), each row scaled by its entry of d. -/
theorem stretch3_v18 (W : Valuation τ sig (Elt F)) :
    StableHlo.after hostOps1_2 W (Proc.devRef .tc main_v18)
      = mulf (broadcastInDim S8192x256 ![0, 1] bcast_S8192x1_S8192x256_0_1 (W (Proc.devRef .tc main_v0)))
          (Host.divf
            (subf (W (Proc.devRef .tc main_v5))
              (broadcastInDim S8192x256 ![0, 1] bcast_S1x256_S8192x256_0_1 (W (Proc.devRef .tc main_v9))))
            (broadcastInDim S8192x256 ![0, 1] bcast_S1x256_S8192x256_0_1
              (addf (W (Proc.devRef .tc main_v10))
                (broadcastInDim S1x256 ![] bcast_S_S1x256 (constant S_ .f32 0x358637BD#32))))) := by
  after_results <;> rfl

end Stretches

/-! ## The contents when region 1 is entered -/

section Entry
variable {F : FTy → Type} [FloatOps F]
variable (m : (ℓ : Loc nD τ sig) → Buf (Elt F) ℓ)

/-- No stretch writes the adjacency array and region 0 only reads it: region 1 finds it as launched. -/
theorem Vr4_arg1 (c : Dev nD) : Vr4 m c main_arg1 = m ((c : Thread nD τ).loc main_arg1) :=
  (V4_of m (outsA m) c main_arg1 (by decide)).trans <| (V3_of m (outsA m) c main_arg1 (by decide)).trans <|
    (V2_of m (outsA m) c main_arg1 (by decide)).trans <| (V1_of m (outsA m) c main_arg1 (by decide)).trans rfl

/-- After region 0 its result array holds what region 0 left. -/
theorem V1_v0 (c : Dev nD) : V1 m (outsA m) c (Proc.devRef .tc main_v0) = dinvArr m c := by
  show Function.update (V0 m c) main_v0 (outsA m 1 main_v0 c) main_v0 = dinvArr m c
  rw [Function.update_self, outsA_v0]

/-- No stretch writes region 0's result array: region 1 finds in it what region 0 left. -/
theorem Vr4_v0 (c : Dev nD) : Vr4 m c main_v0 = dinvArr m c :=
  (V4_of m (outsA m) c main_v0 (by decide)).trans <| (V3_of m (outsA m) c main_v0 (by decide)).trans <|
    (V2_of m (outsA m) c main_v0 (by decide)).trans (V1_v0 m c)

/-- The array of scaled rows region 1 finds: the normalised features of the three arguments as launched, row i
    scaled by the entry of region 0's result for row i. -/
theorem Vr4_v18 (c : Dev nD) :
    Vr4 m c main_v18
      = mulf (broadcastInDim S8192x256 ![0, 1] bcast_S8192x1_S8192x256_0_1 (dinvArr m c))
          (PN.pn (F := F) (m ((c : Thread nD τ).loc main_arg0)) (m ((c : Thread nD τ).loc main_arg2))
            (m ((c : Thread nD τ).loc main_arg3))) := by
  -- the arguments, after region 0, are as launched
  have a0 : V1 m (outsA m) c (Proc.devRef .tc main_arg0) = m ((c : Thread nD τ).loc main_arg0) :=
    (V1_of m (outsA m) c main_arg0 (by decide)).trans rfl
  have a2 : V1 m (outsA m) c (Proc.devRef .tc main_arg2) = m ((c : Thread nD τ).loc main_arg2) :=
    (V1_of m (outsA m) c main_arg2 (by decide)).trans rfl
  have a3 : V1 m (outsA m) c (Proc.devRef .tc main_arg3) = m ((c : Thread nD τ).loc main_arg3) :=
    (V1_of m (outsA m) c main_arg3 (by decide)).trans rfl
  -- after the first stretch: x, its column means, the integer word, and region 0's result
  have x2 : V2 m (outsA m) c (Proc.devRef .tc main_v5)
      = PN.lin (F := F) (m ((c : Thread nD τ).loc main_arg0)) (m ((c : Thread nD τ).loc main_arg2))
          (m ((c : Thread nD τ).loc main_arg3)) :=
    (stretch1_v5 (V1 m (outsA m) c)).trans (by rw [a0, a2, a3])
  have m2 : V2 m (outsA m) c (Proc.devRef .tc main_v9)
      = PN.mean (PN.lin (F := F) (m ((c : Thread nD τ).loc main_arg0)) (m ((c : Thread nD τ).loc main_arg2))
          (m ((c : Thread nD τ).loc main_arg3))) :=
    (stretch1_v9 (V1 m (outsA m) c)).trans (by rw [a0, a2, a3])
  have c2 : V2 m (outsA m) c (Proc.devRef .tc main_c) = constantI S_ 32 1#32 := stretch1_c (V1 m (outsA m) c)
  have d2 : V2 m (outsA m) c (Proc.devRef .tc main_v0) = dinvArr m c :=
    (V2_of m (outsA m) c main_v0 (by decide)).trans (V1_v0 m c)
  -- after the second stretch: the column standard deviations; the rest as it was
  have s3 : V3 m (outsA m) c (Proc.devRef .tc main_v10)
      = Host.sqrt (PN.var (PN.lin (F := F) (m ((c : Thread nD τ).loc main_arg0)) (m ((c : Thread nD τ).loc main_arg2))
          (m ((c : Thread nD τ).loc main_arg3)))) :=
    (stretch2_v10 (V2 m (outsA m) c)).trans (by rw [x2, c2, varOf_one])
  have x3 : V3 m (outsA m) c (Proc.devRef .tc main_v5) = _ := (V3_of m (outsA m) c main_v5 (by decide)).trans x2
  have m3 : V3 m (outsA m) c (Proc.devRef .tc main_v9) = _ := (V3_of m (outsA m) c main_v9 (by decide)).trans m2
  have d3 : V3 m (outsA m) c (Proc.devRef .tc main_v0) = _ := (V3_of m (outsA m) c main_v0 (by decide)).trans d2
  -- the third stretch
  refine (stretch3_v18 (V3 m (outsA m) c)).trans ?_
  rw [d3, x3, m3, s3]
  rfl

end Entry

/-! ## The value of the result array -/

section Value

/-- A column copied across the 256 columns, read at (p, q): the column's entry for row p. -/
theorem bcast_col_apply {α : Type} (x : S8192x1.Idx → α) (p : Fin 8192) (q : Fin 256) :
    broadcastInDim S8192x256 ![0, 1] bcast_S8192x1_S8192x256_0_1 x (ix2 p q) = x (ix2 p (0 : Fin 1)) :=
  broadcastInDim_apply _ _ x (ix2 p q) (ix2 p (0 : Fin 1)) fun a => match a with | ⟨0, _⟩ => rfl | ⟨1, _⟩ => rfl

/-- The kernel program's value from the two regions' values. If region 0 leaves in its result array, whatever contents it is entered from,
    the inverse square roots of the degrees of the adjacency array it finds, and region 1 leaves, whatever
    contents it is entered from, the aggregation of the three arrays it finds, then the program's result array
    holds the layer of the launched adjacency array and the normalised features of the three other launched
    arguments. -/
theorem kernel_value_of (m : (ℓ : Loc nD τ sig) → Buf (Elt Ideal) ℓ) (c : Dev nD)
    (hd : ∀ (V : (c : Dev nD) → (b : Ref sig .tc) → Buf (Elt Ideal) ((c : Thread nD τ).loc b)) (c : Dev nD) (i : Fin 8192),
      (dat0 (F := Ideal) V c).arrAt 1 cfg0.N (ix2 i (0 : Fin 1)) = Cert.Spec.dinv (V c main_arg1) i)
    (ho : ∀ (V : (c : Dev nD) → (b : Ref sig .tc) → Buf (Elt Ideal) ((c : Thread nD τ).loc b)) (c : Dev nD)
        (i : Fin 8192) (k : Fin 256),
      (dat1 (F := Ideal) V c).arrAt 4 cfg1.N (ix2 i k)
        = Cert.Spec.agg (V c main_arg1) (fun i' => V c main_v0 (ix2 i' (0 : Fin 1))) (V c main_v18) i k)
    (i : Fin 8192) (k : Fin 256) :
    outArr (F := Ideal) m c (ix2 i k)
      = Cert.Spec.layer (m ((c : Thread nD τ).loc main_arg1))
          (PN.pn (F := Ideal) (m ((c : Thread nD τ).loc main_arg0)) (m ((c : Thread nD τ).loc main_arg2))
            (m ((c : Thread nD τ).loc main_arg3))) i k := by
  -- region 0's result, read at a row, is that row's inverse square root of the degree
  have hdinv : ∀ p : Fin 8192, dinvArr m c (ix2 p (0 : Fin 1)) = Cert.Spec.dinv (m ((c : Thread nD τ).loc main_arg1)) p := by
    intro p
    unfold dinvArr
    exact hd (Vr0 m) c p
  unfold outArr
  rw [ho (Vr4 m) c i k, Vr4_arg1 m c, Vr4_v18 m c]
  have hcol : (fun i' : Fin 8192 => Vr4 m c main_v0 (ix2 i' (0 : Fin 1)))
      = Cert.Spec.dinv (m ((c : Thread nD τ).loc main_arg1)) := by
    funext p
    rw [Vr4_v0 m c]
    exact hdinv p
  rw [hcol]
  unfold Cert.Spec.layer
  refine congrArg (fun y => Cert.Spec.agg _ _ y i k) ?_
  funext idx
  obtain ⟨p, q, rfl⟩ : ∃ (p : Fin 8192) (q : Fin 256), idx = ix2 p q := ⟨idx 0, idx 1, eq_ix2 idx⟩
  rw [mulf_apply, bcast_col_apply, hdinv p]
  rfl

/-- THE KERNEL PROGRAM'S VALUE: entry (i, k) of the result array is entry (i, k) of the layer D (A + I) D x̂ of
    the launched adjacency array A and the normalised features x̂ of the three other launched arguments. -/
theorem kernel_value (m : (ℓ : Loc nD τ sig) → Buf (Elt Ideal) ℓ) (c : Dev nD) (i : Fin 8192) (k : Fin 256) :
    outArr (F := Ideal) m c (ix2 i k)
      = Cert.Spec.layer (m ((c : Thread nD τ).loc main_arg1))
          (PN.pn (F := Ideal) (m ((c : Thread nD τ).loc main_arg0)) (m ((c : Thread nD τ).loc main_arg2))
            (m ((c : Thread nD τ).loc main_arg3))) i k :=
  kernel_value_of m c dinv_final out_final i k

end Value

end Cert.KernelIdeal.Val
-- ==== Proof.RefRun.lean ====
/- The reference program's @main as ONE straight line of its seventy host operations — the operations of the three
   functions it calls (the select of `where`; the unbiased variance, with its own `where`, under the square root of
   `std`) standing at their call sites over the calls' own buffers — and its run read back: every weakly fair execution
   terminates with the result buffer at the operations' composed pure term of the four argument arrays, and the
   arguments unchanged. The composed term is built from named stages: the adjacency with self-loops, its row sums
   (the degrees), the inverse square roots of the positive degrees, the symmetrically normalised adjacency, the
   column-normalised linear features, and their product. -/
import proofs.«165052_j56281251446800_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The identity matrix: one where the row index equals the column index, zero elsewhere, read as a float. -/
def eyeR : (⟨S8192x8192, .f32⟩ : BufTy).Contents (Elt F) :=
  uitofp .f32 (cmpi .eq (addi (iotaInDim S8192x8192 32 0) (broadcastInDim S8192x8192 ![] bcast_S_S8192x8192 (constantI S_ 32 0#32))) (iotaInDim S8192x8192 32 1))

/-- The adjacency with self-loops: `A + I`. -/
def adjR (a1 : (⟨S8192x8192, .f32⟩ : BufTy).Contents (Elt F)) : (⟨S8192x8192, .f32⟩ : BufTy).Contents (Elt F) :=
  addf a1 eyeR

/-- The degrees: the row sums of `A + I`, from the initial value zero. -/
def degR (a1 : (⟨S8192x8192, .f32⟩ : BufTy).Contents (Elt F)) : (⟨S8192, .f32⟩ : BufTy).Contents (Elt F) :=
  Host.reduceAdd (adjR a1) (constant S_ .f32 0x00000000#32) reducesTo_S8192x8192_S8192_d1 h_S_

/-- The inverse square root of each positive degree, zero at the others: `where (deg > 0) (deg ^ (-1/2)) 0`. -/
def dinvR (a1 : (⟨S8192x8192, .f32⟩ : BufTy).Contents (Elt F)) : (⟨S8192, .f32⟩ : BufTy).Contents (Elt F) :=
  select (cmpf (F := F) .ogt (degR a1) (broadcastInDim S8192 ![] bcast_S_S8192 (constant S_ .f32 0x00000000#32))) (Host.powf (degR a1) (broadcastInDim S8192 ![] bcast_S_S8192 (constant S_ .f32 0xBF000000#32))) (broadcastInDim S8192 ![] bcast_S_S8192 (id (constant S_ .f32 0x00000000#32)))

/-- The symmetrically normalised adjacency: `(dinv as a column * (A + I)) * dinv as a row`, in that association. -/
def adjNormR (a1 : (⟨S8192x8192, .f32⟩ : BufTy).Contents (Elt F)) : (⟨S8192x8192, .f32⟩ : BufTy).Contents (Elt F) :=
  mulf (mulf (broadcastInDim S8192x8192 ![0, 1] bcast_S8192x1_S8192x8192_0_1 (broadcastInDim S8192x1 ![0] bcast_S8192_S8192x1_0 (dinvR a1))) (adjR a1)) (broadcastInDim S8192x8192 ![0, 1] bcast_S1x8192_S8192x8192_0_1 (broadcastInDim S1x8192 ![1] bcast_S8192_S1x8192_1 (dinvR a1)))

/-- The linear features: `X · Wᵀ + b`, the bias along the rows. -/
def linR (a0 : (⟨S8192x256, .f32⟩ : BufTy).Contents (Elt F)) (a2 : (⟨S256x256, .f32⟩ : BufTy).Contents (Elt F)) (a3 : (⟨S256, .f32⟩ : BufTy).Contents (Elt F)) : (⟨S8192x256, .f32⟩ : BufTy).Contents (Elt F) :=
  addf (Host.dotGeneral dot_S8192x256_S256x256_S8192x256_1_0_0_1_n_n none a0 (transpose S256x256 [1, 0] a2 transposes_S256x256_S256x256_1_0)) (broadcastInDim S8192x256 ![0, 1] bcast_S1x256_S8192x256_0_1 (broadcastInDim S1x256 ![1] bcast_S256_S1x256_1 a3))

/-- A feature array normalised column by column: `(x - mean) / (std + ε)`, the mean the column sum over the row count,
    the standard deviation the square root of the unbiased variance (the sum of squared deviations over the row count
    less one, selected where that count is positive), `ε` the literal the program adds. -/
def normR (x : (⟨S8192x256, .f32⟩ : BufTy).Contents (Elt F)) : (⟨S8192x256, .f32⟩ : BufTy).Contents (Elt F) :=
  Host.divf (subf x (broadcastInDim S8192x256 ![0, 1] bcast_S1x256_S8192x256_0_1 (Host.divf (broadcastInDim S1x256 ![1] bcast_S256_S1x256_1 (Host.reduceAdd x (constant S_ .f32 0x00000000#32) reducesTo_S8192x256_S256_d0 h_S_)) (broadcastInDim S1x256 ![] bcast_S_S1x256 (constant S_ .f32 0x46000000#32))))) (broadcastInDim S8192x256 ![0, 1] bcast_S1x256_S8192x256_0_1 (addf (Host.sqrt (select (broadcastInDim S1x256 ![] bcast_S_S1x256 (cmpf (F := F) .ogt (subf (constant S_ .f32 0x46000000#32) (sitofp .f32 (constantI S_ 32 1#32))) (constant S_ .f32 0x00000000#32))) (Host.divf (broadcastInDim S1x256 ![1] bcast_S256_S1x256_1 (Host.reduceAdd (mulf (subf x (broadcastInDim S8192x256 ![0, 1] bcast_S1x256_S8192x256_0_1 (Host.divf (broadcastInDim S1x256 ![1] bcast_S256_S1x256_1 (Host.reduceAdd x (constant S_ .f32 0x00000000#32) reducesTo_S8192x256_S256_d0 h_S_)) (broadcastInDim S1x256 ![] bcast_S_S1x256 (constant S_ .f32 0x46000000#32))))) (subf x (broadcastInDim S8192x256 ![0, 1] bcast_S1x256_S8192x256_0_1 (Host.divf (broadcastInDim S1x256 ![1] bcast_S256_S1x256_1 (Host.reduceAdd x (constant S_ .f32 0x00000000#32) reducesTo_S8192x256_S256_d0 h_S_)) (broadcastInDim S1x256 ![] bcast_S_S1x256 (constant S_ .f32 0x46000000#32)))))) (constant S_ .f32 0x00000000#32) reducesTo_S8192x256_S256_d0 h_S_)) (broadcastInDim S1x256 ![] bcast_S_S1x256 (subf (constant S_ .f32 0x46000000#32) (sitofp .f32 (constantI S_ 32 1#32))))) (broadcastInDim S1x256 ![] bcast_S_S1x256 (id (constant S_ .f32 0x7FC00000#32))))) (broadcastInDim S1x256 ![] bcast_S_S1x256 (constant S_ .f32 0x358637BD#32))))

/-- The normalised features of the three arrays: everything from the transpose of the weights to the division by
    `std + ε`. -/
def pnR (a0 : (⟨S8192x256, .f32⟩ : BufTy).Contents (Elt F)) (a2 : (⟨S256x256, .f32⟩ : BufTy).Contents (Elt F)) (a3 : (⟨S256, .f32⟩ : BufTy).Contents (Elt F)) : (⟨S8192x256, .f32⟩ : BufTy).Contents (Elt F) :=
  normR (linR a0 a2 a3)

/-- The result: the normalised adjacency times the normalised features. -/
def resR (a0 : (⟨S8192x256, .f32⟩ : BufTy).Contents (Elt F)) (a1 : (⟨S8192x8192, .f32⟩ : BufTy).Contents (Elt F)) (a2 : (⟨S256x256, .f32⟩ : BufTy).Contents (Elt F)) (a3 : (⟨S256, .f32⟩ : BufTy).Contents (Elt F)) : (⟨S8192x256, .f32⟩ : BufTy).Contents (Elt F) :=
  Host.dotGeneral dot_S8192x8192_S8192x256_S8192x256_1_0_0_1_n_n none (adjNormR a1) (pnR a0 a2 a3)

/-- The result on device `c` from the launch memory `m`: `resR` of the four argument arrays. -/
def res (m : (ℓ : Loc nD τ sig) → Buf (Elt F) ℓ) (c : Dev nD) : Buf (Elt F) ((c.tc : Thread nD τ).loc main_v35) :=
  resR (m ((c.tc : Thread nD τ).loc main_arg0)) (m ((c.tc : Thread nD τ).loc main_arg1)) (m ((c.tc : Thread nD τ).loc main_arg2)) (m ((c.tc : Thread nD τ).loc main_arg3))

/-! ## The operations -/

/-- @main's seventy operations, in order, each called function's operations in its call's place. -/
abbrev ops : List (HloOp τ sig (Elt F)) :=
  [
    nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    binary main_v7 main_v8 main_v9 (cmpf .ogt : (⟨S8192, .f32⟩ : BufTy).Contents (Elt F) → (⟨S8192, .f32⟩ : BufTy).Contents (Elt F) → (⟨S8192, .i1⟩ : BufTy).Contents (Elt F)),
    nullary main_cst_1 (constant S_ .f32 0xBF000000#32),
    unary main_cst_1 main_v10 (broadcastInDim S8192 ![] bcast_S_S8192 : (⟨S_, .f32⟩ : BufTy).Contents (Elt F) → (⟨S8192, .f32⟩ : BufTy).Contents (Elt F)),
    binary main_v7 main_v10 main_v11 (Host.powf : (⟨S8192, .f32⟩ : BufTy).Contents (Elt F) → (⟨S8192, .f32⟩ : BufTy).Contents (Elt F) → (⟨S8192, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S8192 ![] bcast_S_S8192 : (⟨S_, .f32⟩ : BufTy).Contents (Elt F) → (⟨S8192, .f32⟩ : BufTy).Contents (Elt F)),
    ternary main_v9 main_v11 main_call0_v1 main_v12 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    binary main_v14 main_v6 main_v15 (mulf : (⟨S8192x8192, .f32⟩ : BufTy).Contents (Elt F) → (⟨S8192x8192, .f32⟩ : BufTy).Contents (Elt F) → (⟨S8192x8192, .f32⟩ : BufTy).Contents (Elt F)),
    unary main_v12 main_v16 (broadcastInDim S1x8192 ![1] bcast_S8192_S1x8192_1 : (⟨S8192, .f32⟩ : BufTy).Contents (Elt F) → (⟨S1x8192, .f32⟩ : BufTy).Contents (Elt F)),
    unary main_v16 main_v17 (broadcastInDim S8192x8192 ![0, 1] bcast_S1x8192_S8192x8192_0_1 : (⟨S1x8192, .f32⟩ : BufTy).Contents (Elt F) → (⟨S8192x8192, .f32⟩ : BufTy).Contents (Elt F)),
    binary main_v15 main_v17 main_v18 (mulf : (⟨S8192x8192, .f32⟩ : BufTy).Contents (Elt F) → (⟨S8192x8192, .f32⟩ : BufTy).Contents (Elt F) → (⟨S8192x8192, .f32⟩ : BufTy).Contents (Elt F)),
    unary main_arg2 main_v19 ((transpose S256x256 [1, 0] · transposes_S256x256_S256x256_1_0) : (⟨S256x256, .f32⟩ : BufTy).Contents (Elt F) → (⟨S256x256, .f32⟩ : BufTy).Contents (Elt F)),
    binary main_arg0 main_v19 main_v20 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg3 main_v21 (broadcastInDim S1x256 ![1] bcast_S256_S1x256_1 : (⟨S256, .f32⟩ : BufTy).Contents (Elt F) → (⟨S1x256, .f32⟩ : BufTy).Contents (Elt F)),
    unary main_v21 main_v22 (broadcastInDim S8192x256 ![0, 1] bcast_S1x256_S8192x256_0_1 : (⟨S1x256, .f32⟩ : BufTy).Contents (Elt F) → (⟨S8192x256, .f32⟩ : BufTy).Contents (Elt F)),
    binary main_v20 main_v22 main_v23 (addf : (⟨S8192x256, .f32⟩ : BufTy).Contents (Elt F) → (⟨S8192x256, .f32⟩ : BufTy).Contents (Elt F) → (⟨S8192x256, .f32⟩ : BufTy).Contents (Elt F)),
    nullary main_cst_3 (constant S_ .f32 0x00000000#32),
    binary main_v23 main_cst_3 main_v24 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    unary main_v24 main_v25 (broadcastInDim S1x256 ![1] bcast_S256_S1x256_1 : (⟨S256, .f32⟩ : BufTy).Contents (Elt F) → (⟨S1x256, .f32⟩ : BufTy).Contents (Elt F)),
    nullary main_cst_4 (constant S_ .f32 0x46000000#32),
    unary main_cst_4 main_v26 (broadcastInDim S1x256 ![] bcast_S_S1x256 : (⟨S_, .f32⟩ : BufTy).Contents (Elt F) → (⟨S1x256, .f32⟩ : BufTy).Contents (Elt F)),
    binary main_v25 main_v26 main_v27 (Host.divf : (⟨S1x256, .f32⟩ : BufTy).Contents (Elt F) → (⟨S1x256, .f32⟩ : BufTy).Contents (Elt F) → (⟨S1x256, .f32⟩ : BufTy).Contents (Elt F)),
    nullary main_c_5 (constantI S_ 32 1#32),
    nullary main_call1_call0_cst (constant S_ .f32 0x00000000#32 : (⟨S_, .f32⟩ : BufTy).Contents (Elt F)),
    binary main_v23 main_call1_call0_cst main_call1_call0_v0 (fun x v => Host.reduceAdd x v reducesTo_S8192x256_S256_d0 h_S_ : (⟨S8192x256, .f32⟩ : BufTy).Contents (Elt F) → (⟨S_, .f32⟩ : BufTy).Contents (Elt F) → (⟨S256, .f32⟩ : BufTy).Contents (Elt F)),
    unary main_call1_call0_v0 main_call1_call0_v1 (broadcastInDim S1x256 ![1] bcast_S256_S1x256_1 : (⟨S256, .f32⟩ : BufTy).Contents (Elt F) → (⟨S1x256, .f32⟩ : BufTy).Contents (Elt F)),
    nullary main_call1_call0_cst_0 (constant S_ .f32 0x46000000#32 : (⟨S_, .f32⟩ : BufTy).Contents (Elt F)),
    unary main_call1_call0_cst_0 main_call1_call0_v2 (broadcastInDim S1x256 ![] bcast_S_S1x256 : (⟨S_, .f32⟩ : BufTy).Contents (Elt F) → (⟨S1x256, .f32⟩ : BufTy).Contents (Elt F)),
    binary main_call1_call0_v1 main_call1_call0_v2 main_call1_call0_v3 (Host.divf : (⟨S1x256, .f32⟩ : BufTy).Contents (Elt F) → (⟨S1x256, .f32⟩ : BufTy).Contents (Elt F) → (⟨S1x256, .f32⟩ : BufTy).Contents (Elt F)),
    unary main_call1_call0_v3 main_call1_call0_v4 (broadcastInDim S8192x256 ![0, 1] bcast_S1x256_S8192x256_0_1 : (⟨S1x256, .f32⟩ : BufTy).Contents (Elt F) → (⟨S8192x256, .f32⟩ : BufTy).Contents (Elt F)),
    binary main_v23 main_call1_call0_v4 main_call1_call0_v5 (subf : (⟨S8192x256, .f32⟩ : BufTy).Contents (Elt F) → (⟨S8192x256, .f32⟩ : BufTy).Contents (Elt F) → (⟨S8192x256, .f32⟩ : BufTy).Contents (Elt F)),
    binary main_call1_call0_v5 main_call1_call0_v5 main_call1_call0_v6 (mulf : (⟨S8192x256, .f32⟩ : BufTy).Contents (Elt F) → (⟨S8192x256, .f32⟩ : BufTy).Contents (Elt F) → (⟨S8192x256, .f32⟩ : BufTy).Contents (Elt F)),
    unary main_c_5 main_call1_call0_v7 (sitofp .f32 : (⟨S_, .i32⟩ : BufTy).Contents (Elt F) → (⟨S_, .f32⟩ : BufTy).Contents (Elt F)),
    nullary main_call1_call0_cst_1 (constant S_ .f32 0x46000000#32 : (⟨S_, .f32⟩ : BufTy).Contents (Elt F)),
    binary main_call1_call0_cst_1 main_call1_call0_v7 main_call1_call0_v8 (subf : (⟨S_, .f32⟩ : BufTy).Contents (Elt F) → (⟨S_, .f32⟩ : BufTy).Contents (Elt F) → (⟨S_, .f32⟩ : BufTy).Contents (Elt F)),
    nullary main_call1_call0_cst_2 (constant S_ .f32 0x00000000#32 : (⟨S_, .f32⟩ : BufTy).Contents (Elt F)),
    binary main_call1_call0_v6 main_call1_call0_cst_2 main_call1_call0_v9 (fun x v => Host.reduceAdd x v reducesTo_S8192x256_S256_d0 h_S_ : (⟨S8192x256, .f32⟩ : BufTy).Contents (Elt F) → (⟨S_, .f32⟩ : BufTy).Contents (Elt F) → (⟨S256, .f32⟩ : BufTy).Contents (Elt F)),
    unary main_call1_call0_v9 main_call1_call0_v10 (broadcastInDim S1x256 ![1] bcast_S256_S1x256_1 : (⟨S256, .f32⟩ : BufTy).Contents (Elt F) → (⟨S1x256, .f32⟩ : BufTy).Contents (Elt F)),
    unary main_call1_call0_v8 main_call1_call0_v11 (broadcastInDim S1x256 ![] bcast_S_S1x256 : (⟨S_, .f32⟩ : BufTy).Contents (Elt F) → (⟨S1x256, .f32⟩ : BufTy).Contents (Elt F)),
    binary main_call1_call0_v10 main_call1_call0_v11 main_call1_call0_v12 (Host.divf : (⟨S1x256, .f32⟩ : BufTy).Contents (Elt F) → (⟨S1x256, .f32⟩ : BufTy).Contents (Elt F) → (⟨S1x256, .f32⟩ : BufTy).Contents (Elt F)),
    nullary main_call1_call0_cst_3 (constant S_ .f32 0x00000000#32 : (⟨S_, .f32⟩ : BufTy).Contents (Elt F)),
    binary main_call1_call0_v8 main_call1_call0_cst_3 main_call1_call0_v13 (cmpf .ogt : (⟨S_, .f32⟩ : BufTy).Contents (Elt F) → (⟨S_, .f32⟩ : BufTy).Contents (Elt F) → (⟨S_, .i1⟩ : BufTy).Contents (Elt F)),
    nullary main_call1_call0_cst_4 (constant S_ .f32 0x7FC00000#32 : (⟨S_, .f32⟩ : BufTy).Contents (Elt F)),
    unary main_call1_call0_cst_4 main_call1_call0_call0_v0 (id : (⟨S_, .f32⟩ : BufTy).Contents (Elt F) → (⟨S_, .f32⟩ : BufTy).Contents (Elt F)),
    unary main_call1_call0_call0_v0 main_call1_call0_call0_v1 (broadcastInDim S1x256 ![] bcast_S_S1x256 : (⟨S_, .f32⟩ : BufTy).Contents (Elt F) → (⟨S1x256, .f32⟩ : BufTy).Contents (Elt F)),
    ternary main_call1_call0_v13 main_call1_call0_v12 main_call1_call0_call0_v1 main_call1_v0 (fun p a b => select (broadcastInDim S1x256 ![] bcast_S_S1x256 p) a b : (⟨S_, .i1⟩ : BufTy).Contents (Elt F) → (⟨S1x256, .f32⟩ : BufTy).Contents (Elt F) → (⟨S1x256, .f32⟩ : BufTy).Contents (Elt F) → (⟨S1x256, .f32⟩ : BufTy).Contents (Elt F)),
    unary main_call1_v0 main_v28 (Host.sqrt : (⟨S1x256, .f32⟩ : BufTy).Contents (Elt F) → (⟨S1x256, .f32⟩ : BufTy).Contents (Elt F)),
    unary main_v27 main_v29 (broadcastInDim S8192x256 ![0, 1] bcast_S1x256_S8192x256_0_1 : (⟨S1x256, .f32⟩ : BufTy).Contents (Elt F) → (⟨S8192x256, .f32⟩ : BufTy).Contents (Elt F)),
    binary main_v23 main_v29 main_v30 (subf : (⟨S8192x256, .f32⟩ : BufTy).Contents (Elt F) → (⟨S8192x256, .f32⟩ : BufTy).Contents (Elt F) → (⟨S8192x256, .f32⟩ : BufTy).Contents (Elt F)),
    nullary main_cst_6 (constant S_ .f32 0x358637BD#32),
    unary main_cst_6 main_v31 (broadcastInDim S1x256 ![] bcast_S_S1x256 : (⟨S_, .f32⟩ : BufTy).Contents (Elt F) → (⟨S1x256, .f32⟩ : BufTy).Contents (Elt F)),
    binary main_v28 main_v31 main_v32 (addf : (⟨S1x256, .f32⟩ : BufTy).Contents (Elt F) → (⟨S1x256, .f32⟩ : BufTy).Contents (Elt F) → (⟨S1x256, .f32⟩ : BufTy).Contents (Elt F)),
    unary main_v32 main_v33 (broadcastInDim S8192x256 ![0, 1] bcast_S1x256_S8192x256_0_1 : (⟨S1x256, .f32⟩ : BufTy).Contents (Elt F) → (⟨S8192x256, .f32⟩ : BufTy).Contents (Elt F)),
    binary main_v30 main_v33 main_v34 (Host.divf : (⟨S8192x256, .f32⟩ : BufTy).Contents (Elt F) → (⟨S8192x256, .f32⟩ : BufTy).Contents (Elt F) → (⟨S8192x256, .f32⟩ : BufTy).Contents (Elt F)),
    binary main_v18 main_v34 main_v35 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]

set_option maxRecDepth 8192 in
set_option maxHeartbeats 4000000 in
/-- @main is that straight line: a call is its function's body applied, and a typed reference at a literal buffer
    moves contents along the identity. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., nullary_bufs_sub .., nullary_bufs_sub .., unary_bufs_sub .., binary_bufs_sub .., binary_bufs_sub ..,
    unary_bufs_sub .., binary_bufs_sub .., nullary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., binary_bufs_sub .., binary_bufs_sub ..⟩

/-! ## The run -/

set_option maxRecDepth 8192 in
set_option maxHeartbeats 28000000 in
/-- The line's fold at the result buffer is the stages' composition of the four arguments' contents: each operation's
    result read at its own buffer is its function of its operands' contents, and at any other buffer what was there. -/
theorem out_eq (V : Valuation τ sig (Elt F)) :
    after ops V (main_v35 : DevRef τ sig)
      = resR (V (main_arg0 : DevRef τ sig)) (V (main_arg1 : DevRef τ sig)) (V (main_arg2 : DevRef τ sig)) (V (main_arg3 : DevRef τ sig)) := by
  after_results_simp
  rfl

set_option maxRecDepth 8192 in
set_option maxHeartbeats 28000000 in
/-- No operation of the line writes an argument's buffer. -/
theorem arg0_eq (V : Valuation τ sig (Elt F)) : after ops V (main_arg0 : DevRef τ sig) = V (main_arg0 : DevRef τ sig) := by
  after_results_simp
set_option maxRecDepth 8192 in
set_option maxHeartbeats 28000000 in
theorem arg1_eq (V : Valuation τ sig (Elt F)) : after ops V (main_arg1 : DevRef τ sig) = V (main_arg1 : DevRef τ sig) := by
  after_results_simp
set_option maxRecDepth 8192 in
set_option maxHeartbeats 28000000 in
theorem arg2_eq (V : Valuation τ sig (Elt F)) : after ops V (main_arg2 : DevRef τ sig) = V (main_arg2 : DevRef τ sig) := by
  after_results_simp
set_option maxRecDepth 8192 in
set_option maxHeartbeats 28000000 in
theorem arg3_eq (V : Valuation τ sig (Elt F)) : after ops V (main_arg3 : DevRef τ sig) = V (main_arg3 : DevRef τ sig) := by
  after_results_simp

/-- On every device, for any float values, from any memory with zero counters: every weakly fair execution of @main
    terminates with the result buffer at `res` — the stages' composition of the four argument arrays as the launch
    left them — and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v35).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.RefRead.lean ====
/- The stages of the reference's composed term READ AT AN INDEX, over the extended reals (every float an extended
   real, every operation its textbook one). The identity matrix reads 1 on the diagonal and 0 off it (two row and
   column indices below 2³² are equal as 32-bit words exactly when they are equal); the adjacency with self-loops
   adds that to A; a row sum from the initial value 0 is the sum over the column index; the select on "degree > 0"
   is the `if`, with the power at the exponent the program writes (the pattern of -1/2); a column copied along the
   rows and a row copied down the columns read the vector at the row, respectively the column, index; and the
   final product is the sum over the one contracted index of the products of the operands' entries. The
   normalised features stay one unopened function here. -/
import proofs.«165052_j56281251446800_1_alg».proof.Proof.RefRun
import Idealize.ShloMosaic.Lib.ValueIdx
import Idealize.ShloMosaic.Lib.Pipeline.Value
import Idealize.ShloMosaic.PureOps.Ideal.Laws

noncomputable section

open scoped BigOperators

namespace Cert.ReferenceIdeal.RefRun

open Cert.ReferenceIdeal Cert.ReferenceIdeal.Gen Idealize.ShloMosaic Idealize.ShloMosaic.ValueIdx

/-- The 32-bit pattern 0xBF000000 denotes the real -1/2: sign set, exponent field 126, fraction 0. -/
theorem ofBits_neg_half : Ideal.ofBits .f32 0xBF000000#32 = ((-1 / 2 : ℝ) : EReal) := by
  have e1 : (0xBF000000#32 : BitVec 32).extractLsb' (8 + 23) 1 = 1#1 := by decide
  have e2 : ((0xBF000000#32 : BitVec 32).extractLsb' 23 8).toNat = 126 := by decide
  have e3 : ((0xBF000000#32 : BitVec 32).extractLsb' 0 23).toNat = 0 := by decide
  simp only [Ideal.ofBits, Ideal.ieee, e1, e2, e3]
  norm_num

/-- The identity matrix at (i, j): the comparison of the two indices as 32-bit words, read as a float, is 1 where
    i = j and 0 elsewhere — both indices are below 8192, so the words are equal exactly when the indices are. -/
theorem eyeR_apply (i j : Fin 8192) : eyeR (F := Ideal) (ix2 i j) = if i = j then 1 else 0 := by
  unfold eyeR
  show (((IntOp.cmpi .eq (IntOp.addi (BitVec.ofNat 32 i.val) 0#32) (BitVec.ofNat 32 j.val)).toNat : ℝ) : EReal) = _
  have hij : (BitVec.ofNat 32 i.val + 0#32 == BitVec.ofNat 32 j.val) = decide (i = j) := by
    have hi := i.isLt; have hj := j.isLt
    rw [BitVec.add_zero]
    by_cases h : i = j
    · subst h; simp
    · have hne : BitVec.ofNat 32 i.val ≠ BitVec.ofNat 32 j.val := by
        intro e; apply h; apply Fin.ext
        have := congrArg BitVec.toNat e
        simp only [BitVec.toNat_ofNat] at this
        omega
      simp [h, hne]
  simp only [IntOp.cmpi, IntOp.addi, hij]
  by_cases h : i = j <;> simp [h]

/-- The adjacency with self-loops at (i, j): A's entry plus the identity's. -/
theorem adjR_apply (a1 : (⟨S8192x8192, .f32⟩ : BufTy).Contents (Elt Ideal)) (i j : Fin 8192) :
    adjR a1 (ix2 i j) = a1 (ix2 i j) + (if i = j then 1 else 0) := by
  unfold adjR
  rw [addf_apply, eyeR_apply]

/-- The degree of row i: the sum over the column index of the entries of A + I (the initial value is the pattern of
    zero, and zero added to a sum is the sum). -/
theorem degR_apply (a1 : (⟨S8192x8192, .f32⟩ : BufTy).Contents (Elt Ideal)) (i : Fin 8192) :
    degR a1 (ix1 i) = ∑ j : Fin 8192, adjR a1 (ix2 i j) := by
  unfold degR Host.reduceAdd
  rw [Ideal.hostReduceAdd_def, Ideal.hostReduceAdd_single reducesTo_S8192x8192_S8192_d1 (by decide : S8192x8192.Reduces [1] S8192)]
  show Ideal.ofBits .f32 0x00000000#32 + ∑ k : Fin 8192, adjR a1 _ = _
  rw [Ideal.ofBits_zero_f32, zero_add]
  refine Finset.sum_congr rfl fun k _ => congrArg (adjR a1) ?_
  funext a
  match a with
  | ⟨0, _⟩ => rfl
  | ⟨1, _⟩ => rfl

/-- The same with the entries of A + I written out. -/
theorem degR_apply' (a1 : (⟨S8192x8192, .f32⟩ : BufTy).Contents (Elt Ideal)) (i : Fin 8192) :
    degR a1 (ix1 i) = ∑ j : Fin 8192, (a1 (ix2 i j) + (if i = j then 1 else 0)) := by
  rw [degR_apply]
  exact Finset.sum_congr rfl fun j _ => adjR_apply a1 i j

/-- The inverse square root of the degree at i: where the degree is above zero, the degree to the power the program
    writes (the pattern 0xBF000000, which denotes -1/2: `ofBits_neg_half`); elsewhere zero. -/
theorem dinvR_apply (a1 : (⟨S8192x8192, .f32⟩ : BufTy).Contents (Elt Ideal)) (i : Fin 8192) :
    dinvR a1 (ix1 i) = if 0 < degR a1 (ix1 i) then Ideal.pow (degR a1 (ix1 i)) (Ideal.ofBits .f32 0xBF000000#32) else 0 := by
  unfold dinvR
  show Scalar.select (Ideal.cmp .ogt (degR a1 (ix1 i)) (Ideal.ofBits .f32 0x00000000#32))
      (Ideal.pow (degR a1 (ix1 i)) (Ideal.ofBits .f32 0xBF000000#32)) (Ideal.ofBits .f32 0x00000000#32) = _
  rw [Ideal.ofBits_zero_f32]
  unfold Scalar.select Ideal.cmp
  by_cases h : 0 < degR a1 (ix1 i) <;> simp [h]

/-- The normalised adjacency at (i, j): the scale of row i times the entry of A + I, times the scale of column j, in
    that association. -/
theorem adjNormR_apply (a1 : (⟨S8192x8192, .f32⟩ : BufTy).Contents (Elt Ideal)) (i j : Fin 8192) :
    adjNormR a1 (ix2 i j) = (dinvR a1 (ix1 i) * adjR a1 (ix2 i j)) * dinvR a1 (ix1 j) := by
  unfold adjNormR
  rw [mulf_apply, mulf_apply]
  rw [broadcastInDim_apply _ bcast_S8192x1_S8192x8192_0_1 _ (ix2 i j) (ix2 i (0 : Fin 1)) (by intro a; match a with | ⟨0, _⟩ => rfl | ⟨1, _⟩ => rfl),
    broadcastInDim_apply _ bcast_S8192_S8192x1_0 _ (ix2 i (0 : Fin 1)) (ix1 i) (by intro a; match a with | ⟨0, _⟩ => rfl),
    broadcastInDim_apply _ bcast_S1x8192_S8192x8192_0_1 _ (ix2 i j) (ix2 (0 : Fin 1) j) (by intro a; match a with | ⟨0, _⟩ => rfl | ⟨1, _⟩ => rfl),
    broadcastInDim_apply _ bcast_S8192_S1x8192_1 _ (ix2 (0 : Fin 1) j) (ix1 j) (by intro a; match a with | ⟨0, _⟩ => rfl)]

/-- The result at (i, k): the sum over the contracted index j of the normalised adjacency's (i, j) entry times the
    normalised features' (j, k) entry. The two operand indices are named by equations and rewritten, never compared
    by unfolding the operands. -/
theorem resR_apply (a0 : (⟨S8192x256, .f32⟩ : BufTy).Contents (Elt Ideal)) (a1 : (⟨S8192x8192, .f32⟩ : BufTy).Contents (Elt Ideal)) (a2 : (⟨S256x256, .f32⟩ : BufTy).Contents (Elt Ideal)) (a3 : (⟨S256, .f32⟩ : BufTy).Contents (Elt Ideal)) (i : Fin 8192) (k : Fin 256) :
    resR a0 a1 a2 a3 (ix2 i k) = ∑ j : Fin 8192, adjNormR a1 (ix2 i j) * pnR a0 a2 a3 (ix2 j k) := by
  unfold resR
  simp only [Host.dotGeneral]
  rw [Ideal.dotGeneral_apply, ← Equiv.sum_comp (contrEquiv1 dot_S8192x8192_S8192x256_S8192x256_1_0_0_1_n_n 8192 rfl rfl).symm]
  refine Finset.sum_congr rfl fun j _ => ?_
  have hl : dot_S8192x8192_S8192x256_S8192x256_1_0_0_1_n_n.lhsIdx (ix2 i k) ((contrEquiv1 dot_S8192x8192_S8192x256_S8192x256_1_0_0_1_n_n 8192 rfl rfl).symm j) = ix2 i j := by
    funext a
    apply Fin.ext
    match a with
    | ⟨0, _⟩ => rfl
    | ⟨1, _⟩ => exact (dot_S8192x8192_S8192x256_S8192x256_1_0_0_1_n_n.lhsIdx_val_of_single rfl _ _).trans (contrEquiv1_symm_val _ 8192 rfl rfl j)
  have hr : dot_S8192x8192_S8192x256_S8192x256_1_0_0_1_n_n.rhsIdx (ix2 i k) ((contrEquiv1 dot_S8192x8192_S8192x256_S8192x256_1_0_0_1_n_n 8192 rfl rfl).symm j) = ix2 j k := by
    funext a
    apply Fin.ext
    match a with
    | ⟨0, _⟩ => exact (dot_S8192x8192_S8192x256_S8192x256_1_0_0_1_n_n.rhsIdx_val_of_single rfl _ _).trans (contrEquiv1_symm_val _ 8192 rfl rfl j)
    | ⟨1, _⟩ => rfl
  rw [hl, hr]

/-- The same with the normalised adjacency's entries written out. -/
theorem resR_apply' (a0 : (⟨S8192x256, .f32⟩ : BufTy).Contents (Elt Ideal)) (a1 : (⟨S8192x8192, .f32⟩ : BufTy).Contents (Elt Ideal)) (a2 : (⟨S256x256, .f32⟩ : BufTy).Contents (Elt Ideal)) (a3 : (⟨S256, .f32⟩ : BufTy).Contents (Elt Ideal)) (i : Fin 8192) (k : Fin 256) :
    resR a0 a1 a2 a3 (ix2 i k) = ∑ j : Fin 8192, ((dinvR a1 (ix1 i) * (a1 (ix2 i j) + (if i = j then 1 else 0))) * dinvR a1 (ix1 j)) * pnR a0 a2 a3 (ix2 j k) := by
  rw [resR_apply]
  refine Finset.sum_congr rfl fun j _ => ?_
  rw [adjNormR_apply, adjR_apply]

end Cert.ReferenceIdeal.RefRun

end
-- ==== Proof.RefValue.lean ====
/- The reference's result as the plain formula of the normalised graph convolution, over the extended reals, when
   every input entry is a real. The reference's normalised features are the same function as the kernel program's
   (the two programs print the same operations over the same literal shapes). With real entries: the row sums of
   A + I are the row sums of A plus one, a real; where that degree is positive its power at -1/2 is its reciprocal
   square root, a positive real, and elsewhere the scale is zero; the normalised features are reals; so every factor
   in the contraction's sum is the coercion of a real, and the ring law
     d_i · ((∑_j A_ij · (d_j · x_j)) + d_i · x_i) = ∑_j ((d_i · (A_ij + δ_ij)) · d_j) · x_j
   turns the reference's sum into the specification's layer. -/
import proofs.«165052_j56281251446800_1_alg».proof.Proof.RefRead
import proofs.«165052_j56281251446800_1_alg».proof.Proof.Spec
import proofs.«165052_j56281251446800_1_alg».proof.Proof.LibEReal
import proofs.«165052_j56281251446800_1_alg».proof.Proof.PairNorm
import proofs.«165052_j56281251446800_1_alg».proof.Proof.Gen.KernelIdeal

noncomputable section

open scoped BigOperators

namespace Cert.ReferenceIdeal.RefVal

open Cert.ReferenceIdeal Cert.ReferenceIdeal.RefRun Idealize.ShloMosaic Idealize.ShloMosaic.ValueIdx

/-- The reference's normalised features and the kernel program's are one function: the two programs print the same
    operations over the same literal shapes. -/
theorem pnR_eq_pn (a0 : (⟨S8192x256, .f32⟩ : BufTy).Contents (Elt Ideal)) (a2 : (⟨S256x256, .f32⟩ : BufTy).Contents (Elt Ideal)) (a3 : (⟨S256, .f32⟩ : BufTy).Contents (Elt Ideal)) :
    pnR (F := Ideal) a0 a2 a3 = Cert.KernelIdeal.PN.pn (F := Ideal) a0 a2 a3 := by
  unfold pnR normR linR Cert.KernelIdeal.PN.pn Cert.KernelIdeal.PN.pnOf Cert.KernelIdeal.PN.dev Cert.KernelIdeal.PN.var
    Cert.KernelIdeal.PN.dev Cert.KernelIdeal.PN.mean Cert.KernelIdeal.PN.nm1 Cert.KernelIdeal.PN.lin
  rfl

/-- With real entries the reference's degree is the specification's: the row sum of A + I is the row sum of A plus one. -/
theorem deg_eq (a1 : (⟨S8192x8192, .f32⟩ : BufTy).Contents (Elt Ideal)) (A : S8192x8192.Idx → ℝ) (hA : ∀ idx, a1 idx = (A idx : EReal)) (i : Fin 8192) :
    degR a1 (ix1 i) = Cert.Spec.deg a1 i := by
  rw [degR_apply']
  unfold Cert.Spec.deg
  simp only [hA]
  exact Cert.LibEReal.sum_add_diag (fun i j => A (ix2 i j)) i

/-- With real entries the degree is a real: the real row sum plus one. -/
theorem deg_coe (a1 : (⟨S8192x8192, .f32⟩ : BufTy).Contents (Elt Ideal)) (A : S8192x8192.Idx → ℝ) (hA : ∀ idx, a1 idx = (A idx : EReal)) (i : Fin 8192) :
    Cert.Spec.deg a1 i = (((∑ j : Fin 8192, A (ix2 i j)) + 1 : ℝ) : EReal) := by
  unfold Cert.Spec.deg
  simp only [hA]
  rw [EReal.coe_add, Cert.LibEReal.coe_finset_sum, EReal.coe_one]

/-- With real entries the reference's scale is the specification's: where the degree is positive the power at -1/2 is
    the reciprocal square root, elsewhere both are zero. -/
theorem dinv_eq (a1 : (⟨S8192x8192, .f32⟩ : BufTy).Contents (Elt Ideal)) (A : S8192x8192.Idx → ℝ) (hA : ∀ idx, a1 idx = (A idx : EReal)) (i : Fin 8192) :
    dinvR a1 (ix1 i) = Cert.Spec.dinv a1 i := by
  rw [dinvR_apply, deg_eq a1 A hA i]
  unfold Cert.Spec.dinv
  rw [deg_coe a1 A hA i]
  by_cases h : (0 : EReal) < (((∑ j : Fin 8192, A (ix2 i j)) + 1 : ℝ) : EReal)
  · rw [if_pos h, if_pos h, ofBits_neg_half, Cert.LibEReal.pow_neg_half_eq_rsqrt (EReal.coe_pos.mp h)]
  · rw [if_neg h, if_neg h]

/-- With real entries the scale is a real at every node. -/
theorem dinv_real (a1 : (⟨S8192x8192, .f32⟩ : BufTy).Contents (Elt Ideal)) (A : S8192x8192.Idx → ℝ) (hA : ∀ idx, a1 idx = (A idx : EReal)) (i : Fin 8192) :
    ∃ d : ℝ, Cert.Spec.dinv a1 i = (d : EReal) := by
  unfold Cert.Spec.dinv
  rw [deg_coe a1 A hA i]
  by_cases h : (0 : EReal) < (((∑ j : Fin 8192, A (ix2 i j)) + 1 : ℝ) : EReal)
  · obtain ⟨r, _, e⟩ := Cert.LibEReal.rsqrt_pos_real (EReal.coe_pos.mp h)
    exact ⟨r, by rw [if_pos h, e]⟩
  · exact ⟨0, by rw [if_neg h]; rfl⟩

/-- THE REFERENCE'S VALUE: with every input entry a real, the reference's result at (i, k) is the specification's layer
    of the adjacency and the normalised features. Every entry in the sum is rewritten to the coercion of a real, and
    the graph-convolution law on reals regroups the sum. -/
theorem ref_value (a0 : (⟨S8192x256, .f32⟩ : BufTy).Contents (Elt Ideal)) (a1 : (⟨S8192x8192, .f32⟩ : BufTy).Contents (Elt Ideal)) (a2 : (⟨S256x256, .f32⟩ : BufTy).Contents (Elt Ideal)) (a3 : (⟨S256, .f32⟩ : BufTy).Contents (Elt Ideal))
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (i : Fin 8192) (k : Fin 256) :
    resR (F := Ideal) a0 a1 a2 a3 (ix2 i k) = Cert.Spec.layer a1 (Cert.KernelIdeal.PN.pn (F := Ideal) a0 a2 a3) i k := by
  choose A hA using h1
  choose X hX using Cert.KernelIdeal.PN.pn_real a0 a2 a3 h0 h2 h3
  choose d hd using dinv_real a1 A hA
  have step : ∀ j : Fin 8192,
      ((dinvR a1 (ix1 i) * (a1 (ix2 i j) + (if i = j then (1 : EReal) else 0))) * dinvR a1 (ix1 j)) * pnR a0 a2 a3 (ix2 j k)
        = (((d i : EReal) * ((A (ix2 i j) : EReal) + (if i = j then (1 : EReal) else 0))) * (d j : EReal)) * (X (ix2 j k) : EReal) := by
    intro j
    rw [dinv_eq a1 A hA i, dinv_eq a1 A hA j, hd i, hd j, hA, pnR_eq_pn, hX]
  rw [resR_apply', Finset.sum_congr rfl fun j _ => step j]
  unfold Cert.Spec.layer Cert.Spec.agg Cert.Spec.scaled
  simp only [hd, hA, hX]
  exact (Cert.LibEReal.gcn_law d (fun i j => A (ix2 i j)) (fun j => X (ix2 j k)) i).symm

end Cert.ReferenceIdeal.RefVal

end
-- ==== Proof.PreReal.lean ====
/-
  The precondition "every float input is finite", decoded: it says that the four argument arrays of
  the program hold reals (no infinity) at every index, on every core.
-/
import proofs.«165052_j56281251446800_1_alg».proof.Defs
import proofs.«165052_j56281251446800_1_alg».proof.Proof.Gen.Pre_finite_inputs
import Idealize.ShloMosaic.Lib.ReduceAll
import Idealize.ShloMosaic.Lib.ValueIdx
import Idealize.ShloMosaic.PureOps.Ideal

noncomputable section

namespace Cert.KernelIdeal.PreReal

open Idealize.ShloMosaic Idealize.SL.Sem

/-- A shape of rank zero has exactly one index. -/
instance : Subsingleton Cert.Pre_finite_inputs.S_.Idx := ⟨fun a b => funext fun d => d.elim0⟩

/-- The pattern `0x7F800000` of the 32-bit format denotes `+∞`. -/
theorem inf_pattern : Ideal.ofBits .f32 0x7F800000#32 = (⊤ : EReal) := by
  simp [Ideal.ofBits, Ideal.ieee]

/-- An extended real whose absolute value is strictly below `+∞` is a real. -/
theorem real_of_abs_lt_inf (x : EReal)
    (h : Ideal.cmp .olt (max x (-x)) (Ideal.ofBits .f32 0x7F800000#32) = 1#1) :
    ∃ r : ℝ, x = (r : EReal) := by
  rw [inf_pattern] at h
  have hlt : max x (-x) < ⊤ := by
    by_contra hn
    simp [Ideal.cmp, hn] at h
  induction x using EReal.rec with
  | bot => simp at hlt
  | coe r => exact ⟨r, rfl⟩
  | top => simp at hlt

/-- `jnp.all (|x| < +∞)` holding of an array says every entry of the array is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) :
    ∀ i, ∃ r : ℝ, x i = (r : EReal) := fun i =>
  real_of_abs_lt_inf (x i) (Host.reduce_andi_all _ _ hr hu j e i)

variable (m : (ℓ : Loc Cert.KernelIdeal.nD Cert.KernelIdeal.τ Cert.KernelIdeal.sig) → Buf (Elt Ideal) ℓ)

/-- The four conjuncts of the precondition on one core: each argument array holds only reals. -/
theorem split (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1, andi] at h0
  -- the result is the conjunction ((p0 and p1) and p2) and p3 of the four "all entries finite" words
  obtain ⟨h012, e3⟩ := IntOp.andi_eq_one.1 h0
  obtain ⟨h01, e2⟩ := IntOp.andi_eq_one.1 h012
  obtain ⟨e0, e1⟩ := IntOp.andi_eq_one.1 h01
  exact ⟨all_real _ _ _ _ _ e0, all_real _ _ _ _ _ e1, all_real _ _ _ _ _ e2, all_real _ _ _ _ _ e3⟩

/-- Under the precondition, the first argument array (the node features) holds only reals. -/
theorem arg0_real (h : Cert.Pre_KernelIdeal (hPre_finite_inputs := Cert.Pre_finite_inputs.Gen.facts) m)
    (c : Dev Cert.KernelIdeal.nD) :
    ∀ i, ∃ r : ℝ, m ((c.tc : Thread Cert.KernelIdeal.nD Cert.KernelIdeal.τ).loc Cert.KernelIdeal.main_arg0) i = (r : EReal) :=
  (split m h c).1

/-- Under the precondition, the second argument array (the adjacency matrix) holds only reals. -/
theorem arg1_real (h : Cert.Pre_KernelIdeal (hPre_finite_inputs := Cert.Pre_finite_inputs.Gen.facts) m)
    (c : Dev Cert.KernelIdeal.nD) :
    ∀ i, ∃ r : ℝ, m ((c.tc : Thread Cert.KernelIdeal.nD Cert.KernelIdeal.τ).loc Cert.KernelIdeal.main_arg1) i = (r : EReal) :=
  (split m h c).2.1

/-- Under the precondition, the third argument array (the weight matrix) holds only reals. -/
theorem arg2_real (h : Cert.Pre_KernelIdeal (hPre_finite_inputs := Cert.Pre_finite_inputs.Gen.facts) m)
    (c : Dev Cert.KernelIdeal.nD) :
    ∀ i, ∃ r : ℝ, m ((c.tc : Thread Cert.KernelIdeal.nD Cert.KernelIdeal.τ).loc Cert.KernelIdeal.main_arg2) i = (r : EReal) :=
  (split m h c).2.2.1

/-- Under the precondition, the fourth argument array (the bias) holds only reals. -/
theorem arg3_real (h : Cert.Pre_KernelIdeal (hPre_finite_inputs := Cert.Pre_finite_inputs.Gen.facts) m)
    (c : Dev Cert.KernelIdeal.nD) :
    ∀ i, ∃ r : ℝ, m ((c.tc : Thread Cert.KernelIdeal.nD Cert.KernelIdeal.τ).loc Cert.KernelIdeal.main_arg3) i = (r : EReal) :=
  (split m h c).2.2.2

end Cert.KernelIdeal.PreReal
-- ==== Proof.lean ====
/-
  The certificate of a normalised graph convolution. Both programs compute, from an adjacency array
  A : [8192, 8192] and node features X : [8192, 256] with weights W and bias b,
    x    = the features X·Wᵀ + b centred and scaled column by column (mean and standard deviation over the nodes),
    deg  = the row sums of A + I,   d = deg^(-1/2) where deg > 0 and 0 elsewhere,
    out  = D (A + I) D x,           D = diag d.
  The reference forms the normalised adjacency D (A + I) D as an array and multiplies it with x. The kernel never
  forms it: a first pipelined call accumulates the row sums of A block by block and leaves d; the host scales
  y = d ⊙ x; a second pipelined call accumulates A·y block by block, adds y (the identity's share) and scales by d
  again. On the extended reals the two agree because every entry involved is a real: the inputs by the
  precondition, x because a standard deviation is a real ≥ 0 and 1e-6 is added before dividing by it, d because
  the reciprocal square root of a positive real is a positive real — so the ring laws that move d across the sum and
  split (A + I)·(…) into A·(…) + (…) hold; and for a positive real the power -1/2 is the reciprocal square root.
  The sums over 8192 columns are regrouped as 4 blocks of 2048, which addition's commutativity and associativity
  allow at any values.
  The three frames: each kernel program's run is the several-regions launch over its two regions, each region's body
  run in its three cases (first, middle, last point of a row block); the reference's run is its host operations in order.
-/
import proofs.«165052_j56281251446800_1_alg».proof.Defs
import proofs.«165052_j56281251446800_1_alg».proof.Proof.Gen.Kernel
import proofs.«165052_j56281251446800_1_alg».proof.Proof.Gen.KernelIdeal
import proofs.«165052_j56281251446800_1_alg».proof.Proof.Gen.ReferenceIdeal
import proofs.«165052_j56281251446800_1_alg».proof.Proof.Gen.Pre_finite_inputs
import proofs.«165052_j56281251446800_1_alg».proof.Proof.Assemble
import proofs.«165052_j56281251446800_1_alg».proof.Proof.WAssemble
import proofs.«165052_j56281251446800_1_alg».proof.Proof.KernelValue
import proofs.«165052_j56281251446800_1_alg».proof.Proof.R0Value
import proofs.«165052_j56281251446800_1_alg».proof.Proof.R1Value
import proofs.«165052_j56281251446800_1_alg».proof.Proof.RefValue
import proofs.«165052_j56281251446800_1_alg».proof.Proof.PreReal
import Idealize.ShloMosaic.Adequacy
import Idealize.ShloMosaic.Init

noncomputable section

namespace Cert.Proof

open Idealize.ShloMosaic Idealize.SL.Sem Idealize.ShloMosaic.ValueIdx

/-- The word-level kernel program runs and leaves its arguments unchanged. -/
theorem frame_p : Cert.frame_Kernel := fun m ρ _ =>
  (θ_run (Cert.Kernel.defs (F := Bits)) _ _).mono (fun _ h c => (h c).2) (Cert.Kernel.Hand.run_value (F := Bits) m ρ)

/-- So does the idealized kernel program. -/
theorem frame_pi : Cert.frame_KernelIdeal := fun m ρ _ =>
  (θ_run (Cert.KernelIdeal.defs (F := Ideal)) _ _).mono (fun _ h c => (h c).2) (Cert.KernelIdeal.Hand.run_value (F := Ideal) m ρ)

/-- And the idealized reference: its run with the result dropped. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The idealization rewrote nothing. -/
theorem preserves : Cert.preserves_Kernel_KernelIdeal := trivial

/-- Run from memories that agree on the arguments, the two idealized programs end with the same result array:
    entry (i, k) of either is the layer's formula of the adjacency array and the normalised features. -/
theorem algebraic : Cert.algebraic_KernelIdeal_ReferenceIdeal := by
  intro m ρ m' ρ' hpre hagree
  refine ⟨fun c => Cert.KernelIdeal.Hand.outArr (F := Ideal) m c, Cert.KernelIdeal.Hand.run_value (F := Ideal) m ρ, ?_⟩
  refine (θ_run (Cert.ReferenceIdeal.defs (F := Ideal)) _ _).mono (fun _ h c => ⟨(h c).1.trans ?_, (h c).2⟩)
    (Cert.ReferenceIdeal.RefRun.run (F := Ideal) m' ρ')
  funext idx
  obtain ⟨i, k, rfl⟩ : ∃ (i : Fin 8192) (k : Fin 256), idx = ix2 i k := ⟨idx 0, idx 1, eq_ix2 (n0 := 8192) (n1 := 256) idx⟩
  show Cert.ReferenceIdeal.RefRun.resR _ _ _ _ (ix2 i k) = _
  rw [(hagree c).1, (hagree c).2.1, (hagree c).2.2.1, (hagree c).2.2.2]
  refine (Cert.ReferenceIdeal.RefVal.ref_value _ _ _ _
    (Cert.KernelIdeal.PreReal.arg0_real m hpre c) (Cert.KernelIdeal.PreReal.arg1_real m hpre c)
    (Cert.KernelIdeal.PreReal.arg2_real m hpre c) (Cert.KernelIdeal.PreReal.arg3_real m hpre c) i k).trans ?_
  exact (Cert.KernelIdeal.Val.kernel_value m c i k).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
